-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S4096x50 : Shape := ⟨2, ![4096, 50]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x50 : S_.BroadcastsInDim S4096x50 (![] : Fin 0 → Fin S4096x50.rank)
  reducesTo_S4096x50_S_d0_1 : S4096x50.ReducesTo [0, 1] S_

variable [Facts]

def fn_part1 {F : FTy → Type} [FloatOps F] (main_v10 : IVec S_ 1) (main_v15 : IVec S4096x50 1) (main_c_5 : IVec S_ 1) : IVec S_ 1 :=
  let main_v16 : IVec S_ 1 := (fun x v => Host.reduce IntOp.andi x v reducesTo_S4096x50_S_d0_1 h_S_) main_v15 main_c_5
  let main_v17 : IVec S_ 1 := andi main_v10 main_v16
  main_v17

def fn {F : FTy → Type} [FloatOps F] (main_arg0 : FVec F S4096x32000 .f32) (main_arg1 : IVec S4096 32) (main_arg2 : IVec S4096x50 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 32000#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  let main_c_3 : IVec S_ 32 := constantI S_ 32 0#32
  let main_v11 : IVec S4096x50 32 := broadcastInDim S4096x50 ![] bcast_S_S4096x50 main_c_3
  let main_v12 : IVec S4096x50 1 := cmpi .sge main_arg2 main_v11
  let main_c_4 : IVec S_ 32 := constantI S_ 32 32000#32
  let main_v13 : IVec S4096x50 32 := broadcastInDim S4096x50 ![] bcast_S_S4096x50 main_c_4
  let main_v14 : IVec S4096x50 1 := cmpi .slt main_arg2 main_v13
  let main_v15 : IVec S4096x50 1 := andi main_v12 main_v14
  let main_c_5 : IVec S_ 1 := constantI S_ 1 1#1
  fn_part1 (F := F) main_v10 main_v15 main_c_5
-- ==== Kernel.lean ====
abbrev S4096x32000 : Shape := ⟨2, ![4096, 32000]⟩
abbrev S4096 : Shape := ⟨1, ![4096]⟩
abbrev S4096x50 : Shape := ⟨2, ![4096, 50]⟩
abbrev S4096x2 : Shape := ⟨2, ![4096, 2]⟩
abbrev S64x32000 : Shape := ⟨2, ![64, 32000]⟩
abbrev S64x2 : Shape := ⟨2, ![64, 2]⟩
abbrev S64 : Shape := ⟨1, ![64]⟩
abbrev S64x1 : Shape := ⟨2, ![64, 1]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S4096x50x1 : Shape := ⟨3, ![4096, 50, 1]⟩

abbrev nBuf : Space → Nat
  | .hbm => 90
  | .vmem => 4
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x50, .i32⟩
  | .hbm, ⟨3, _⟩ => ⟨S4096x2, .f32⟩
  | .hbm, ⟨4, _⟩ => ⟨S4096x1, .f32⟩
  | .hbm, ⟨5, _⟩ => ⟨S4096, .f32⟩
  | .hbm, ⟨6, _⟩ => ⟨S4096x1, .f32⟩
  | .hbm, ⟨7, _⟩ => ⟨S4096, .f32⟩
  | .hbm, ⟨8, _⟩ => ⟨S4096x1, .i32⟩
  | .hbm, ⟨9, _⟩ => ⟨S_, .i32⟩
  | .hbm, ⟨10, _⟩ => ⟨S4096x1, .i32⟩
  | .hbm, ⟨11, _⟩ => ⟨S4096x1, .i1⟩
  | .hbm, ⟨12, _⟩ => ⟨S_, .i32⟩
  | .hbm, ⟨13, _⟩ => ⟨S4096x1, .i32⟩
  | .hbm, ⟨14, _⟩ => ⟨S4096x1, .i32⟩
  | .hbm, ⟨15, _⟩ => ⟨S4096x1, .i32⟩
  | .hbm, ⟨16, _⟩ => ⟨S4096x1x1, .i32⟩
  | .hbm, ⟨17, _⟩ => ⟨S1, .i32⟩
  | .hbm, ⟨18, _⟩ => ⟨S_, .i32⟩
  | .hbm, ⟨19, _⟩ => ⟨S4096x1x1, .i32⟩
  | .hbm, ⟨20, _⟩ => ⟨S4096x1x1, .i1⟩
  | .hbm, ⟨21, _⟩ => ⟨S1x1x1, .i32⟩
  | .hbm, ⟨22, _⟩ => ⟨S4096x1x1, .i32⟩
  | .hbm, ⟨23, _⟩ => ⟨S4096x1x1, .i1⟩
  | .hbm, ⟨24, _⟩ => ⟨S4096x1x1, .i1⟩
  | .hbm, ⟨25, _⟩ => ⟨S_, .i1⟩
  | .hbm, ⟨26, _⟩ => ⟨S4096x1, .i1⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096, .f32⟩
  | .hbm, ⟨32, _⟩ => ⟨S_, .i32⟩
  | .hbm, ⟨33, _⟩ => ⟨S4096x50, .i32⟩
  | .hbm, ⟨34, _⟩ => ⟨S4096x50, .i1⟩
  | .hbm, ⟨35, _⟩ => ⟨S_, .i32⟩
  | .hbm, ⟨36, _⟩ => ⟨S4096x50, .i32⟩
  | .hbm, ⟨37, _⟩ => ⟨S4096x50, .i32⟩
  | .hbm, ⟨38, _⟩ => ⟨S4096x50, .i32⟩
  | .hbm, ⟨39, _⟩ => ⟨S4096x50x1, .i32⟩
  | .hbm, ⟨40, _⟩ => ⟨S1, .i32⟩
  | .hbm, ⟨41, _⟩ => ⟨S_, .i32⟩
  | .hbm, ⟨42, _⟩ => ⟨S4096x50x1, .i32⟩
  | .hbm, ⟨43, _⟩ => ⟨S4096x50x1, .i1⟩
  | .hbm, ⟨44, _⟩ => ⟨S1x1x1, .i32⟩
  | .hbm, ⟨45, _⟩ => ⟨S4096x50x1, .i32⟩
  | .hbm, ⟨46, _⟩ => ⟨S4096x50x1, .i1⟩
  | .hbm, ⟨47, _⟩ => ⟨S4096x50x1, .i1⟩
  | .hbm, ⟨48, _⟩ => ⟨S_, .i1⟩
  | .hbm, ⟨49, _⟩ => ⟨S4096x50, .i1⟩
  | .hbm, ⟨50, _⟩ => ⟨S4096x50, .f32⟩
  | .hbm, ⟨51, _⟩ => ⟨S_, .f32⟩
  | .hbm, ⟨52, _⟩ => ⟨S4096x50, .f32⟩
  | .hbm, ⟨53, _⟩ => ⟨S4096x50, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S4096, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S64x2, .f32⟩
  | .local _ .vmem, ⟨3, _⟩ => ⟨S64x2, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v8 : Ref sig .tc := ⟨.hbm, 53, rfl⟩
abbrev main_cst : Ref sig .tc := ⟨.hbm, 54, rfl⟩
abbrev main_v9 : Ref sig .tc := ⟨.hbm, 55, rfl⟩
abbrev main_v10 : Ref sig .tc := ⟨.hbm, 56, rfl⟩
abbrev main_cst_0 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_cst_1 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_cst_2 : Ref sig .tc := ⟨.hbm, 65, rfl⟩
abbrev main_v17 : Ref sig .tc := ⟨.hbm, 66, rfl⟩
abbrev main_v18 : Ref sig .tc := ⟨.hbm, 67, rfl⟩
abbrev main_cst_3 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_cst_4 : Ref sig .tc := ⟨.hbm, 72, rfl⟩
abbrev main_v22 : Ref sig .tc := ⟨.hbm, 73, rfl⟩
abbrev main_v23 : Ref sig .tc := ⟨.hbm, 74, rfl⟩
abbrev main_cst_5 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_cst_6 : Ref sig .tc := ⟨.hbm, 79, rfl⟩
abbrev main_v27 : Ref sig .tc := ⟨.hbm, 80, rfl⟩
abbrev main_v28 : Ref sig .tc := ⟨.hbm, 81, rfl⟩
abbrev main_cst_7 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_cst_8 : Ref sig .tc := ⟨.hbm, 86, rfl⟩
abbrev main_v32 : Ref sig .tc := ⟨.hbm, 87, rfl⟩
abbrev main_cst_9 : Ref sig .tc := ⟨.hbm, 88, rfl⟩
abbrev main_v33 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x32000_S64x32000_0_0 : ∀ a, (![0, 0] : Fin 2 → Nat) a + S64x32000.size a ≤ S64x32000.size a
  h_S64x32000 : 0 < S64x32000.numel
  reduces_S64x32000_S64 : S64x32000.Reduces [1] S64
  shapeCasts_S64_S64x1 : S64.ShapeCasts S64x1
  broadcasts_S64x1_S64x32000 : S64x1.Broadcasts S64x32000
  inb_S64x2_S64x1_0_0 : ∀ a, (![0, 0] : Fin 2 → Nat) a + S64x1.size a ≤ S64x2.size a
  h_S64x1 : 0 < S64x1.numel
  inb_S64x2_S64x1_0_1 : ∀ a, (![0, 1] : Fin 2 → Nat) a + S64x1.size a ≤ S64x2.size a
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  bcast_S_S4096x50 : S_.BroadcastsInDim S4096x50 (![] : Fin 0 → Fin S4096x50.rank)
  shapeCasts_S4096x50_S4096x50x1 : S4096x50.ShapeCasts S4096x50x1
  bcast_S_S4096x50x1 : S_.BroadcastsInDim S4096x50x1 (![] : Fin 0 → Fin S4096x50x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  reducesTo_S4096x50_S4096_d1 : S4096x50.ReducesTo [1] S4096
  bcast_S_S4096 : S_.BroadcastsInDim S4096 (![] : Fin 0 → Fin S4096.rank)
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]
  gather_S4096x32000_S4096x50x1_S4096x50_n_1_0_0_1_2_11_wf : GatherDims.WF S4096x32000 S4096x50x1 S4096x50 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S4096x32000.size a
  hwx0_0 : ∀ i : grid0.Coords, EltTy.bits .f32 = 32 ∨ (Rect.block (s := S4096x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2.size a ≤ S4096x2.size a
  hwx0_1 : ∀ i : grid0.Coords, EltTy.bits .f32 = 32 ∨ (Rect.block (s := S4096x2) S64x2.size (cc0_transform_1 i) (hinb0_1 i)).WholeWords (EltTy.packing .f32)

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf
def gather_S4096x32000_S4096x50x1_S4096x50_n_1_0_0_1_2_11 : GatherDims S4096x32000 S4096x50x1 S4096x50 where
  offsetDims := []
  collapsedSliceDims := [1]
  operandBatchingDims := [0]
  startIndicesBatchingDims := [0]
  startIndexMap := [1]
  indexVectorDim := 2
  sliceSizes := ![1, 1]
  wf := gather_S4096x32000_S4096x50x1_S4096x50_n_1_0_0_1_2_11_wf

abbrev win0_0 : Pipeline.Window sig grid0 :=
  Pipeline.Window.ofSpec (Memref.whole main_arg0) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x2.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x32000 : Shape := ⟨2, ![4096, 32000]⟩
abbrev S4096 : Shape := ⟨1, ![4096]⟩
abbrev S4096x50 : Shape := ⟨2, ![4096, 50]⟩
abbrev S_ : Shape := ⟨0, ![]⟩
abbrev S4096x1 : Shape := ⟨2, ![4096, 1]⟩
abbrev S4096x50x1 : Shape := ⟨3, ![4096, 50, 1]⟩
abbrev S4096x50x2 : Shape := ⟨3, ![4096, 50, 2]⟩
abbrev S1x32000 : Shape := ⟨2, ![1, 32000]⟩
abbrev S32000 : Shape := ⟨1, ![32000]⟩

abbrev nBuf : Space → Nat
  | .hbm => 82
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x50, .i32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S4096x32000, .f32⟩
  | .hbm, ⟨10, _⟩ => ⟨S4096x32000, .f32⟩
  | .hbm, ⟨11, _⟩ => ⟨S4096x32000, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x1, .f32⟩
  | .hbm, ⟨16, _⟩ => ⟨S4096x32000, .f32⟩
  | .hbm, ⟨17, _⟩ => ⟨S4096x32000, .f32⟩
  | .hbm, ⟨18, _⟩ => ⟨S4096, .i32⟩
  | .hbm, ⟨19, _⟩ => ⟨S4096x1, .i32⟩
  | .hbm, ⟨20, _⟩ => ⟨S4096x50, .i32⟩
  | .hbm, ⟨21, _⟩ => ⟨S_, .f32⟩
  | .hbm, ⟨22, _⟩ => ⟨S4096x32000, .f32⟩
  | .hbm, ⟨23, _⟩ => ⟨S_, .i32⟩
  | .hbm, ⟨24, _⟩ => ⟨S4096x50, .i32⟩
  | .hbm, ⟨25, _⟩ => ⟨S4096x50, .i1⟩
  | .hbm, ⟨26, _⟩ => ⟨S_, .i32⟩
  | .hbm, ⟨27, _⟩ => ⟨S4096x50, .i32⟩
  | .hbm, ⟨28, _⟩ => ⟨S4096x50, .i32⟩
  | .hbm, ⟨29, _⟩ => ⟨S4096x50, .i32⟩
  | .hbm, ⟨30, _⟩ => ⟨S_, .i32⟩
  | .hbm, ⟨31, _⟩ => ⟨S4096x50, .i32⟩
  | .hbm, ⟨32, _⟩ => ⟨S4096x50, .i1⟩
  | .hbm, ⟨33, _⟩ => ⟨S_, .i32⟩
  | .hbm, ⟨34, _⟩ => ⟨S4096x50, .i32⟩
  | .hbm, ⟨35, _⟩ => ⟨S4096x50, .i32⟩
  | .hbm, ⟨36, _⟩ => ⟨S4096x50, .i32⟩
  | .hbm, ⟨37, _⟩ => ⟨S4096x50x1, .i32⟩
  | .hbm, ⟨38, _⟩ => ⟨S4096x50x1, .i32⟩
  | .hbm, ⟨39, _⟩ => ⟨S4096x50x2, .i32⟩
  | .hbm, ⟨40, _⟩ => ⟨S_, .f32⟩
  | .hbm, ⟨41, _⟩ => ⟨S4096x50, .f32⟩
  | .hbm, ⟨42, _⟩ => ⟨S4096x32000, .f32⟩
  | .hbm, ⟨43, _⟩ => ⟨S4096x1, .i32⟩
  | .hbm, ⟨44, _⟩ => ⟨S1x32000, .i32⟩
  | .hbm, ⟨45, _⟩ => ⟨S4096x32000, .i32⟩
  | .hbm, ⟨46, _⟩ => ⟨S4096x32000, .i32⟩
  | .hbm, ⟨47, _⟩ => ⟨S4096x32000, .i1⟩
  | .hbm, ⟨48, _⟩ => ⟨S4096x32000, .f32⟩
  | .hbm, ⟨49, _⟩ => ⟨S_, .f32⟩
  | .hbm, ⟨50, _⟩ => ⟨S4096x32000, .f32⟩
  | .hbm, ⟨51, _⟩ => ⟨S4096x32000, .f32⟩
  | .hbm, ⟨52, _⟩ => ⟨S4096x32000, .f32⟩
  | .hbm, ⟨53, _⟩ => ⟨S_, .f32⟩
  | .hbm, ⟨54, _⟩ => ⟨S4096x32000, .f32⟩
  | .hbm, ⟨55, _⟩ => ⟨S4096x32000, .f32⟩
  | .hbm, ⟨56, _⟩ => ⟨S_, .f32⟩
  | .hbm, ⟨57, _⟩ => ⟨S4096x32000, .f32⟩
  | .hbm, ⟨58, _⟩ => ⟨S4096x32000, .f32⟩
  | .hbm, ⟨59, _⟩ => ⟨S4096x32000, .f32⟩
  | .hbm, ⟨60, _⟩ => ⟨S4096x32000, .f32⟩
  | .hbm, ⟨61, _⟩ => ⟨S_, .f32⟩
  | .hbm, ⟨62, _⟩ => ⟨S32000, .f32⟩
  | .hbm, ⟨63, _⟩ => ⟨S_, .f32⟩
  | .hbm, ⟨64, _⟩ => ⟨S32000, .f32⟩
  | .hbm, ⟨65, _⟩ => ⟨S32000, .f32⟩
  | .hbm, ⟨66, _⟩ => ⟨S_, .f32⟩
  | .hbm, ⟨67, _⟩ => ⟨S_, .f32⟩
  | .hbm, ⟨68, _⟩ => ⟨S4096x32000, .f32⟩
  | .hbm, ⟨69, _⟩ => ⟨S4096x32000, .f32⟩
  | .hbm, ⟨70, _⟩ => ⟨S_, .f32⟩
  | .hbm, ⟨71, _⟩ => ⟨S32000, .f32⟩
  | .hbm, ⟨72, _⟩ => ⟨S_, .f32⟩
  | .hbm, ⟨73, _⟩ => ⟨S32000, .f32⟩
  | .hbm, ⟨74, _⟩ => ⟨S32000, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_1 : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v20 : Ref sig .tc := ⟨.hbm, 48, rfl⟩
abbrev main_cst_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_5 : Ref sig .tc := ⟨.hbm, 53, rfl⟩
abbrev main_v24 : Ref sig .tc := ⟨.hbm, 54, rfl⟩
abbrev main_v25 : Ref sig .tc := ⟨.hbm, 55, rfl⟩
abbrev main_cst_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_7 : Ref sig .tc := ⟨.hbm, 61, rfl⟩
abbrev main_v30 : Ref sig .tc := ⟨.hbm, 62, rfl⟩
abbrev main_cst_8 : Ref sig .tc := ⟨.hbm, 63, rfl⟩
abbrev main_v31 : Ref sig .tc := ⟨.hbm, 64, rfl⟩
abbrev main_v32 : Ref sig .tc := ⟨.hbm, 65, rfl⟩
abbrev main_cst_9 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_10 : Ref sig .tc := ⟨.hbm, 70, rfl⟩
abbrev main_v36 : Ref sig .tc := ⟨.hbm, 71, rfl⟩
abbrev main_cst_11 : Ref sig .tc := ⟨.hbm, 72, rfl⟩
abbrev main_v37 : Ref sig .tc := ⟨.hbm, 73, rfl⟩
abbrev main_v38 : Ref sig .tc := ⟨.hbm, 74, rfl⟩
abbrev main_cst_12 : Ref sig .tc := ⟨.hbm, 75, rfl⟩
abbrev main_v39 : Ref sig .tc := ⟨.hbm, 76, rfl⟩
abbrev main_cst_13 : Ref sig .tc := ⟨.hbm, 77, rfl⟩
abbrev main_v40 : Ref sig .tc := ⟨.hbm, 78, rfl⟩
abbrev main_cst_14 : Ref sig .tc := ⟨.hbm, 79, rfl⟩
abbrev main_v41 : Ref sig .tc := ⟨.hbm, 80, rfl⟩
abbrev main_v42 : Ref sig .tc := ⟨.hbm, 81, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S4096x1_S4096x50_0_1 : S4096x1.BroadcastsInDim S4096x50 (![0, 1] : Fin 2 → Fin S4096x50.rank)
  bcast_S_S4096x32000 : S_.BroadcastsInDim S4096x32000 (![] : Fin 0 → Fin S4096x32000.rank)
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  concatenates_S4096x50x1_S4096x50x1_S4096x50x2_d2 : Shape.Concatenates [S4096x50x1, S4096x50x1] S4096x50x2 2
  bcast_S1x32000_S4096x32000_0_1 : S1x32000.BroadcastsInDim S4096x32000 (![0, 1] : Fin 2 → Fin S4096x32000.rank)
  reducesTo_S4096x32000_S32000_d0 : S4096x32000.ReducesTo [0] S32000
  bcast_S_S32000 : S_.BroadcastsInDim S32000 (![] : Fin 0 → Fin S32000.rank)
  reducesTo_S32000_S_d0 : S32000.ReducesTo [0] S_
  scatter_S4096x32000_S4096x50x2_S4096x50_n_01_01_2_wf : ScatterDims.WF S4096x32000 S4096x50x2 S4096x50 [] [0, 1] [0, 1] 2

variable [Facts₀]

def scatter_S4096x32000_S4096x50x2_S4096x50_n_01_01_2 : ScatterDims S4096x32000 S4096x50x2 S4096x50 where
  updateWindowDims := []
  insertedWindowDims := [0, 1]
  scatterDimsToOperandDims := [0, 1]
  indexVectorDim := 2
  wf := scatter_S4096x32000_S4096x50x2_S4096x50_n_01_01_2_wf

class Facts : Prop extends Facts₀ where

variable [Facts]
-- ==== Proof.KernelTail.lean ====
/-
  The idealized kernel's run, stated for any float instance: the one pipelined region (64 grid points, each
  reading a block of 64 rows of the logits and writing the 64×2 block of row statistics), followed by the host
  lines that gather, combine and average. What each grid point leaves in the statistics block is the pair of
  stores of the body (column 0: row maximum plus the log of the shifted exponentials' sum; column 1: the row sum),
  read back as one block; the run ends with every array of the region at the contents the blocks determine and every
  other buffer at what the host lines compute from them; the argument arrays end as they began.
-/
import proofs.«116322_j81320910782918_1_alg».proof.Proof.Gen.Kernel.Launch
import proofs.«116322_j81320910782918_1_alg».proof.Proof.Gen.Kernel.Skeleton
import proofs.«116322_j81320910782918_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines after the region, stretch by stretch: the two slices of the statistics, the target gather,
    the soft-index gather, and the arithmetic down to the mean. -/
abbrev tailOps : List (List (HloOp τ sig (Elt F))) := [hostOps1, hostOps1_1, hostOps1_2, hostOps1_3, hostOps1_4]

/-- The buffers as the region finds them: as launched (no host line precedes the region). -/
abbrev V0 (c : Dev nD) : Valuation τ sig (Elt F) := StableHlo.after (List.flatten []) (fun b => m (c, b))
/-- The same read at a reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- The program is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The host lines touch unscoped references only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- A line writes neither the logits nor the statistics array: its one written buffer is its own result. -/
theorem keeps_of_forall {ops : List (HloOp τ sig (Elt F))}
    (h : ops.Forall fun op => ∀ w : Fin 2, Proc.devRef .tc (Pipeline.arrRef spec0 w) ∉ op.writes) :
    ∀ op ∈ ops, ∀ w : Fin 2, Proc.devRef .tc (Pipeline.arrRef spec0 w) ∉ op.writes :=
  fun op hop => (List.forall_iff_forall_mem.mp h) op hop

/-! ## No host line writes an array of the region -/

theorem hostOps1_keeps : (hostOps1 : List (HloOp τ sig (Elt F))).Forall fun op => ∀ w : Fin 2, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

theorem hostOps1_1_keeps : (hostOps1_1 : List (HloOp τ sig (Elt F))).Forall fun op => ∀ w : Fin 2, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

theorem hostOps1_2_keeps : (hostOps1_2 : List (HloOp τ sig (Elt F))).Forall fun op => ∀ w : Fin 2, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

theorem hostOps1_3_keeps : (hostOps1_3 : List (HloOp τ sig (Elt F))).Forall fun op => ∀ w : Fin 2, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

theorem hostOps1_4_keeps : (hostOps1_4 : List (HloOp τ sig (Elt F))).Forall fun op => ∀ w : Fin 2, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

/-- No host line writes the logits or the statistics array. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact keeps_of_forall hostOps1_keeps op hop
  · exact keeps_of_forall hostOps1_1_keeps op hop
  · exact keeps_of_forall hostOps1_2_keeps op hop
  · exact keeps_of_forall hostOps1_3_keeps op hop
  · exact keeps_of_forall hostOps1_4_keeps op hop

end Cert.Kernel.Hand

end
-- ==== Proof.KernelRun.lean ====
/-
  The region's body and the whole run, for any float instance. A grid point reads its 64×32000 block of
  the logits and stores two 64×1 columns into the 64×2 statistics block — the row maximum plus the logarithm of the
  sum of the shifted exponentials, and the row sum —; the two columns tile the block, so the block after the body
  is the two stores read back together. From that the pipeline's run follows, and after it the host lines; the
  argument arrays are no result of any line and end as they began.
-/
import proofs.«116322_j81320910782918_1_alg».proof.Proof.KernelTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The logits window's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The whole 64×32000 block, -/
abbrev rIn : Rect S64x32000 := Rect.unit (s := S64x32000) ![0, 0] S64x32000.size inb_S64x32000_S64x32000_0_0
/-- column 0 of the statistics block, -/
abbrev rZ : Rect S64x2 := Rect.unit (s := S64x2) ![0, 0] S64x1.size inb_S64x2_S64x1_0_0
/-- and its column 1. -/
abbrev rS : Rect S64x2 := Rect.unit (s := S64x2) ![0, 1] S64x1.size inb_S64x2_S64x1_0_1

/-- The statistics block after the body, from the logits block: the two column stores, last first. -/
def statsBlock (x0 : Vec F S64x32000 .f32) : Vec F S64x2 .f32 :=
  View.canon [⟨rS, k0_pay1 (View.ld x0 rIn)⟩, ⟨rZ, k0_pay2 (View.ld x0 rIn)⟩]

/-- The two columns tile the block, so they cover it. -/
theorem cover_stats (p1 : Vec F S64x1 .f32) (p2 : Vec F S64x1 .f32) (y : S64x2.Idx) :
    ∃ pc ∈ ([⟨rS, p1⟩, ⟨rZ, p2⟩] : List (View.Piece (Elt F) S64x2 .f32)), y ∈ pc.1.set :=
  View.cover_of_tiled [⟨rS, p1⟩, ⟨rZ, p2⟩] S64x1.size (by rfl) y

set_option maxHeartbeats 1000000 in
/-- The body on whole staging memrefs, the logits' at contents `x0` and the statistics' at anything, runs to the
    continuation holding the logits' as they were and the statistics' at `statsBlock x0`. -/
theorem sound_kernel (c : Dev nD) (E : Set ℕ) (i : grid0.Coords) (arg1 : Memref sig .tc .vmem S64x32000 .f32) (harg1 : arg1.IsWhole) (arg2 : Memref sig .tc .vmem S64x2 .f32) (harg2 : arg2.IsWhole)
    (x0 : Vec F S64x32000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (statsBlock x0)) -∗ K ⟨⟩))
      ⊢ wp frame (wpE (defs₀ (F := F)) Variants.none c none) E (cc0__row_stats_kernel i arg1 harg1 arg2 harg2) K := by
  simp only [cc0__row_stats_kernel_eq_skeleton]; unfold cc0__row_stats_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_stats _ _)

/-! ## The pipeline's proof data -/

/-- The proof data of the pipeline on core `c`: the arrays as the region finds them; after the body at point `t` the
    logits' buffer at its block and the statistics' at `statsBlock` of it; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => statsBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = statsBlock (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the logits' memref holds its block, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the region at
    what the blocks determine and every other unscoped buffer as the host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.Kernel.Hand

end
-- ==== Proof.KernelFrame.lean ====
/-
  The argument arrays end as they began: the logits are an input of the region, staged and never written back; the
  targets and the soft indices are touched by no window and are the result of no host line.
-/
import proofs.«116322_j81320910782918_1_alg».proof.Proof.KernelRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The two integer arguments. -/
abbrev argRef : Fin 2 → Ref sig .tc := ![main_arg1, main_arg2]

theorem hostOps1_keepsArg : (hostOps1 : List (HloOp τ sig (Elt F))).Forall fun op => ∀ k : Fin 2, Proc.devRef .tc (argRef k) ∉ op.writes := by
  simp only [List.Forall]
  repeat' constructor
  all_goals (intro k; fin_cases k <;> simp only [StableHlo.nullary_writes, StableHlo.unary_writes, StableHlo.binary_writes, StableHlo.ternary_writes, StableHlo.reshape_writes, Finset.mem_singleton] <;> exact StableHlo.devRef_ne_of_ne (by decide))

theorem hostOps1_1_keepsArg : (hostOps1_1 : List (HloOp τ sig (Elt F))).Forall fun op => ∀ k : Fin 2, Proc.devRef .tc (argRef k) ∉ op.writes := by
  simp only [List.Forall]
  repeat' constructor
  all_goals (intro k; fin_cases k <;> simp only [StableHlo.nullary_writes, StableHlo.unary_writes, StableHlo.binary_writes, StableHlo.ternary_writes, StableHlo.reshape_writes, Finset.mem_singleton] <;> exact StableHlo.devRef_ne_of_ne (by decide))

theorem hostOps1_2_keepsArg : (hostOps1_2 : List (HloOp τ sig (Elt F))).Forall fun op => ∀ k : Fin 2, Proc.devRef .tc (argRef k) ∉ op.writes := by
  simp only [List.Forall]
  repeat' constructor
  all_goals (intro k; fin_cases k <;> simp only [StableHlo.nullary_writes, StableHlo.unary_writes, StableHlo.binary_writes, StableHlo.ternary_writes, StableHlo.reshape_writes, Finset.mem_singleton] <;> exact StableHlo.devRef_ne_of_ne (by decide))

theorem hostOps1_3_keepsArg : (hostOps1_3 : List (HloOp τ sig (Elt F))).Forall fun op => ∀ k : Fin 2, Proc.devRef .tc (argRef k) ∉ op.writes := by
  simp only [List.Forall]
  repeat' constructor
  all_goals (intro k; fin_cases k <;> simp only [StableHlo.nullary_writes, StableHlo.unary_writes, StableHlo.binary_writes, StableHlo.ternary_writes, StableHlo.reshape_writes, Finset.mem_singleton] <;> exact StableHlo.devRef_ne_of_ne (by decide))

theorem hostOps1_4_keepsArg : (hostOps1_4 : List (HloOp τ sig (Elt F))).Forall fun op => ∀ k : Fin 2, Proc.devRef .tc (argRef k) ∉ op.writes := by
  simp only [List.Forall]
  repeat' constructor
  all_goals (intro k; fin_cases k <;> simp only [StableHlo.nullary_writes, StableHlo.unary_writes, StableHlo.binary_writes, StableHlo.ternary_writes, StableHlo.reshape_writes, Finset.mem_singleton] <;> exact StableHlo.devRef_ne_of_ne (by decide))

/-- No host line writes an integer argument. -/
theorem args_kept : ∀ op ∈ (tailOps : List (List (HloOp τ sig (Elt F)))).flatten, ∀ k : Fin 2, Proc.devRef .tc (argRef k) ∉ op.writes := by
  intro op hop
  obtain ⟨ops, hops, hop'⟩ := List.mem_flatten.mp hop
  simp only [List.mem_cons, List.mem_nil_iff, or_false] at hops
  rcases hops with rfl | rfl | rfl | rfl | rfl
  · exact (List.forall_iff_forall_mem.mp hostOps1_keepsArg) op hop'
  · exact (List.forall_iff_forall_mem.mp hostOps1_1_keepsArg) op hop'
  · exact (List.forall_iff_forall_mem.mp hostOps1_2_keepsArg) op hop'
  · exact (List.forall_iff_forall_mem.mp hostOps1_3_keepsArg) op hop'
  · exact (List.forall_iff_forall_mem.mp hostOps1_4_keepsArg) op hop'

/-- After the host lines an integer argument holds its launch contents. -/
theorem tail_arg (c : Dev nD) (k : Fin 2) :
    Pipeline.afterTail₀ cfgs (dats m) 0 (V0 m) tailOps c (argRef k) = m ((c.tc : Thread nD τ).loc (argRef k)) := by
  unfold Pipeline.afterTail₀
  rw [StableHlo.after_of_forall_not_mem _ _ (fun op hop => args_kept op hop k)]
  exact Pipeline.withArrays_of_ne _ c _ _ (argRef k) (by fin_cases k <;> decide)

/-- The run with the results named: the statistics array at what the blocks determine, the loss at what the host lines
    compute from the region's exit contents, the arguments unchanged. -/
theorem run_named : θ_run defs (onTc (τ := τ) (main (F := F))) ⟨m, fun _ => 0, ρ⟩ (fun r => ∀ c : Dev nD,
      r.2.mem ((c.tc : Thread nD τ).loc main_v33) = Pipeline.afterTail₀ cfgs (dats m) 0 (V0 m) tailOps c main_v33
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v33 (Pipeline.mem_restRefs_of _ rfl (by decide)),
     ((h c).1 0).trans (((dats m 0 c).arrAt_in 0 rfl _).trans ((A_eq m c 0).trans (V_main_arg0 m c))),
     ((h c).2 main_arg1 (Pipeline.mem_restRefs_of _ rfl (by decide))).trans (tail_arg m c 0),
     ((h c).2 main_arg2 (Pipeline.mem_restRefs_of _ rfl (by decide))).trans (tail_arg m c 1)⟩) (run_main m ρ)

/-- THE FRAME: every weakly fair execution terminates, nothing faults, the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.Kernel.Hand

end
-- ==== Proof.KernelIdealTail.lean ====
/-
  The idealized kernel's run, stated for any float instance: the one pipelined region (64 grid points, each
  reading a block of 64 rows of the logits and writing the 64×2 block of row statistics), followed by the host
  lines that gather, combine and average. What each grid point leaves in the statistics block is the pair of
  stores of the body (column 0: row maximum plus the log of the shifted exponentials' sum; column 1: the row sum),
  read back as one block; the run ends with every array of the region at the contents the blocks determine and every
  other buffer at what the host lines compute from them; the argument arrays end as they began.
-/
import proofs.«116322_j81320910782918_1_alg».proof.Proof.Gen.KernelIdeal.Launch
import proofs.«116322_j81320910782918_1_alg».proof.Proof.Gen.KernelIdeal.Skeleton
import proofs.«116322_j81320910782918_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines after the region, stretch by stretch: the two slices of the statistics, the target gather,
    the soft-index gather, and the arithmetic down to the mean. -/
abbrev tailOps : List (List (HloOp τ sig (Elt F))) := [hostOps1, hostOps1_1, hostOps1_2, hostOps1_3, hostOps1_4]

/-- The buffers as the region finds them: as launched (no host line precedes the region). -/
abbrev V0 (c : Dev nD) : Valuation τ sig (Elt F) := StableHlo.after (List.flatten []) (fun b => m (c, b))
/-- The same read at a reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- The program is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The host lines touch unscoped references only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- A line writes neither the logits nor the statistics array: its one written buffer is its own result. -/
theorem keeps_of_forall {ops : List (HloOp τ sig (Elt F))}
    (h : ops.Forall fun op => ∀ w : Fin 2, Proc.devRef .tc (Pipeline.arrRef spec0 w) ∉ op.writes) :
    ∀ op ∈ ops, ∀ w : Fin 2, Proc.devRef .tc (Pipeline.arrRef spec0 w) ∉ op.writes :=
  fun op hop => (List.forall_iff_forall_mem.mp h) op hop

/-! ## No host line writes an array of the region -/

theorem hostOps1_keeps : (hostOps1 : List (HloOp τ sig (Elt F))).Forall fun op => ∀ w : Fin 2, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

theorem hostOps1_1_keeps : (hostOps1_1 : List (HloOp τ sig (Elt F))).Forall fun op => ∀ w : Fin 2, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

theorem hostOps1_2_keeps : (hostOps1_2 : List (HloOp τ sig (Elt F))).Forall fun op => ∀ w : Fin 2, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

theorem hostOps1_3_keeps : (hostOps1_3 : List (HloOp τ sig (Elt F))).Forall fun op => ∀ w : Fin 2, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

theorem hostOps1_4_keeps : (hostOps1_4 : List (HloOp τ sig (Elt F))).Forall fun op => ∀ w : Fin 2, Proc.devRef .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.reshape_writes, Finset.mem_singleton] <;> exact StableHlo.devRef_ne_of_ne (by decide))

/-- No host line writes the logits or the statistics array. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · exact keeps_of_forall hostOps1_keeps op hop
  · exact keeps_of_forall hostOps1_1_keeps op hop
  · exact keeps_of_forall hostOps1_2_keeps op hop
  · exact keeps_of_forall hostOps1_3_keeps op hop
  · exact keeps_of_forall hostOps1_4_keeps op hop

end Cert.KernelIdeal.Hand

end
-- ==== Proof.KernelIdealRun.lean ====
/-
  The region's body and the whole run, for any float instance. A grid point reads its 64×32000 block of
  the logits and stores two 64×1 columns into the 64×2 statistics block — the row maximum plus the logarithm of the
  sum of the shifted exponentials, and the row sum —; the two columns tile the block, so the block after the body
  is the two stores read back together. From that the pipeline's run follows, and after it the host lines; the
  argument arrays are no result of any line and end as they began.
-/
import proofs.«116322_j81320910782918_1_alg».proof.Proof.KernelIdealTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The logits window's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The whole 64×32000 block, -/
abbrev rIn : Rect S64x32000 := Rect.unit (s := S64x32000) ![0, 0] S64x32000.size inb_S64x32000_S64x32000_0_0
/-- column 0 of the statistics block, -/
abbrev rZ : Rect S64x2 := Rect.unit (s := S64x2) ![0, 0] S64x1.size inb_S64x2_S64x1_0_0
/-- and its column 1. -/
abbrev rS : Rect S64x2 := Rect.unit (s := S64x2) ![0, 1] S64x1.size inb_S64x2_S64x1_0_1

/-- The statistics block after the body, from the logits block: the two column stores, last first. -/
def statsBlock (x0 : Vec F S64x32000 .f32) : Vec F S64x2 .f32 :=
  View.canon [⟨rS, k0_pay1 (View.ld x0 rIn)⟩, ⟨rZ, k0_pay2 (View.ld x0 rIn)⟩]

/-- The two columns tile the block, so they cover it. -/
theorem cover_stats (p1 : Vec F S64x1 .f32) (p2 : Vec F S64x1 .f32) (y : S64x2.Idx) :
    ∃ pc ∈ ([⟨rS, p1⟩, ⟨rZ, p2⟩] : List (View.Piece (Elt F) S64x2 .f32)), y ∈ pc.1.set :=
  View.cover_of_tiled [⟨rS, p1⟩, ⟨rZ, p2⟩] S64x1.size (by rfl) y

set_option maxHeartbeats 1000000 in
/-- The body on whole staging memrefs, the logits' at contents `x0` and the statistics' at anything, runs to the
    continuation holding the logits' as they were and the statistics' at `statsBlock x0`. -/
theorem sound_kernel (c : Dev nD) (E : Set ℕ) (i : grid0.Coords) (arg1 : Memref sig .tc .vmem S64x32000 .f32) (harg1 : arg1.IsWhole) (arg2 : Memref sig .tc .vmem S64x2 .f32) (harg2 : arg2.IsWhole)
    (x0 : Vec F S64x32000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (statsBlock x0)) -∗ K ⟨⟩))
      ⊢ wp frame (wpE (defs₀ (F := F)) Variants.none c none) E (cc0__row_stats_kernel i arg1 harg1 arg2 harg2) K := by
  simp only [cc0__row_stats_kernel_eq_skeleton]; unfold cc0__row_stats_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_stats _ _)

/-! ## The pipeline's proof data -/

/-- The proof data of the pipeline on core `c`: the arrays as the region finds them; after the body at point `t` the
    logits' buffer at its block and the statistics' at `statsBlock` of it; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => statsBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = statsBlock (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the logits' memref holds its block, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the region at
    what the blocks determine and every other unscoped buffer as the host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.KernelIdeal.Hand

end
-- ==== Proof.KernelIdealFrame.lean ====
/-
  The argument arrays end as they began: the logits are an input of the region, staged and never written back; the
  targets and the soft indices are touched by no window and are the result of no host line.
-/
import proofs.«116322_j81320910782918_1_alg».proof.Proof.KernelIdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The two integer arguments. -/
abbrev argRef : Fin 2 → Ref sig .tc := ![main_arg1, main_arg2]

theorem hostOps1_keepsArg : (hostOps1 : List (HloOp τ sig (Elt F))).Forall fun op => ∀ k : Fin 2, Proc.devRef .tc (argRef k) ∉ op.writes := by
  simp only [List.Forall]
  repeat' constructor
  all_goals (intro k; fin_cases k <;> simp only [StableHlo.nullary_writes, StableHlo.unary_writes, StableHlo.binary_writes, StableHlo.ternary_writes, StableHlo.reshape_writes, Finset.mem_singleton] <;> exact StableHlo.devRef_ne_of_ne (by decide))

theorem hostOps1_1_keepsArg : (hostOps1_1 : List (HloOp τ sig (Elt F))).Forall fun op => ∀ k : Fin 2, Proc.devRef .tc (argRef k) ∉ op.writes := by
  simp only [List.Forall]
  repeat' constructor
  all_goals (intro k; fin_cases k <;> simp only [StableHlo.nullary_writes, StableHlo.unary_writes, StableHlo.binary_writes, StableHlo.ternary_writes, StableHlo.reshape_writes, Finset.mem_singleton] <;> exact StableHlo.devRef_ne_of_ne (by decide))

theorem hostOps1_2_keepsArg : (hostOps1_2 : List (HloOp τ sig (Elt F))).Forall fun op => ∀ k : Fin 2, Proc.devRef .tc (argRef k) ∉ op.writes := by
  simp only [List.Forall]
  repeat' constructor
  all_goals (intro k; fin_cases k <;> simp only [StableHlo.nullary_writes, StableHlo.unary_writes, StableHlo.binary_writes, StableHlo.ternary_writes, StableHlo.reshape_writes, Finset.mem_singleton] <;> exact StableHlo.devRef_ne_of_ne (by decide))

theorem hostOps1_3_keepsArg : (hostOps1_3 : List (HloOp τ sig (Elt F))).Forall fun op => ∀ k : Fin 2, Proc.devRef .tc (argRef k) ∉ op.writes := by
  simp only [List.Forall]
  repeat' constructor
  all_goals (intro k; fin_cases k <;> simp only [StableHlo.nullary_writes, StableHlo.unary_writes, StableHlo.binary_writes, StableHlo.ternary_writes, StableHlo.reshape_writes, Finset.mem_singleton] <;> exact StableHlo.devRef_ne_of_ne (by decide))

theorem hostOps1_4_keepsArg : (hostOps1_4 : List (HloOp τ sig (Elt F))).Forall fun op => ∀ k : Fin 2, Proc.devRef .tc (argRef k) ∉ op.writes := by
  simp only [List.Forall]
  repeat' constructor
  all_goals (intro k; fin_cases k <;> simp only [StableHlo.nullary_writes, StableHlo.unary_writes, StableHlo.binary_writes, StableHlo.ternary_writes, StableHlo.reshape_writes, Finset.mem_singleton] <;> exact StableHlo.devRef_ne_of_ne (by decide))

/-- No host line writes an integer argument. -/
theorem args_kept : ∀ op ∈ (tailOps : List (List (HloOp τ sig (Elt F)))).flatten, ∀ k : Fin 2, Proc.devRef .tc (argRef k) ∉ op.writes := by
  intro op hop
  obtain ⟨ops, hops, hop'⟩ := List.mem_flatten.mp hop
  simp only [List.mem_cons, List.mem_nil_iff, or_false] at hops
  rcases hops with rfl | rfl | rfl | rfl | rfl
  · exact (List.forall_iff_forall_mem.mp hostOps1_keepsArg) op hop'
  · exact (List.forall_iff_forall_mem.mp hostOps1_1_keepsArg) op hop'
  · exact (List.forall_iff_forall_mem.mp hostOps1_2_keepsArg) op hop'
  · exact (List.forall_iff_forall_mem.mp hostOps1_3_keepsArg) op hop'
  · exact (List.forall_iff_forall_mem.mp hostOps1_4_keepsArg) op hop'

/-- After the host lines an integer argument holds its launch contents. -/
theorem tail_arg (c : Dev nD) (k : Fin 2) :
    Pipeline.afterTail₀ cfgs (dats m) 0 (V0 m) tailOps c (argRef k) = m ((c.tc : Thread nD τ).loc (argRef k)) := by
  unfold Pipeline.afterTail₀
  rw [StableHlo.after_of_forall_not_mem _ _ (fun op hop => args_kept op hop k)]
  exact Pipeline.withArrays_of_ne _ c _ _ (argRef k) (by fin_cases k <;> decide)

/-- The run with the results named: the statistics array at what the blocks determine, the loss at what the host lines
    compute from the region's exit contents, the arguments unchanged. -/
theorem run_named : θ_run defs (onTc (τ := τ) (main (F := F))) ⟨m, fun _ => 0, ρ⟩ (fun r => ∀ c : Dev nD,
      r.2.mem ((c.tc : Thread nD τ).loc main_v33) = Pipeline.afterTail₀ cfgs (dats m) 0 (V0 m) tailOps c main_v33
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v33 (Pipeline.mem_restRefs_of _ rfl (by decide)),
     ((h c).1 0).trans (((dats m 0 c).arrAt_in 0 rfl _).trans ((A_eq m c 0).trans (V_main_arg0 m c))),
     ((h c).2 main_arg1 (Pipeline.mem_restRefs_of _ rfl (by decide))).trans (tail_arg m c 0),
     ((h c).2 main_arg2 (Pipeline.mem_restRefs_of _ rfl (by decide))).trans (tail_arg m c 1)⟩) (run_main m ρ)

/-- THE FRAME: every weakly fair execution terminates, nothing faults, the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.KernelIdeal.Hand

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.KernelIdealPayload.lean ====
/-
  The two columns a grid point stores, read at a row, over the extended reals: column 1 is the row's sum,
  column 0 the row's maximum (folded from −∞) plus the logarithm of the sum of the row's exponentials shifted by
  that maximum.
-/
import proofs.«116322_j81320910782918_1_alg».proof.Proof.Gen.KernelIdeal.Skeleton
import proofs.«116322_j81320910782918_1_alg».proof.Proof.LibTileLayout
import Idealize.ShloMosaic.Lib.Pipeline.Value
import Idealize.ShloMosaic.PureOps.Ideal.Laws

noncomputable section

namespace Cert.KernelIdeal.Payload

open Cert.KernelIdeal Cert.KernelIdeal.Gen Cert.TileLayout
open Idealize.ShloMosaic Idealize.ShloMosaic.ValueIdx

/-- The maximum of an `[a, b]` array along axis 1, folded from the accumulator's value, is at `p` the fold of
    `max` over the row `p`. -/
theorem max_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun q => src (ix2 p q)) := by
  refine (Ideal.multiReduction_maximumf_single src acc h hφ hacc (ix1 p)).trans ?_
  have e : (fun q : Fin b => src (h.lift (ix1 p) q)) = fun q => src (ix2 p q) :=
    funext fun q => congrArg src (funext fun c => Fin.ext (by
      match c with
      | ⟨0, _⟩ => rfl
      | ⟨1, _⟩ => rfl))
  show (Finset.univ : Finset (Fin b)).fold max (Ideal.ofBits φ acc) (fun q : Fin b => src (h.lift (ix1 p) q)) = _
  rw [e]

/-- Column 1 of the statistics block at row `y`: the row's sum. -/
theorem pay1_apply (x0 : FVec Ideal S64x32000 .f32) (y : Fin 64) :
    k0_pay1 (F := Ideal) x0 (ix2 y (0 : Fin 1)) = ∑ k : Fin 32000, x0 (ix2 y k) := by
  show shapeCast S64x1 (multiReduction (F := Ideal) .add [1] S64 x0 0x00000000#32 reduces_S64x32000_S64 (.inl rfl) rfl) shapeCasts_S64_S64x1 (ix2 y (0 : Fin 1)) = _
  refine (shapeCast_a_a1_apply (a := 64) _ shapeCasts_S64_S64x1 y 0).trans ?_
  exact sum_axis1_apply (a := 64) (b := 32000) x0 _ reduces_S64x32000_S64 (.inl rfl) rfl y

/-- Row `y`'s maximum, folded from −∞. -/
abbrev rowMax (x0 : FVec Ideal S64x32000 .f32) (y : Fin 64) : EReal :=
  (Finset.univ : Finset (Fin 32000)).fold max (Ideal.ofBits .f32 0xFF800000#32) (fun k => x0 (ix2 y k))

theorem exp_at (a : FVec Ideal S64x32000 .f32) (i : S64x32000.Idx) : exp a i = Ideal.exp (a i) := rfl
theorem log_at (a : FVec Ideal S64x1 .f32) (i : S64x1.Idx) : log a i = Ideal.log (a i) := rfl

/-- Column 0 of the statistics block at row `y`: the row's maximum plus the logarithm of the sum of its shifted
    exponentials. -/
theorem pay2_apply (x0 : FVec Ideal S64x32000 .f32) (y : Fin 64) :
    k0_pay2 (F := Ideal) x0 (ix2 y (0 : Fin 1))
      = rowMax x0 y + Ideal.log (∑ k : Fin 32000, Ideal.exp (x0 (ix2 y k) - rowMax x0 y)) := by
  have hmax : ∀ q : Fin 1, shapeCast S64x1 (multiReduction (F := Ideal) .maximumf [1] S64 x0 0xFF800000#32 reduces_S64x32000_S64 (.inl rfl) rfl) shapeCasts_S64_S64x1 (ix2 y q) = rowMax x0 y :=
    fun q => (shapeCast_a_a1_apply (a := 64) _ shapeCasts_S64_S64x1 y q).trans (max_axis1_apply (a := 64) (b := 32000) x0 _ reduces_S64x32000_S64 (.inl rfl) rfl y)
  unfold k0_pay2
  refine (addf_apply (s := S64x1) (φ := .f32) _ _ (ix2 y (0 : Fin 1))).trans ?_
  refine congrArg₂ (· + ·) (hmax 0) ((log_at _ _).trans (congrArg Ideal.log ?_))
  refine (shapeCast_a_a1_apply (a := 64) _ shapeCasts_S64_S64x1 y 0).trans ?_
  refine (sum_axis1_apply (a := 64) (b := 32000) _ _ reduces_S64x32000_S64 (.inl rfl) rfl y).trans ?_
  refine Finset.sum_congr rfl fun k _ => ?_
  refine (exp_at _ _).trans (congrArg Ideal.exp ?_)
  refine (subf_apply (s := S64x32000) (φ := .f32) _ _ _).trans (congrArg (x0 (ix2 y k) - ·) ?_)
  exact (broadcastTo_a1_ab_apply (a := 64) (b := 32000) _ broadcasts_S64x1_S64x32000 y k).trans (hmax 0)

end Cert.KernelIdeal.Payload

end
-- ==== Proof.LossSpec.lean ====
/-
  The loss both programs compute, written over the extended reals in the two arrangements they use.
  Per row i of the logits x: M i the row maximum, L i = log ∑_c exp (x i c − M i), Z i = M i + L i, so that the
  log-probability of class c is x i c − Z i. The loss is the mean over rows of
      0.9 · (−0.9 · lp i (t i) − (0.1/C) · ∑_c lp i c) + 0.1 · (−0.8 · lp i (t i) − (0.2/P) · ∑_p lp i (pos i p)),
  every decimal standing for the single-precision number nearest to it. One arrangement (`rowsE`) works row by row
  from the row statistics Z i and ∑_c x i c and from the logits gathered at the target and at the soft indices; the
  other (`denseE`) forms dense weights — a one-hot row plus a constant, and a one-hot row plus the histogram of the
  soft indices — multiplies them with the log-probabilities, averages each column over the rows and sums the columns.
-/
import Idealize.ShloMosaic.PureOps.Ideal
import Idealize.ShloMosaic.Lib.ValueIdx

noncomputable section

namespace Cert.LossSpec

open Idealize.ShloMosaic Idealize.ShloMosaic.ValueIdx

/-- The logits: 4096 rows of 32000 classes. -/
abbrev Logits := (⟨2, ![4096, 32000]⟩ : Shape).Idx → EReal

/-- The single-precision constants of the two programs, by their words. -/
abbrev cNegInf : EReal := Ideal.ofBits .f32 0xFF800000#32
abbrev cA : EReal := Ideal.ofBits .f32 0x3F666666#32      -- 0.9
abbrev cNA : EReal := Ideal.ofBits .f32 0xBF666666#32     -- −0.9
abbrev cB : EReal := Ideal.ofBits .f32 0x3651B717#32      -- 0.1 / 32000
abbrev cC8 : EReal := Ideal.ofBits .f32 0x3F4CCCCD#32     -- 0.8
abbrev cNC8 : EReal := Ideal.ofBits .f32 0xBF4CCCCD#32    -- −0.8
abbrev cD : EReal := Ideal.ofBits .f32 0x3B83126F#32      -- 0.2 / 50
abbrev cW : EReal := Ideal.ofBits .f32 0x3DCCCCCD#32      -- 0.1
abbrev c32000 : EReal := Ideal.ofBits .f32 0x46FA0000#32  -- 32000
abbrev c50 : EReal := Ideal.ofBits .f32 0x42480000#32     -- 50
abbrev c4096 : EReal := Ideal.ofBits .f32 0x45800000#32   -- 4096

/-- Row `i`'s maximum, folded from −∞. -/
def rowMaxE (x : Logits) (i : Fin 4096) : EReal :=
  (Finset.univ : Finset (Fin 32000)).fold max cNegInf (fun c => x (ix2 i c))

/-- The logarithm of the sum of row `i`'s exponentials shifted by `mx`. -/
def rowLseE (x : Logits) (mx : EReal) (i : Fin 4096) : EReal :=
  Ideal.log (∑ c : Fin 32000, Ideal.exp (x (ix2 i c) - mx))

/-- Row `i`'s sum. -/
def rowSumE (x : Logits) (i : Fin 4096) : EReal := ∑ c : Fin 32000, x (ix2 i c)

/-- Row `i`'s log-partition Z i = M i + L i, from the row maximum folded from −∞. -/
def rowZE (x : Logits) (i : Fin 4096) : EReal := rowMaxE x i + rowLseE x (rowMaxE x i) i

/-- THE ROW-BY-ROW ARRANGEMENT: the mean over rows of the two smoothed terms, from the row statistics and the
    gathered logits. -/
def rowsE (x : Logits) (t : Fin 4096 → Fin 32000) (pos : Fin 4096 → Fin 50 → Fin 32000) : EReal :=
  Ideal.div
    (∑ i : Fin 4096,
      (cA * (cNA * (x (ix2 i (t i)) - rowZE x i) - cB * (rowSumE x i - c32000 * rowZE x i))
        + cW * (cNC8 * (x (ix2 i (t i)) - rowZE x i)
                - cD * ((∑ p : Fin 50, x (ix2 i (pos i p))) - c50 * rowZE x i))))
    c4096

/-- The row maximum as the dense arrangement takes it: once more against −∞. -/
def rowMaxE' (x : Logits) (i : Fin 4096) : EReal := max cNegInf (rowMaxE x i)

/-- The log-probability of class `c` in row `i`, as the dense arrangement spells it. -/
def logProbE (x : Logits) (i : Fin 4096) (c : Fin 32000) : EReal :=
  (x (ix2 i c) - rowMaxE' x i) - rowLseE x (rowMaxE' x i) i

/-- The one-hot row of the target. -/
def oneHotE (t : Fin 4096 → Fin 32000) (i : Fin 4096) (c : Fin 32000) : EReal :=
  (((if t i = c then 1 else 0 : ℝ)) : EReal)

/-- The histogram of row `i`'s soft indices, each hit weighing 0.2/50. -/
def softHistE (pos : Fin 4096 → Fin 50 → Fin 32000) (i : Fin 4096) (c : Fin 32000) : EReal :=
  ∑ p : Fin 50, (if pos i p = c then cD else 0)

/-- THE DENSE ARRANGEMENT: dense weights against the log-probabilities, each column averaged over the rows,
    the columns summed, the two terms mixed 0.9 : 0.1. -/
def denseE (x : Logits) (t : Fin 4096 → Fin 32000) (pos : Fin 4096 → Fin 50 → Fin 32000) : EReal :=
  (∑ c : Fin 32000, Ideal.div (∑ i : Fin 4096, -(cA * oneHotE t i c + cB) * logProbE x i c) c4096) * cA
  + (∑ c : Fin 32000, Ideal.div (∑ i : Fin 4096, -(cC8 * oneHotE t i c + softHistE pos i c) * logProbE x i c) c4096) * cW

end Cert.LossSpec

end
-- ==== Proof.KernelIdealStats.lean ====
/-
  The statistics array after the region, over the extended reals. Grid point t owns rows 64 t … 64 t + 63: its block
  of the logits is those rows, its block of the statistics array is those rows of the two columns; distinct points own
  distinct rows, so each row of the final array is what its point wrote: column 0 the row's log-partition Z (maximum
  plus the logarithm of the sum of the shifted exponentials), column 1 the row's sum.
-/
import proofs.«116322_j81320910782918_1_alg».proof.Proof.KernelIdealFrame
import proofs.«116322_j81320910782918_1_alg».proof.Proof.KernelIdealPayload
import proofs.«116322_j81320910782918_1_alg».proof.Proof.LossSpec
import Idealize.ShloMosaic.Lib.Pipeline.Value

set_option maxRecDepth 16384

noncomputable section

namespace Cert.KernelIdeal.Stats

open Cert.KernelIdeal Cert.KernelIdeal.Gen Cert.KernelIdeal.Hand Cert.KernelIdeal.Payload Cert.LossSpec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## The block after the body, column by column -/

/-- Column 1 of the block is the second store's payload. -/
theorem statsBlock_col1 (x0 : Vec Ideal S64x32000 .f32) (y : Fin 64) :
    statsBlock x0 (ix2 y (1 : Fin 2)) = k0_pay1 (F := Ideal) x0 (ix2 y (0 : Fin 1)) := by
  unfold statsBlock
  rw [View.ld_unit_zero (S := S64x32000) hz]
  have e : (ix2 y (1 : Fin 2) : S64x2.Idx) = rS.emb (ix2 y (0 : Fin 1)) := by
    funext a; apply Fin.ext
    match a with
    | ⟨0, _⟩ => show y.val = 0 + 1 * y.val; omega
    | ⟨1, _⟩ => rfl
  rw [e]
  exact View.canon_cons_emb rS _ _ _

set_option maxHeartbeats 1000000 in
/-- Column 0 of the block is the first store's payload: the second store does not reach it. -/
theorem statsBlock_col0 (x0 : Vec Ideal S64x32000 .f32) (y : Fin 64) :
    statsBlock x0 (ix2 y (0 : Fin 2)) = k0_pay2 (F := Ideal) x0 (ix2 y (0 : Fin 1)) := by
  unfold statsBlock
  rw [View.ld_unit_zero (S := S64x32000) hz]
  have hn : (ix2 y (0 : Fin 2) : S64x2.Idx) ∉ (Rect.unit (s := S64x2) ![0, 1] S64x1.size inb_S64x2_S64x1_0_1).set := by
    intro h
    rw [Rect.mem_set_unit] at h
    have h1 : (1 : ℕ) ≤ 0 := (h 1).1
    omega
  rw [View.canon_cons_of_not_mem (⟨rS, k0_pay1 (F := Ideal) x0⟩ : View.Piece (Elt Ideal) S64x2 .f32) [⟨rZ, k0_pay2 (F := Ideal) x0⟩] hn]
  have e : (ix2 y (0 : Fin 2) : S64x2.Idx) = rZ.emb (ix2 y (0 : Fin 1)) := by
    funext a; apply Fin.ext
    match a with
    | ⟨0, _⟩ => show y.val = 0 + 1 * y.val; omega
    | ⟨1, _⟩ => rfl
  rw [e]
  exact View.canon_cons_emb rZ _ _ _

/-! ## From blocks to the array -/

/-- Both windows move down the rows with the grid point and stay at column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Distinct grid points write distinct blocks of the statistics array. -/
theorem idx_inj1 : ∀ t t' : Fin cfg0.N, win0_1.index t = win0_1.index t' → t = t' :=
  (by decide +kernel : ∀ t t' : Fin grid0.N, win0_1.index t = win0_1.index t' → t = t')

theorem disjoint1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (idx_inj1 t t' h)

/-- Block `t` of the final statistics array, read back, is what point `t` wrote. -/
theorem blocks1 (c : Dev nD) (t : Fin cfg0.N) :
    ((cfg0.win 1).blk t).view.read (Elt Ideal) ((dats m 0 c).arrAt 1 cfg0.N) = (dats m 0 c).flushed 1 t :=
  (dats m 0 c).read_blk_arrAt_eq_flushed 1 disjoint1 cfg0.N t t.isLt (flush0_1 t)

/-- What point `t` writes back: the block the body left. -/
theorem flushed1 (c : Dev nD) (t : Fin cfg0.N) :
    (dats m 0 c).flushed 1 t = (cfg0.win 1).cut (grid0.coords t) (statsBlock (iblk m c 0 t)) := by
  show (cfg0.win 1).cut (grid0.coords t) ((dats m 0 c).after 1 t) = _
  rw [after0_1]

/-- Row `y` of point `t`'s statistics block sits at row `64 t + y` of the array. -/
theorem emb1 (t : Fin cfg0.N) (y : Fin 64) (col : Fin 2) (h : t.val * 64 + y.val < 4096) :
    ((cfg0.win 1).blk t).view.emb (ix2 y col) = (ix2 (⟨t.val * 64 + y.val, h⟩ : Fin 4096) col : S4096x2.Idx) := by
  obtain ⟨-, -, e0, e1⟩ := idx_facts t
  funext a; apply Fin.ext
  match a with
  | ⟨0, _⟩ => show win0_1.index t (0 : Fin 2) * 64 + 1 * y.val = t.val * 64 + y.val; rw [e0]; omega
  | ⟨1, _⟩ => show win0_1.index t (1 : Fin 2) * 2 + 1 * col.val = col.val; rw [e1]; omega

/-- Row `y` of point `t`'s logits block sits at row `64 t + y` of the logits. -/
theorem emb0 (t : Fin cfg0.N) (y : Fin 64) (k : Fin 32000) (h : t.val * 64 + y.val < 4096) :
    ((cfg0.win 0).blk t).view.emb (ix2 y k) = (ix2 (⟨t.val * 64 + y.val, h⟩ : Fin 4096) k : S4096x32000.Idx) := by
  obtain ⟨e0, e1, -, -⟩ := idx_facts t
  funext a; apply Fin.ext
  match a with
  | ⟨0, _⟩ => show win0_0.index t (0 : Fin 2) * 64 + 1 * y.val = t.val * 64 + y.val; rw [e0]; omega
  | ⟨1, _⟩ => show win0_0.index t (1 : Fin 2) * 32000 + 1 * k.val = k.val; rw [e1]; omega

/-- The logits block of point `t` at (y, k) is the logits array at (64 t + y, k). -/
theorem iblk0_apply (c : Dev nD) (t : Fin cfg0.N) (y : Fin 64) (k : Fin 32000) (h : t.val * 64 + y.val < 4096) :
    iblk m c 0 t (ix2 y k) = m ((c.tc : Thread nD τ).loc main_arg0) (ix2 (⟨t.val * 64 + y.val, h⟩ : Fin 4096) k) := by
  show V m c main_arg0 (((cfg0.win 0).blk t).view.emb (ix2 y k)) = _
  rw [emb0 t y k h]
  rfl

/-- The final statistics array at row `64 t + y`, column `col`: the block the body left at point `t`, there. -/
theorem stats_at (c : Dev nD) (t : Fin cfg0.N) (y : Fin 64) (col : Fin 2) (h : t.val * 64 + y.val < 4096) :
    (dats m 0 c).arrAt 1 cfg0.N (ix2 (⟨t.val * 64 + y.val, h⟩ : Fin 4096) col) = statsBlock (iblk m c 0 t) (ix2 y col) := by
  have hb := congrFun (blocks1 m c t) (ix2 y col)
  rw [flushed1] at hb
  rw [← emb1 t y col h]
  exact hb

/-! ## Row by row -/

/-- Row `r` is row `r % 64` of grid point `r / 64`. -/
theorem row_split (r : Fin 4096) : ∃ (t : Fin cfg0.N) (y : Fin 64) (h : t.val * 64 + y.val < 4096), (⟨t.val * 64 + y.val, h⟩ : Fin 4096) = r := by
  have hN : cfg0.N = 64 := N_0
  have hr : r.val < 4096 := r.isLt
  refine ⟨⟨r.val / 64, by rw [hN]; omega⟩, ⟨r.val % 64, Nat.mod_lt _ (by norm_num)⟩, ?_, ?_⟩
  · show r.val / 64 * 64 + r.val % 64 < 4096; omega
  · exact Fin.ext (by show r.val / 64 * 64 + r.val % 64 = r.val; omega)

/-- A block row that is row `r` of the logits has row `r`'s log-partition. -/
theorem rowZ_congr (X0 : FVec Ideal S64x32000 .f32) (x : Logits) (y : Fin 64) (r : Fin 4096)
    (hx : ∀ k : Fin 32000, X0 (ix2 y k) = x (ix2 r k)) :
    rowMax X0 y + Ideal.log (∑ k : Fin 32000, Ideal.exp (X0 (ix2 y k) - rowMax X0 y)) = rowZE x r := by
  unfold rowZE rowMaxE rowLseE rowMax
  simp only [hx]

/-- A block row that is row `r` of the logits has row `r`'s sum. -/
theorem rowSum_congr (X0 : FVec Ideal S64x32000 .f32) (x : Logits) (y : Fin 64) (r : Fin 4096)
    (hx : ∀ k : Fin 32000, X0 (ix2 y k) = x (ix2 r k)) :
    ∑ k : Fin 32000, X0 (ix2 y k) = rowSumE x r := by
  unfold rowSumE
  simp only [hx]

/-- Column 0 of the final statistics array at row `r`: the row's log-partition. -/
theorem stats_rowZ (c : Dev nD) (r : Fin 4096) :
    (dats m 0 c).arrAt 1 cfg0.N (ix2 r (0 : Fin 2)) = rowZE (m ((c.tc : Thread nD τ).loc main_arg0)) r := by
  obtain ⟨t, y, h, er⟩ := row_split r
  have hs := stats_at m c t y 0 h
  rw [er] at hs
  have hx : ∀ k : Fin 32000, (iblk m c 0 t : FVec Ideal S64x32000 .f32) (ix2 y k) = (m ((c.tc : Thread nD τ).loc main_arg0) : Logits) (ix2 r k) :=
    fun k => by rw [iblk0_apply m c t y k h, er]
  exact hs.trans ((statsBlock_col0 _ y).trans ((pay2_apply _ y).trans (rowZ_congr _ _ y r hx)))

/-- Column 1 of the final statistics array at row `r`: the row's sum. -/
theorem stats_rowSum (c : Dev nD) (r : Fin 4096) :
    (dats m 0 c).arrAt 1 cfg0.N (ix2 r (1 : Fin 2)) = rowSumE (m ((c.tc : Thread nD τ).loc main_arg0)) r := by
  obtain ⟨t, y, h, er⟩ := row_split r
  have hs := stats_at m c t y 1 h
  rw [er] at hs
  have hx : ∀ k : Fin 32000, (iblk m c 0 t : FVec Ideal S64x32000 .f32) (ix2 y k) = (m ((c.tc : Thread nD τ).loc main_arg0) : Logits) (ix2 r k) :=
    fun k => by rw [iblk0_apply m c t y k h, er]
  exact hs.trans ((statsBlock_col1 _ y).trans ((pay1_apply _ y).trans (rowSum_congr _ _ y r hx)))

end Cert.KernelIdeal.Stats

end
-- ==== Proof.LibTakeAlong.lean ====
/-
  A row-wise gather and the index checks around it, read at an index. The gather takes, for each row i and each
  position p, the operand's element of row i at the column the start index names, read signed and clamped into the
  row; around it the printed text adds the row length to a negative index, masks the indices outside the row, and
  fills masked positions with a fixed word. For indices that are in range, the whole is the operand at that column.
-/
import Idealize.ShloMosaic.Lib.ValueIdx
import Idealize.ShloMosaic.Lib.Pipeline.Value
import Idealize.ShloMosaic.Lib.ReduceAll
import Idealize.ShloMosaic.PureOps.Ideal.Laws

noncomputable section

namespace Cert.KernelIdeal.TailTake

open Idealize.ShloMosaic Idealize.ShloMosaic.ValueIdx

section Gather
variable {α : Type}

/-- The dimension numbers of a gather along axis 1 batched over axis 0: operand [R, N], start indices [R, C, 1],
    result [R, C]. -/
abbrev rowDims (R N C : Nat)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- The gather read at (i, p): the operand's row i at the start index idx[i, p, 0], read signed and clamped into
    [0, N − 1]. -/
theorem gather_row_apply {R N C w : Nat} (hN : 0 < N)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (i : Fin R) (p : Fin C) :
    Host.gather (rowDims R N C wf) x idx (ix2 i p)
      = x (ix2 i ⟨min (idx (ix3 i p (0 : Fin 1))).toInt.toNat (N - 1), by omega⟩) := by
  unfold Host.gather
  congr 1
  funext a
  refine Fin.ext ?_
  show (rowDims R N C wf).start (ix2 i p) idx a + (rowDims R N C wf).batchCoord (ix2 i p) a
      + (rowDims R N C wf).offCoord (ix2 i p) a = _
  have h0 : (rowDims R N C wf).start (ix2 i p) idx (0 : Fin 2) + (rowDims R N C wf).batchCoord (ix2 i p) (0 : Fin 2)
      + (rowDims R N C wf).offCoord (ix2 i p) (0 : Fin 2) = i.val := by
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (rowDims R N C wf).operandBatchingDims from List.mem_singleton.mpr rfl)]
    rfl
  have h1 : (rowDims R N C wf).start (ix2 i p) idx (1 : Fin 2) + (rowDims R N C wf).batchCoord (ix2 i p) (1 : Fin 2)
      + (rowDims R N C wf).offCoord (ix2 i p) (1 : Fin 2) = min (idx (ix3 i p (0 : Fin 1))).toInt.toNat (N - 1) := by
    rw [GatherDims.batchCoord_eq_zero _ _ _
        (show (1 : Fin 2) ∉ ([0] : List (Fin 2)) from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims R N C wf).startIndexMap from List.mem_singleton.mpr rfl)]
    have hsi : (rowDims R N C wf).siIdx (ix2 i p) ⟨List.idxOf (1 : Fin 2) (rowDims R N C wf).startIndexMap,
        List.idxOf_lt_length_iff.2 (List.mem_singleton.mpr rfl)⟩ = ix3 i p (0 : Fin 1) := by
      funext b; refine Fin.ext ?_
      match b with
      | ⟨0, _⟩ => rfl
      | ⟨1, _⟩ => rfl
      | ⟨2, _⟩ => rfl
    rw [hsi]
    rfl
  match a with
  | ⟨0, _⟩ => exact h0
  | ⟨1, _⟩ => exact h1

end Gather

/-! ## The index words -/

section Words

/-- An index word below 32000 reads, signed, as itself. -/
theorem toInt_ofNat {n : Nat} (h : n < 32000) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

theorem toInt_toNat_ofNat {n : Nat} (h : n < 32000) : (BitVec.ofNat 32 n).toInt.toNat = n := by
  rw [toInt_ofNat h]; rfl

/-- It is not negative … -/
theorem slt_zero {n : Nat} (h : n < 32000) : IntOp.cmpi .slt (BitVec.ofNat 32 n) 0#32 = 0#1 := by
  refine eq_zero_of_ne_one fun e => ?_
  have := IntOp.cmpi_slt.mp e
  rw [toInt_ofNat h] at this
  have h0 : (0#32 : BitVec 32).toInt = 0 := by decide
  omega

/-- … it is at least 0 … -/
theorem sge_zero {n : Nat} (h : n < 32000) : IntOp.cmpi .sge (BitVec.ofNat 32 n) 0#32 = 1#1 := by
  refine IntOp.cmpi_sge.mpr ?_
  rw [toInt_ofNat h]
  have h0 : (0#32 : BitVec 32).toInt = 0 := by decide
  omega

/-- … and at most 31999. -/
theorem sle_max {n : Nat} (h : n < 32000) : IntOp.cmpi .sle (BitVec.ofNat 32 n) 31999#32 = 1#1 := by
  refine IntOp.cmpi_sle.mpr ?_
  rw [toInt_ofNat h]
  have h0 : (31999#32 : BitVec 32).toInt = 31999 := by decide
  omega

/-- A left fold by and over one-bit words that are all 1, from 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, IntOp.andi_eq_one.mpr ⟨rfl, rfl⟩]
    exact foldl_andi_one f l fun n hn => h n (List.mem_cons_of_mem _ hn)

/-- A reduction by and of an array of 1s, from 1, is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x _ fun n _ => hx n

end Words

/-! ## The gather with its checks -/

section Take

variable {C : Nat}
  (bc2 : (⟨0, ![]⟩ : Shape).BroadcastsInDim ⟨2, ![4096, C]⟩ (![] : Fin 0 → Fin (⟨2, ![4096, C]⟩ : Shape).rank))
  (sc : (⟨2, ![4096, C]⟩ : Shape).ShapeCasts ⟨3, ![4096, C, 1]⟩)
  (bc3 : (⟨0, ![]⟩ : Shape).BroadcastsInDim ⟨3, ![4096, C, 1]⟩ (![] : Fin 0 → Fin (⟨3, ![4096, C, 1]⟩ : Shape).rank))
  (bc1 : (⟨1, ![1]⟩ : Shape).BroadcastsInDim ⟨3, ![1, 1, 1]⟩ (![2] : Fin 1 → Fin (⟨3, ![1, 1, 1]⟩ : Shape).rank))
  (bc111 : (⟨3, ![1, 1, 1]⟩ : Shape).BroadcastsInDim ⟨3, ![4096, C, 1]⟩
    (![0, 1, 2] : Fin 3 → Fin (⟨3, ![4096, C, 1]⟩ : Shape).rank))
  (red : (⟨3, ![4096, C, 1]⟩ : Shape).ReducesTo [2] ⟨2, ![4096, C]⟩)
  (hS : 0 < (⟨0, ![]⟩ : Shape).numel)
  (wf : GatherDims.WF ⟨2, ![4096, 32000]⟩ ⟨3, ![4096, C, 1]⟩ ⟨2, ![4096, C]⟩ [] [1] [0] [1] [0] 2 ![1, 1])

/-- The indices with the row length added to the negative ones. -/
def normIdx (idx : IVec ⟨2, ![4096, C]⟩ 32) : IVec ⟨2, ![4096, C]⟩ 32 :=
  select (cmpi .slt idx (broadcastInDim ⟨2, ![4096, C]⟩ ![] bc2 (constantI ⟨0, ![]⟩ 32 0#32)))
    (addi idx (broadcastInDim ⟨2, ![4096, C]⟩ ![] bc2 (constantI ⟨0, ![]⟩ 32 32000#32))) idx

/-- The same as start indices: a trailing unit axis added. -/
def startIdx (idx : IVec ⟨2, ![4096, C]⟩ 32) : IVec ⟨3, ![4096, C, 1]⟩ 32 :=
  shapeCast ⟨3, ![4096, C, 1]⟩ (normIdx bc2 idx) sc

/-- The in-range mask: 0 ≤ index ≤ 31999, reduced by and over the unit axis. -/
def inRange (idx : IVec ⟨2, ![4096, C]⟩ 32) : IVec ⟨2, ![4096, C]⟩ 1 :=
  Host.reduce IntOp.andi
    (andi (cmpi .sge (startIdx bc2 sc idx) (broadcastInDim ⟨3, ![4096, C, 1]⟩ ![] bc3 (constantI ⟨0, ![]⟩ 32 0#32)))
      (cmpi .sle (startIdx bc2 sc idx)
        (broadcastInDim ⟨3, ![4096, C, 1]⟩ ![0, 1, 2] bc111
          (broadcastInDim ⟨3, ![1, 1, 1]⟩ ![2] bc1 (constantI ⟨1, ![1]⟩ 32 31999#32)))))
    (constantI ⟨0, ![]⟩ 1 1#1) red hS

/-- The whole: the gathered element where the index is in range, the fill word elsewhere. -/
def takeAlong (x : FVec Ideal ⟨2, ![4096, 32000]⟩ .f32) (idx : IVec ⟨2, ![4096, C]⟩ 32) :
    FVec Ideal ⟨2, ![4096, C]⟩ .f32 :=
  select (inRange bc2 sc bc3 bc1 bc111 red hS idx)
    (Host.gather (rowDims 4096 32000 C wf) x (startIdx bc2 sc idx))
    (broadcastInDim ⟨2, ![4096, C]⟩ ![] bc2 (constant (F := Ideal) ⟨0, ![]⟩ .f32 0x7FC00000#32))

variable (idx : IVec ⟨2, ![4096, C]⟩ 32) (t : Fin 4096 → Fin C → Fin 32000)
  (h : ∀ i p, idx (ix2 i p) = BitVec.ofNat 32 (t i p).val)

include h in
theorem normIdx_apply (i : Fin 4096) (p : Fin C) : normIdx bc2 idx (ix2 i p) = BitVec.ofNat 32 (t i p).val := by
  show Scalar.select (IntOp.cmpi .slt (idx (ix2 i p)) 0#32) (IntOp.addi (idx (ix2 i p)) 32000#32) (idx (ix2 i p)) = _
  rw [h, slt_zero (t i p).isLt, select_zero]

include h in
theorem startIdx_apply (i : Fin 4096) (p : Fin C) (c : Fin 1) :
    startIdx bc2 sc idx (ix3 i p c) = BitVec.ofNat 32 (t i p).val := by
  unfold startIdx
  refine (shapeCast_apply _ sc (ix3 i p c) (ix2 i p) ?_).trans (normIdx_apply bc2 idx t h i p)
  rw [Shape.rowMajor_val_two, Shape.rowMajor_val_three]
  show i.val * C + p.val = (i.val * C + p.val) * 1 + c.val
  omega

include h in
theorem inRange_apply (j : (⟨2, ![4096, C]⟩ : Shape).Idx) : inRange bc2 sc bc3 bc1 bc111 red hS idx j = 1#1 := by
  unfold inRange
  refine reduce_andi_one _ _ red hS (fun k => ?_) (fun _ => rfl) j
  obtain ⟨a, b, c, rfl⟩ : ∃ a b c, k = ix3 a b c := ⟨k 0, k 1, k 2, eq_ix3 k⟩
  show IntOp.andi (IntOp.cmpi .sge (startIdx bc2 sc idx (ix3 a b c)) 0#32)
    (IntOp.cmpi .sle (startIdx bc2 sc idx (ix3 a b c)) 31999#32) = 1#1
  rw [startIdx_apply bc2 sc idx t h a b c, sge_zero (t a b).isLt, sle_max (t a b).isLt]
  exact IntOp.andi_eq_one.mpr ⟨rfl, rfl⟩

include h in
/-- With every index in range the whole is the operand at the named column. -/
theorem takeAlong_apply (x : FVec Ideal ⟨2, ![4096, 32000]⟩ .f32) (i : Fin 4096) (p : Fin C) :
    takeAlong bc2 sc bc3 bc1 bc111 red hS wf x idx (ix2 i p) = x (ix2 i (t i p)) := by
  unfold takeAlong
  rw [select_apply, inRange_apply bc2 sc bc3 bc1 bc111 red hS idx t h, select_one,
    gather_row_apply (by decide) wf x _ i p]
  refine congrArg x (congrArg (ix2 i) (Fin.ext ?_))
  show min (startIdx bc2 sc idx (ix3 i p (0 : Fin 1))).toInt.toNat (32000 - 1) = (t i p).val
  rw [startIdx_apply bc2 sc idx t h i p 0, toInt_toNat_ofNat (t i p).isLt]
  have := (t i p).isLt
  omega

end Take

end Cert.KernelIdeal.TailTake

end
-- ==== Proof.KernelTailValue.lean ====
/-
  The host lines after the region, read at the extended reals: from the contents of the buffers they read to the one
  scalar they end in. The two column slices give the row statistics Z and S; the two gathers give the logits at the
  target and at the soft indices; the arithmetic combines them row by row and averages.
-/
import proofs.«116322_j81320910782918_1_alg».proof.Proof.KernelIdealTail
import proofs.«116322_j81320910782918_1_alg».proof.Proof.LossSpec
import proofs.«116322_j81320910782918_1_alg».proof.Proof.LibTakeAlong
import Idealize.ShloMosaic.Lib.ValueIdx
import Idealize.ShloMosaic.Lib.Pipeline.Value
import Idealize.ShloMosaic.PureOps.Ideal.Laws

set_option maxRecDepth 16384

noncomputable section

namespace Cert.KernelIdeal.TailValue

open Cert.KernelIdeal Cert.KernelIdeal.Gen Cert.KernelIdeal.Hand Cert.LossSpec Cert.KernelIdeal.TailTake
open Idealize.ShloMosaic Idealize.ShloMosaic.ValueIdx

/-! ## Stretches one after the other -/

/-- Running two lists of operations in turn is running their concatenation. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

variable (W : Valuation τ sig (Elt Ideal))

/-! ## The first stretch: the statistics' columns and the targets as a column -/

theorem s1_v2 (r : Fin 4096) :
    StableHlo.after (hostOps1 (F := Ideal)) W (Proc.devRef .tc main_v2) (ix1 r) = W (Proc.devRef .tc main_v0) (ix2 r (0 : Fin 2)) := by
  after_results_simp
  show shapeCast S4096 (extractStridedSlice S4096x1 ![0, 0] (W (Proc.devRef .tc main_v0)) slices_S4096x2_S4096x1_0_0)
    shapeCasts_S4096x1_S4096 (ix1 r) = _
  refine (shapeCast_apply _ _ (ix1 r) (ix2 r (0 : Fin 1)) ?_).trans ?_
  · rw [Shape.rowMajor_val_two, Shape.rowMajor_val_one]
    show r.val * 1 + 0 = r.val
    omega
  · refine extractStridedSlice_apply _ _ _ _ (ix2 r (0 : Fin 2)) fun a => ?_
    match a with
    | ⟨0, _⟩ => show r.val = 0 + r.val; omega
    | ⟨1, _⟩ => rfl

theorem s1_v4 (r : Fin 4096) :
    StableHlo.after (hostOps1 (F := Ideal)) W (Proc.devRef .tc main_v4) (ix1 r) = W (Proc.devRef .tc main_v0) (ix2 r (1 : Fin 2)) := by
  after_results_simp
  show shapeCast S4096 (extractStridedSlice S4096x1 ![0, 1] (W (Proc.devRef .tc main_v0)) slices_S4096x2_S4096x1_0_1)
    shapeCasts_S4096x1_S4096 (ix1 r) = _
  refine (shapeCast_apply _ _ (ix1 r) (ix2 r (0 : Fin 1)) ?_).trans ?_
  · rw [Shape.rowMajor_val_two, Shape.rowMajor_val_one]
    show r.val * 1 + 0 = r.val
    omega
  · refine extractStridedSlice_apply _ _ _ _ (ix2 r (1 : Fin 2)) fun a => ?_
    match a with
    | ⟨0, _⟩ => show r.val = 0 + r.val; omega
    | ⟨1, _⟩ => rfl

theorem s1_v5 (r : Fin 4096) (c : Fin 1) :
    StableHlo.after (hostOps1 (F := Ideal)) W (Proc.devRef .tc main_v5) (ix2 r c) = W (Proc.devRef .tc main_arg1) (ix1 r) := by
  after_results_simp
  refine broadcastInDim_apply _ _ _ (ix2 r c) (ix1 r) fun a => ?_
  match a with
  | ⟨0, _⟩ => rfl

theorem s1_arg0 : StableHlo.after (hostOps1 (F := Ideal)) W (Proc.devRef .tc main_arg0) = W (Proc.devRef .tc main_arg0) := by
  after_results_simp
theorem s1_arg2 : StableHlo.after (hostOps1 (F := Ideal)) W (Proc.devRef .tc main_arg2) = W (Proc.devRef .tc main_arg2) := by
  after_results_simp

/-! ## The second stretch: the logits gathered at the targets -/

section
-- the two sides agree argument by argument: neither the reduction nor the gather is opened
attribute [local irreducible] Host.reduce Host.gather
theorem s2_v6 :
    StableHlo.after (hostOps1_1 (F := Ideal)) W (Proc.devRef .tc main_v6)
      = takeAlong (C := 1) bcast_S_S4096x1 shapeCasts_S4096x1_S4096x1x1 bcast_S_S4096x1x1 bcast_S1_S1x1x1_2
          bcast_S1x1x1_S4096x1x1_0_1_2 reducesTo_S4096x1x1_S4096x1_d2 h_S_
          gather_S4096x32000_S4096x1x1_S4096x1_n_1_0_0_1_2_11_wf
          (W (Proc.devRef .tc main_arg0)) (W (Proc.devRef .tc main_v5)) := by
  after_results_simp
  rfl
end

theorem s2_arg0 : StableHlo.after (hostOps1_1 (F := Ideal)) W (Proc.devRef .tc main_arg0) = W (Proc.devRef .tc main_arg0) := by
  after_results_simp
theorem s2_arg2 : StableHlo.after (hostOps1_1 (F := Ideal)) W (Proc.devRef .tc main_arg2) = W (Proc.devRef .tc main_arg2) := by
  after_results_simp
theorem s2_v2 : StableHlo.after (hostOps1_1 (F := Ideal)) W (Proc.devRef .tc main_v2) = W (Proc.devRef .tc main_v2) := by
  after_results_simp
theorem s2_v4 : StableHlo.after (hostOps1_1 (F := Ideal)) W (Proc.devRef .tc main_v4) = W (Proc.devRef .tc main_v4) := by
  after_results_simp

/-! ## The third stretch: the gathered column as a vector -/

theorem s3_v7 (r : Fin 4096) :
    StableHlo.after (hostOps1_2 (F := Ideal)) W (Proc.devRef .tc main_v7) (ix1 r) = W (Proc.devRef .tc main_v6) (ix2 r (0 : Fin 1)) := by
  after_results_simp
  show shapeCast S4096 (W (Proc.devRef .tc main_v6)) shapeCasts_S4096x1_S4096 (ix1 r) = _
  refine shapeCast_apply _ _ (ix1 r) (ix2 r (0 : Fin 1)) ?_
  rw [Shape.rowMajor_val_two, Shape.rowMajor_val_one]
  show r.val * 1 + 0 = r.val
  omega

theorem s3_arg0 : StableHlo.after (hostOps1_2 (F := Ideal)) W (Proc.devRef .tc main_arg0) = W (Proc.devRef .tc main_arg0) := by
  after_results_simp
theorem s3_arg2 : StableHlo.after (hostOps1_2 (F := Ideal)) W (Proc.devRef .tc main_arg2) = W (Proc.devRef .tc main_arg2) := by
  after_results_simp
theorem s3_v2 : StableHlo.after (hostOps1_2 (F := Ideal)) W (Proc.devRef .tc main_v2) = W (Proc.devRef .tc main_v2) := by
  after_results_simp
theorem s3_v4 : StableHlo.after (hostOps1_2 (F := Ideal)) W (Proc.devRef .tc main_v4) = W (Proc.devRef .tc main_v4) := by
  after_results_simp

/-! ## The fourth stretch: the logits gathered at the soft indices -/

section
attribute [local irreducible] Host.reduce Host.gather
theorem s4_v8 :
    StableHlo.after (hostOps1_3 (F := Ideal)) W (Proc.devRef .tc main_v8)
      = takeAlong (C := 50) bcast_S_S4096x50 shapeCasts_S4096x50_S4096x50x1 bcast_S_S4096x50x1 bcast_S1_S1x1x1_2
          bcast_S1x1x1_S4096x50x1_0_1_2 reducesTo_S4096x50x1_S4096x50_d2 h_S_
          gather_S4096x32000_S4096x50x1_S4096x50_n_1_0_0_1_2_11_wf
          (W (Proc.devRef .tc main_arg0)) (W (Proc.devRef .tc main_arg2)) := by
  after_results_simp
  rfl
end

theorem s4_v2 : StableHlo.after (hostOps1_3 (F := Ideal)) W (Proc.devRef .tc main_v2) = W (Proc.devRef .tc main_v2) := by
  after_results_simp
theorem s4_v4 : StableHlo.after (hostOps1_3 (F := Ideal)) W (Proc.devRef .tc main_v4) = W (Proc.devRef .tc main_v4) := by
  after_results_simp
theorem s4_v7 : StableHlo.after (hostOps1_3 (F := Ideal)) W (Proc.devRef .tc main_v7) = W (Proc.devRef .tc main_v7) := by
  after_results_simp

/-! ## The fifth stretch: the arithmetic, row by row, and the mean -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index a sum over a row's positions runs through. -/
theorem lift1 (hR : S4096x50.Reduces [1] S4096) (i : Fin 4096) (p : Fin 50) : hR.lift (ix1 i) p = ix2 i p := by
  funext a
  match a with
  | ⟨0, _⟩ => rfl
  | ⟨1, _⟩ => rfl

theorem s5_v33 (g Z S : Fin 4096 → EReal) (G : Fin 4096 → Fin 50 → EReal)
    (h7 : ∀ r, W (Proc.devRef .tc main_v7) (ix1 r) = g r) (h2 : ∀ r, W (Proc.devRef .tc main_v2) (ix1 r) = Z r)
    (h4 : ∀ r, W (Proc.devRef .tc main_v4) (ix1 r) = S r) (h8 : ∀ r p, W (Proc.devRef .tc main_v8) (ix2 r p) = G r p) :
    StableHlo.after (hostOps1_4 (F := Ideal)) W (Proc.devRef .tc main_v33)
      = fun _ => Ideal.div
          (∑ i : Fin 4096,
            (cA * (cNA * (g i - Z i) - cB * (S i - c32000 * Z i))
              + cW * (cNC8 * (g i - Z i) - cD * ((∑ p : Fin 50, G i p) - c50 * Z i))))
          c4096 := by
  have hR1 : S4096x50.Reduces [1] S4096 := by decide
  have hrow : ∀ i : Fin 4096, Ideal.hostReduceAdd reducesTo_S4096x50_S4096_d1 (W (Proc.devRef .tc main_v8))
      (constant (F := Ideal) S_ .f32 0x00000000#32 (Shape.Idx.first h_S_)) (ix1 i) = ∑ p : Fin 50, G i p := by
    intro i
    refine (Ideal.hostReduceAdd_single reducesTo_S4096x50_S4096_d1 hR1 _ _ (ix1 i)).trans ?_
    have h0 : constant (F := Ideal) S_ .f32 0x00000000#32 (Shape.Idx.first h_S_) = (0 : EReal) := Ideal.ofBits_zero_f32
    rw [h0, zero_add]
    exact Finset.sum_congr rfl fun p _ => (congrArg (W (Proc.devRef .tc main_v8)) (lift1 hR1 i p)).trans (h8 i p)
  after_results_simp
  funext j
  simp only [Host.divf, Host.reduceAdd, Ideal.hostDivf_def, Ideal.hostReduceAdd_def]
  refine congrArg (fun a => Ideal.div a c4096) ?_
  refine (Ideal.hostReduceAdd_total reducesTo_S4096_S_d0 (fun b => b.elim0) _ _ j).trans ?_
  rw [sum_idx1]
  show Ideal.ofBits .f32 0x00000000#32 + _ = _
  rw [Ideal.ofBits_zero_f32, zero_add]
  refine Finset.sum_congr rfl fun i _ => ?_
  rw [← hrow i, ← h7 i, ← h2 i, ← h4 i]
  rfl

/-! ## The five stretches in turn -/

theorem tail_value (x : Logits) (tg : IVec S4096 32) (pv : IVec S4096x50 32)
    (t : Fin 4096 → Fin 32000) (pos : Fin 4096 → Fin 50 → Fin 32000)
    (hx : W (Proc.devRef .tc main_arg0) = x) (htg : W (Proc.devRef .tc main_arg1) = tg)
    (hpv : W (Proc.devRef .tc main_arg2) = pv)
    (hZ : ∀ r : Fin 4096, W (Proc.devRef .tc main_v0) (ix2 r (0 : Fin 2)) = rowZE x r)
    (hS : ∀ r : Fin 4096, W (Proc.devRef .tc main_v0) (ix2 r (1 : Fin 2)) = rowSumE x r)
    (ht : ∀ i, tg (ix1 i) = BitVec.ofNat 32 (t i).val) (hp : ∀ i p, pv (ix2 i p) = BitVec.ofNat 32 (pos i p).val) :
    StableHlo.after (tailOps (F := Ideal)).flatten W (Proc.devRef .tc main_v33) = fun _ => rowsE x t pos := by
  have hfl : (tailOps (F := Ideal)).flatten
      = hostOps1 ++ (hostOps1_1 ++ (hostOps1_2 ++ (hostOps1_3 ++ hostOps1_4))) := by
    simp only [tailOps, List.flatten_cons, List.flatten_nil, List.append_nil]
  rw [hfl, after_append, after_append, after_append, after_append]
  refine (s5_v33 _ (fun i => x (ix2 i (t i))) (rowZE x) (rowSumE x) (fun i p => x (ix2 i (pos i p))) ?_ ?_ ?_ ?_).trans ?_
  · intro r
    rw [s4_v7, s3_v7, s2_v6]
    refine (takeAlong_apply _ _ _ _ _ _ _ _ _ (fun i _ => t i) (fun i p => ?_) _ r (0 : Fin 1)).trans ?_
    · rw [s1_v5, htg, ht]
    · rw [s1_arg0, hx]
  · intro r
    rw [s4_v2, s3_v2, s2_v2, s1_v2, hZ]
  · intro r
    rw [s4_v4, s3_v4, s2_v4, s1_v4, hS]
  · intro r p
    rw [s4_v8]
    refine (takeAlong_apply _ _ _ _ _ _ _ _ _ pos (fun i p => ?_) _ r p).trans ?_
    · rw [s3_arg2, s2_arg2, s1_arg2, hpv, hp]
    · rw [s3_arg0, s2_arg0, s1_arg0, hx]
  · rfl

end Cert.KernelIdeal.TailValue

end
-- ==== Proof.KernelIdealValue.lean ====
/-
  The idealized kernel's result over the extended reals: after the region the statistics array holds each row's
  log-partition and sum, the other buffers hold their launch contents, and the host lines turn these into the
  row-by-row arrangement of the loss.
-/
import proofs.«116322_j81320910782918_1_alg».proof.Proof.KernelIdealStats
import proofs.«116322_j81320910782918_1_alg».proof.Proof.KernelTailValue

set_option maxRecDepth 16384

noncomputable section

namespace Cert.KernelIdeal.Value

open Cert.KernelIdeal Cert.KernelIdeal.Gen Cert.KernelIdeal.Hand Cert.KernelIdeal.Stats Cert.LossSpec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The loss buffer after the run, when every target and soft index is in range: the row-by-row arrangement of the
    launch contents. -/
theorem kernel_value (c : Dev nD) (t : Fin 4096 → Fin 32000) (pos : Fin 4096 → Fin 50 → Fin 32000)
    (ht : ∀ i, (m ((c.tc : Thread nD τ).loc main_arg1) : IVec S4096 32) (ix1 i) = BitVec.ofNat 32 (t i).val)
    (hp : ∀ i p, (m ((c.tc : Thread nD τ).loc main_arg2) : IVec S4096x50 32) (ix2 i p) = BitVec.ofNat 32 (pos i p).val) :
    Pipeline.afterTail₀ cfgs (dats m) 0 (V0 m) tailOps c main_v33
      = fun _ => rowsE (m ((c.tc : Thread nD τ).loc main_arg0)) t pos := by
  unfold Pipeline.afterTail₀
  have e0 := (Pipeline.withArrays_arr spec0 launch0.win.arr_inj c (V0 m c) (fun w => (dats m 0 c).arrAt w cfg0.N) 0).trans
    (((dats m 0 c).arrAt_in 0 rfl _).trans ((A_eq m c 0).trans (V_main_arg0 m c)))
  have e1 := Pipeline.withArrays_arr spec0 launch0.win.arr_inj c (V0 m c) (fun w => (dats m 0 c).arrAt w cfg0.N) 1
  refine TailValue.tail_value _ (m ((c.tc : Thread nD τ).loc main_arg0)) (m ((c.tc : Thread nD τ).loc main_arg1))
    (m ((c.tc : Thread nD τ).loc main_arg2)) t pos e0 ?_ ?_ ?_ ?_ ht hp
  · exact Pipeline.withArrays_of_ne _ c _ _ main_arg1 (by decide)
  · exact Pipeline.withArrays_of_ne _ c _ _ main_arg2 (by decide)
  · intro r; exact (congrFun e1 (ix2 r (0 : Fin 2))).trans (stats_rowZ m c r)
  · intro r; exact (congrFun e1 (ix2 r (1 : Fin 2))).trans (stats_rowSum m c r)

end Cert.KernelIdeal.Value

end
-- ==== Proof.RefRun.lean ====
/-
  The reference program as one straight line of host operations, for any float instance: the list of its
  operations in program order (the two outlined functions, the log-softmax and the one-hot, listed at their call
  sites over the call's own buffers), the program as that line, and its run: every weakly fair execution terminates
  with every buffer at what the line leaves there.
-/
import proofs.«116322_j81320910782918_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 79 operations, in order (a called function's operations stand in its call's place, spelt `TRef.…`). -/
abbrev ops : List (HloOp τ sig (Elt F)) :=
  [ TRef.nullary (TRef.of (T := ⟨S_, .f32⟩) main_call0_cst) (constant S_ .f32 0xFF800000#32),
    TRef.binary (TRef.of (T := ⟨S4096x32000, .f32⟩) main_arg0) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_arg0) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v0) subf,
    nullary main_v1 (iotaInDim S4096 32 0),
    unary main_v1 main_v2 (broadcastInDim S4096x1 ![0] bcast_S4096_S4096x1_0 : (⟨S4096, .i32⟩ : BufTy).Contents (Elt F) → (⟨S4096x1, .i32⟩ : BufTy).Contents (Elt F)),
    unary main_v2 main_v3 (broadcastInDim S4096x50 ![0, 1] bcast_S4096x1_S4096x50_0_1 : (⟨S4096x1, .i32⟩ : BufTy).Contents (Elt F) → (⟨S4096x50, .i32⟩ : BufTy).Contents (Elt F)),
    nullary main_cst (constant S_ .f32 0x00000000#32),
    unary main_cst main_v4 (broadcastInDim S4096x32000 ![] bcast_S_S4096x32000 : (⟨S_, .f32⟩ : BufTy).Contents (Elt F) → (⟨S4096x32000, .f32⟩ : BufTy).Contents (Elt F)),
    nullary main_c (constantI S_ 32 0#32),
    unary main_c main_v5 (broadcastInDim S4096x50 ![] bcast_S_S4096x50 : (⟨S_, .i32⟩ : BufTy).Contents (Elt F) → (⟨S4096x50, .i32⟩ : BufTy).Contents (Elt F)),
    binary main_v3 main_v5 main_v6 (cmpi .slt : (⟨S4096x50, .i32⟩ : BufTy).Contents (Elt F) → (⟨S4096x50, .i32⟩ : BufTy).Contents (Elt F) → (⟨S4096x50, .i1⟩ : BufTy).Contents (Elt F)),
    nullary main_c_0 (constantI S_ 32 4096#32),
    unary main_c_0 main_v7 (broadcastInDim S4096x50 ![] bcast_S_S4096x50 : (⟨S_, .i32⟩ : BufTy).Contents (Elt F) → (⟨S4096x50, .i32⟩ : BufTy).Contents (Elt F)),
    binary main_v3 main_v7 main_v8 (addi : (⟨S4096x50, .i32⟩ : BufTy).Contents (Elt F) → (⟨S4096x50, .i32⟩ : BufTy).Contents (Elt F) → (⟨S4096x50, .i32⟩ : BufTy).Contents (Elt F)),
    ternary main_v6 main_v8 main_v3 main_v9 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    nullary main_c_1 (constantI S_ 32 0#32),
    unary main_c_1 main_v10 (broadcastInDim S4096x50 ![] bcast_S_S4096x50 : (⟨S_, .i32⟩ : BufTy).Contents (Elt F) → (⟨S4096x50, .i32⟩ : BufTy).Contents (Elt F)),
    binary main_arg2 main_v10 main_v11 (cmpi .slt : (⟨S4096x50, .i32⟩ : BufTy).Contents (Elt F) → (⟨S4096x50, .i32⟩ : BufTy).Contents (Elt F) → (⟨S4096x50, .i1⟩ : BufTy).Contents (Elt F)),
    nullary main_c_2 (constantI S_ 32 32000#32),
    unary main_c_2 main_v12 (broadcastInDim S4096x50 ![] bcast_S_S4096x50 : (⟨S_, .i32⟩ : BufTy).Contents (Elt F) → (⟨S4096x50, .i32⟩ : BufTy).Contents (Elt F)),
    binary main_arg2 main_v12 main_v13 (addi : (⟨S4096x50, .i32⟩ : BufTy).Contents (Elt F) → (⟨S4096x50, .i32⟩ : BufTy).Contents (Elt F) → (⟨S4096x50, .i32⟩ : BufTy).Contents (Elt F)),
    ternary main_v11 main_v13 main_arg2 main_v14 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    unary main_v9 main_v15 (broadcastInDim S4096x50x1 ![0, 1] bcast_S4096x50_S4096x50x1_0_1 : (⟨S4096x50, .i32⟩ : BufTy).Contents (Elt F) → (⟨S4096x50x1, .i32⟩ : BufTy).Contents (Elt F)),
    unary main_v14 main_v16 (broadcastInDim S4096x50x1 ![0, 1] bcast_S4096x50_S4096x50x1_0_1 : (⟨S4096x50, .i32⟩ : BufTy).Contents (Elt F) → (⟨S4096x50x1, .i32⟩ : BufTy).Contents (Elt F)),
    binary main_v15 main_v16 main_v17 ((fun a b => concatenate S4096x50x2 2 [⟨S4096x50x1, a⟩, ⟨S4096x50x1, b⟩] concatenates_S4096x50x1_S4096x50x1_S4096x50x2_d2) : (⟨S4096x50x1, .i32⟩ : BufTy).Contents (Elt F) → (⟨S4096x50x1, .i32⟩ : BufTy).Contents (Elt F) → (⟨S4096x50x2, .i32⟩ : BufTy).Contents (Elt F)),
    nullary main_cst_3 (constant S_ .f32 0x3B83126F#32),
    unary main_cst_3 main_v18 (broadcastInDim S4096x50 ![] bcast_S_S4096x50 : (⟨S_, .f32⟩ : BufTy).Contents (Elt F) → (⟨S4096x50, .f32⟩ : BufTy).Contents (Elt F)),
    ternary main_v4 main_v17 main_v18 main_v19 ((fun x i u => Host.scatterAdd scatter_S4096x32000_S4096x50x2_S4096x50_n_01_01_2 x i u) : (⟨S4096x32000, .f32⟩ : BufTy).Contents (Elt F) → (⟨S4096x50x2, .i32⟩ : BufTy).Contents (Elt F) → (⟨S4096x50, .f32⟩ : BufTy).Contents (Elt F) → (⟨S4096x32000, .f32⟩ : BufTy).Contents (Elt F)),
    TRef.unary (TRef.of (T := ⟨S4096, .i32⟩) main_arg1) (TRef.of (T := ⟨S4096x1, .i32⟩) main_call1_v0) (broadcastInDim S4096x1 ![0] bcast_S4096_S4096x1_0),
    TRef.nullary (TRef.of (T := ⟨S1x32000, .i32⟩) main_call1_v1) (iotaInDim S1x32000 32 1),
    TRef.unary (TRef.of (T := ⟨S4096x1, .i32⟩) main_call1_v0) (TRef.of (T := ⟨S4096x32000, .i32⟩) main_call1_v2) (broadcastInDim S4096x32000 ![0, 1] bcast_S4096x1_S4096x32000_0_1),
    TRef.unary (TRef.of (T := ⟨S1x32000, .i32⟩) main_call1_v1) (TRef.of (T := ⟨S4096x32000, .i32⟩) main_call1_v3) (broadcastInDim S4096x32000 ![0, 1] bcast_S1x32000_S4096x32000_0_1),
    TRef.binary (TRef.of (T := ⟨S4096x32000, .i32⟩) main_call1_v2) (TRef.of (T := ⟨S4096x32000, .i32⟩) main_call1_v3) (TRef.of (T := ⟨S4096x32000, .i1⟩) main_call1_v4) (cmpi .eq),
    TRef.unary (TRef.of (T := ⟨S4096x32000, .i1⟩) main_call1_v4) (TRef.of (T := ⟨S4096x32000, .f32⟩) main_v20) (uitofp .f32),
    nullary main_cst_4 (constant S_ .f32 0x3F4CCCCD#32),
    unary main_cst_4 main_v21 (broadcastInDim S4096x32000 ![] bcast_S_S4096x32000 : (⟨S_, .f32⟩ : BufTy).Contents (Elt F) → (⟨S4096x32000, .f32⟩ : BufTy).Contents (Elt F)),
    binary main_v21 main_v20 main_v22 (mulf : (⟨S4096x32000, .f32⟩ : BufTy).Contents (Elt F) → (⟨S4096x32000, .f32⟩ : BufTy).Contents (Elt F) → (⟨S4096x32000, .f32⟩ : BufTy).Contents (Elt F)),
    binary main_v22 main_v19 main_v23 (addf : (⟨S4096x32000, .f32⟩ : BufTy).Contents (Elt F) → (⟨S4096x32000, .f32⟩ : BufTy).Contents (Elt F) → (⟨S4096x32000, .f32⟩ : BufTy).Contents (Elt F)),
    nullary main_cst_5 (constant S_ .f32 0x3F666666#32),
    unary main_cst_5 main_v24 (broadcastInDim S4096x32000 ![] bcast_S_S4096x32000 : (⟨S_, .f32⟩ : BufTy).Contents (Elt F) → (⟨S4096x32000, .f32⟩ : BufTy).Contents (Elt F)),
    binary main_v24 main_v20 main_v25 (mulf : (⟨S4096x32000, .f32⟩ : BufTy).Contents (Elt F) → (⟨S4096x32000, .f32⟩ : BufTy).Contents (Elt F) → (⟨S4096x32000, .f32⟩ : BufTy).Contents (Elt F)),
    nullary main_cst_6 (constant S_ .f32 0x3651B717#32),
    unary main_cst_6 main_v26 (broadcastInDim S4096x32000 ![] bcast_S_S4096x32000 : (⟨S_, .f32⟩ : BufTy).Contents (Elt F) → (⟨S4096x32000, .f32⟩ : BufTy).Contents (Elt F)),
    binary main_v25 main_v26 main_v27 (addf : (⟨S4096x32000, .f32⟩ : BufTy).Contents (Elt F) → (⟨S4096x32000, .f32⟩ : BufTy).Contents (Elt F) → (⟨S4096x32000, .f32⟩ : BufTy).Contents (Elt F)),
    unary main_v27 main_v28 (Host.negf : (⟨S4096x32000, .f32⟩ : BufTy).Contents (Elt F) → (⟨S4096x32000, .f32⟩ : BufTy).Contents (Elt F)),
    binary main_v28 main_v0 main_v29 (mulf : (⟨S4096x32000, .f32⟩ : BufTy).Contents (Elt F) → (⟨S4096x32000, .f32⟩ : BufTy).Contents (Elt F) → (⟨S4096x32000, .f32⟩ : BufTy).Contents (Elt F)),
    nullary main_cst_7 (constant S_ .f32 0x00000000#32),
    binary main_v29 main_cst_7 main_v30 ((fun x v => Host.reduceAdd x v reducesTo_S4096x32000_S32000_d0 h_S_) : (⟨S4096x32000, .f32⟩ : BufTy).Contents (Elt F) → (⟨S_, .f32⟩ : BufTy).Contents (Elt F) → (⟨S32000, .f32⟩ : BufTy).Contents (Elt F)),
    nullary main_cst_8 (constant S_ .f32 0x45800000#32),
    unary main_cst_8 main_v31 (broadcastInDim S32000 ![] bcast_S_S32000 : (⟨S_, .f32⟩ : BufTy).Contents (Elt F) → (⟨S32000, .f32⟩ : BufTy).Contents (Elt F)),
    binary main_v30 main_v31 main_v32 (Host.divf : (⟨S32000, .f32⟩ : BufTy).Contents (Elt F) → (⟨S32000, .f32⟩ : BufTy).Contents (Elt F) → (⟨S32000, .f32⟩ : BufTy).Contents (Elt F)),
    nullary main_cst_9 (constant S_ .f32 0x00000000#32),
    binary main_v32 main_cst_9 main_v33 ((fun x v => Host.reduceAdd x v reducesTo_S32000_S_d0 h_S_) : (⟨S32000, .f32⟩ : BufTy).Contents (Elt F) → (⟨S_, .f32⟩ : BufTy).Contents (Elt F) → (⟨S_, .f32⟩ : BufTy).Contents (Elt F)),
    unary main_v23 main_v34 (Host.negf : (⟨S4096x32000, .f32⟩ : BufTy).Contents (Elt F) → (⟨S4096x32000, .f32⟩ : BufTy).Contents (Elt F)),
    binary main_v34 main_v0 main_v35 (mulf : (⟨S4096x32000, .f32⟩ : BufTy).Contents (Elt F) → (⟨S4096x32000, .f32⟩ : BufTy).Contents (Elt F) → (⟨S4096x32000, .f32⟩ : BufTy).Contents (Elt F)),
    nullary main_cst_10 (constant S_ .f32 0x00000000#32),
    binary main_v35 main_cst_10 main_v36 ((fun x v => Host.reduceAdd x v reducesTo_S4096x32000_S32000_d0 h_S_) : (⟨S4096x32000, .f32⟩ : BufTy).Contents (Elt F) → (⟨S_, .f32⟩ : BufTy).Contents (Elt F) → (⟨S32000, .f32⟩ : BufTy).Contents (Elt F)),
    nullary main_cst_11 (constant S_ .f32 0x45800000#32),
    unary main_cst_11 main_v37 (broadcastInDim S32000 ![] bcast_S_S32000 : (⟨S_, .f32⟩ : BufTy).Contents (Elt F) → (⟨S32000, .f32⟩ : BufTy).Contents (Elt F)),
    binary main_v36 main_v37 main_v38 (Host.divf : (⟨S32000, .f32⟩ : BufTy).Contents (Elt F) → (⟨S32000, .f32⟩ : BufTy).Contents (Elt F) → (⟨S32000, .f32⟩ : BufTy).Contents (Elt F)),
    nullary main_cst_12 (constant S_ .f32 0x00000000#32),
    binary main_v38 main_cst_12 main_v39 ((fun x v => Host.reduceAdd x v reducesTo_S32000_S_d0 h_S_) : (⟨S32000, .f32⟩ : BufTy).Contents (Elt F) → (⟨S_, .f32⟩ : BufTy).Contents (Elt F) → (⟨S_, .f32⟩ : BufTy).Contents (Elt F)),
    nullary main_cst_13 (constant S_ .f32 0x3F666666#32),
    binary main_v33 main_cst_13 main_v40 (mulf : (⟨S_, .f32⟩ : BufTy).Contents (Elt F) → (⟨S_, .f32⟩ : BufTy).Contents (Elt F) → (⟨S_, .f32⟩ : BufTy).Contents (Elt F)),
    nullary main_cst_14 (constant S_ .f32 0x3DCCCCCD#32),
    binary main_v39 main_cst_14 main_v41 (mulf : (⟨S_, .f32⟩ : BufTy).Contents (Elt F) → (⟨S_, .f32⟩ : BufTy).Contents (Elt F) → (⟨S_, .f32⟩ : BufTy).Contents (Elt F)),
    binary main_v40 main_v41 main_v42 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., unary_bufs_sub .., nullary_bufs_sub .., unary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., nullary_bufs_sub .., binary_bufs_sub .., unary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., binary_bufs_sub .., binary_bufs_sub ..⟩

/-- On every device, from any memory with zero counters: every weakly fair execution of the reference terminates,
    and every buffer ends at what the operations, applied in order to the launch contents, leave there. -/
theorem run_raw (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ

end Cert.ReferenceIdeal.RefRun

end
-- ==== Proof.RefRead.lean ====
/-
  The reference program read one operation at a time, for any float instance: `val_<buffer>` is the value an
  operation writes, as a function of the program's arguments it depends on; `val_<buffer>_apply` reads it at an index
  from its operands at an index (a layout operation reads its operand at `idx_<buffer> i`; at the extended reals a
  float sum is its initial value plus the sum over the reduced coordinate of the operand at `idx_<buffer> i k`).
  Three operations have no such reading here and are read where they are used: the row maximum (a fold over a row),
  the joining of the row and column index words, and the accumulating scatter.
-/
import proofs.«116322_j81320910782918_1_alg».proof.Proof.Gen.ReferenceIdeal
import Idealize.ShloMosaic.Lib.StableHlo.Run
import Idealize.ShloMosaic.Lib.Pipeline.Value
import Idealize.ShloMosaic.PureOps.Ideal.Laws

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

-- @log_softmax's %cst = stablehlo.constant dense<0xFF800000> : tensor<f32>, in %0 = func.call @log_softmax(…) (record main_call0)
def val_main_call0_cst : (⟨S_, .f32⟩ : BufTy).Contents (Elt F) :=
  constant S_ .f32 0xFF800000#32
theorem val_main_call0_cst_apply (i : S_.Idx) :
    val_main_call0_cst (F := F) i = FloatOps.ofBits .f32 0xFF800000#32 := rfl

-- @log_softmax's %0 = stablehlo.reduce(%arg0 init: %cst) applies stablehlo.maximum across dimensions = [1] : (tensor<4096x32000xf32>, tensor<f32>) -> tensor<4096xf32> {, in %0 = func.call @log_softmax(…) (record main_call0)
def val_main_call0_v0 (x0 : (⟨S4096x32000, .f32⟩ : BufTy).Contents (Elt F)) : (⟨S4096, .f32⟩ : BufTy).Contents (Elt F) :=
  Host.reduce FloatOps.maximumf (x0) (val_main_call0_cst (F := F)) reducesTo_S4096x32000_S4096_d1 h_S_

-- @log_softmax's %cst_0 = stablehlo.constant dense<0xFF800000> : tensor<f32>, in %0 = func.call @log_softmax(…) (record main_call0)
def val_main_call0_cst_0 : (⟨S_, .f32⟩ : BufTy).Contents (Elt F) :=
  constant S_ .f32 0xFF800000#32
theorem val_main_call0_cst_0_apply (i : S_.Idx) :
    val_main_call0_cst_0 (F := F) i = FloatOps.ofBits .f32 0xFF800000#32 := rfl

-- @log_softmax's %1 = stablehlo.broadcast_in_dim %cst_0, dims = [] : (tensor<f32>) -> tensor<4096xf32>, in %0 = func.call @log_softmax(…) (record main_call0)
def val_main_call0_v1 : (⟨S4096, .f32⟩ : BufTy).Contents (Elt F) :=
  broadcastInDim S4096 ![] bcast_S_S4096 (val_main_call0_cst_0 (F := F))
abbrev idx_main_call0_v1 (i : S4096.Idx) : S_.Idx := fun a => a.elim0
theorem val_main_call0_v1_apply (i : S4096.Idx) :
    val_main_call0_v1 (F := F) i = val_main_call0_cst_0 (F := F) (idx_main_call0_v1 i) := by
  unfold val_main_call0_v1
  generalize val_main_call0_cst_0 (F := F) = y
  exact broadcastInDim_apply _ bcast_S_S4096 y i (idx_main_call0_v1 i) (fun a => a.elim0)

-- @log_softmax's %2 = stablehlo.maximum %1, %0 : tensor<4096xf32>, in %0 = func.call @log_softmax(…) (record main_call0)
def val_main_call0_v2 (x0 : (⟨S4096x32000, .f32⟩ : BufTy).Contents (Elt F)) : (⟨S4096, .f32⟩ : BufTy).Contents (Elt F) :=
  maximumf (val_main_call0_v1 (F := F)) (val_main_call0_v0 (F := F) x0)
theorem val_main_call0_v2_apply (x0 : (⟨S4096x32000, .f32⟩ : BufTy).Contents (Elt F)) (i : S4096.Idx) :
    val_main_call0_v2 (F := F) x0 i = FloatOps.maximumf (val_main_call0_v1 (F := F) i) (val_main_call0_v0 (F := F) x0 i) := rfl

-- @log_softmax's %3 = stablehlo.broadcast_in_dim %2, dims = [0] : (tensor<4096xf32>) -> tensor<4096x1xf32>, in %0 = func.call @log_softmax(…) (record main_call0)
def val_main_call0_v3 (x0 : (⟨S4096x32000, .f32⟩ : BufTy).Contents (Elt F)) : (⟨S4096x1, .f32⟩ : BufTy).Contents (Elt F) :=
  broadcastInDim S4096x1 ![0] bcast_S4096_S4096x1_0 (val_main_call0_v2 (F := F) x0)
abbrev idx_main_call0_v3 (i : S4096x1.Idx) : S4096.Idx := fun a => match a with
  | ⟨0, _⟩ => ⟨(i 0).val, (i 0).isLt⟩
theorem val_main_call0_v3_apply (x0 : (⟨S4096x32000, .f32⟩ : BufTy).Contents (Elt F)) (i : S4096x1.Idx) :
    val_main_call0_v3 (F := F) x0 i = val_main_call0_v2 (F := F) x0 (idx_main_call0_v3 i) := by
  unfold val_main_call0_v3
  generalize val_main_call0_v2 (F := F) x0 = y
  exact broadcastInDim_apply _ bcast_S4096_S4096x1_0 y i (idx_main_call0_v3 i) (fun a => match a with
    | ⟨0, _⟩ => by show (i 0).val = if (4096 : Nat) = 1 then 0 else (i 0).val; rw [if_neg (by decide)])

-- @log_softmax's %4 = stablehlo.broadcast_in_dim %3, dims = [0, 1] : (tensor<4096x1xf32>) -> tensor<4096x32000xf32>, in %0 = func.call @log_softmax(…) (record main_call0)
def val_main_call0_v4 (x0 : (⟨S4096x32000, .f32⟩ : BufTy).Contents (Elt F)) : (⟨S4096x32000, .f32⟩ : BufTy).Contents (Elt F) :=
  broadcastInDim S4096x32000 ![0, 1] bcast_S4096x1_S4096x32000_0_1 (val_main_call0_v3 (F := F) x0)
abbrev idx_main_call0_v4 (i : S4096x32000.Idx) : S4096x1.Idx := fun a => match a with
  | ⟨0, _⟩ => ⟨(i 0).val, (i 0).isLt⟩
  | ⟨1, _⟩ => ⟨0, Nat.one_pos⟩
theorem val_main_call0_v4_apply (x0 : (⟨S4096x32000, .f32⟩ : BufTy).Contents (Elt F)) (i : S4096x32000.Idx) :
    val_main_call0_v4 (F := F) x0 i = val_main_call0_v3 (F := F) x0 (idx_main_call0_v4 i) := by
  unfold val_main_call0_v4
  generalize val_main_call0_v3 (F := F) x0 = y
  exact broadcastInDim_apply _ bcast_S4096x1_S4096x32000_0_1 y i (idx_main_call0_v4 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- @log_softmax's %5 = stablehlo.subtract %arg0, %4 : tensor<4096x32000xf32>, in %0 = func.call @log_softmax(…) (record main_call0)
def val_main_call0_v5 (x0 : (⟨S4096x32000, .f32⟩ : BufTy).Contents (Elt F)) : (⟨S4096x32000, .f32⟩ : BufTy).Contents (Elt F) :=
  subf (x0) (val_main_call0_v4 (F := F) x0)
theorem val_main_call0_v5_apply (x0 : (⟨S4096x32000, .f32⟩ : BufTy).Contents (Elt F)) (i : S4096x32000.Idx) :
    val_main_call0_v5 (F := F) x0 i = FloatOps.subf (x0 i) (val_main_call0_v4 (F := F) x0 i) := rfl

-- @log_softmax's %6 = stablehlo.exponential %5 : tensor<4096x32000xf32>, in %0 = func.call @log_softmax(…) (record main_call0)
def val_main_call0_v6 (x0 : (⟨S4096x32000, .f32⟩ : BufTy).Contents (Elt F)) : (⟨S4096x32000, .f32⟩ : BufTy).Contents (Elt F) :=
  Host.exp (val_main_call0_v5 (F := F) x0)
theorem val_main_call0_v6_apply (x0 : (⟨S4096x32000, .f32⟩ : BufTy).Contents (Elt F)) (i : S4096x32000.Idx) :
    val_main_call0_v6 (F := F) x0 i = FloatOps.hostUnary .exp (val_main_call0_v5 (F := F) x0 i) := rfl

-- @log_softmax's %cst_1 = stablehlo.constant dense<0.000000e+00> : tensor<f32>, in %0 = func.call @log_softmax(…) (record main_call0)
def val_main_call0_cst_1 : (⟨S_, .f32⟩ : BufTy).Contents (Elt F) :=
  constant S_ .f32 0x00000000#32
theorem val_main_call0_cst_1_apply (i : S_.Idx) :
    val_main_call0_cst_1 (F := F) i = FloatOps.ofBits .f32 0x00000000#32 := rfl

-- @log_softmax's %7 = stablehlo.reduce(%6 init: %cst_1) applies stablehlo.add across dimensions = [1] : (tensor<4096x32000xf32>, tensor<f32>) -> tensor<4096xf32> {, in %0 = func.call @log_softmax(…) (record main_call0)
def val_main_call0_v7 (x0 : (⟨S4096x32000, .f32⟩ : BufTy).Contents (Elt F)) : (⟨S4096, .f32⟩ : BufTy).Contents (Elt F) :=
  Host.reduceAdd (val_main_call0_v6 (F := F) x0) (val_main_call0_cst_1 (F := F)) reducesTo_S4096x32000_S4096_d1 h_S_
abbrev idx_main_call0_v7 (i : S4096.Idx) (k : Fin 32000) : S4096x32000.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_call0_v7_apply (x0 : (⟨S4096x32000, .f32⟩ : BufTy).Contents (Elt Ideal)) (i : S4096.Idx) :
    val_main_call0_v7 (F := Ideal) x0 i = (val_main_call0_cst_1 (F := Ideal)) (Shape.Idx.first h_S_) + ∑ k : Fin 32000, (val_main_call0_v6 (F := Ideal) x0) (idx_main_call0_v7 i k) := by
  unfold val_main_call0_v7
  generalize val_main_call0_v6 (F := Ideal) x0 = y0
  simp only [Host.reduceAdd, Ideal.hostReduceAdd_def]
  rw [Ideal.hostReduceAdd_single reducesTo_S4096x32000_S4096_d1 (by decide)]
  refine congrArg (_ + ·) (Finset.sum_congr rfl fun k _ => ?_)
  exact congrArg y0 (funext fun a => Fin.ext (by match a with | ⟨0, _⟩ => rfl | ⟨1, _⟩ => rfl))

-- @log_softmax's %8 = stablehlo.broadcast_in_dim %7, dims = [0] : (tensor<4096xf32>) -> tensor<4096x1xf32>, in %0 = func.call @log_softmax(…) (record main_call0)
def val_main_call0_v8 (x0 : (⟨S4096x32000, .f32⟩ : BufTy).Contents (Elt F)) : (⟨S4096x1, .f32⟩ : BufTy).Contents (Elt F) :=
  broadcastInDim S4096x1 ![0] bcast_S4096_S4096x1_0 (val_main_call0_v7 (F := F) x0)
abbrev idx_main_call0_v8 (i : S4096x1.Idx) : S4096.Idx := fun a => match a with
  | ⟨0, _⟩ => ⟨(i 0).val, (i 0).isLt⟩
theorem val_main_call0_v8_apply (x0 : (⟨S4096x32000, .f32⟩ : BufTy).Contents (Elt F)) (i : S4096x1.Idx) :
    val_main_call0_v8 (F := F) x0 i = val_main_call0_v7 (F := F) x0 (idx_main_call0_v8 i) := by
  unfold val_main_call0_v8
  generalize val_main_call0_v7 (F := F) x0 = y
  exact broadcastInDim_apply _ bcast_S4096_S4096x1_0 y i (idx_main_call0_v8 i) (fun a => match a with
    | ⟨0, _⟩ => by show (i 0).val = if (4096 : Nat) = 1 then 0 else (i 0).val; rw [if_neg (by decide)])

-- @log_softmax's %9 = stablehlo.log %8 : tensor<4096x1xf32>, in %0 = func.call @log_softmax(…) (record main_call0)
def val_main_call0_v9 (x0 : (⟨S4096x32000, .f32⟩ : BufTy).Contents (Elt F)) : (⟨S4096x1, .f32⟩ : BufTy).Contents (Elt F) :=
  Host.log (val_main_call0_v8 (F := F) x0)
theorem val_main_call0_v9_apply (x0 : (⟨S4096x32000, .f32⟩ : BufTy).Contents (Elt F)) (i : S4096x1.Idx) :
    val_main_call0_v9 (F := F) x0 i = FloatOps.hostUnary .log (val_main_call0_v8 (F := F) x0 i) := rfl

-- @log_softmax's %10 = stablehlo.broadcast_in_dim %9, dims = [0, 1] : (tensor<4096x1xf32>) -> tensor<4096x32000xf32>, in %0 = func.call @log_softmax(…) (record main_call0)
def val_main_call0_v10 (x0 : (⟨S4096x32000, .f32⟩ : BufTy).Contents (Elt F)) : (⟨S4096x32000, .f32⟩ : BufTy).Contents (Elt F) :=
  broadcastInDim S4096x32000 ![0, 1] bcast_S4096x1_S4096x32000_0_1 (val_main_call0_v9 (F := F) x0)
abbrev idx_main_call0_v10 (i : S4096x32000.Idx) : S4096x1.Idx := fun a => match a with
  | ⟨0, _⟩ => ⟨(i 0).val, (i 0).isLt⟩
  | ⟨1, _⟩ => ⟨0, Nat.one_pos⟩
theorem val_main_call0_v10_apply (x0 : (⟨S4096x32000, .f32⟩ : BufTy).Contents (Elt F)) (i : S4096x32000.Idx) :
    val_main_call0_v10 (F := F) x0 i = val_main_call0_v9 (F := F) x0 (idx_main_call0_v10 i) := by
  unfold val_main_call0_v10
  generalize val_main_call0_v9 (F := F) x0 = y
  exact broadcastInDim_apply _ bcast_S4096x1_S4096x32000_0_1 y i (idx_main_call0_v10 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %0 = func.call @log_softmax(…) (record main_call0) result 0: @log_softmax's %11 = stablehlo.subtract %5, %10 : tensor<4096x32000xf32>
def val_main_v0 (x0 : (⟨S4096x32000, .f32⟩ : BufTy).Contents (Elt F)) : (⟨S4096x32000, .f32⟩ : BufTy).Contents (Elt F) :=
  subf (val_main_call0_v5 (F := F) x0) (val_main_call0_v10 (F := F) x0)
theorem val_main_v0_apply (x0 : (⟨S4096x32000, .f32⟩ : BufTy).Contents (Elt F)) (i : S4096x32000.Idx) :
    val_main_v0 (F := F) x0 i = FloatOps.subf (val_main_call0_v5 (F := F) x0 i) (val_main_call0_v10 (F := F) x0 i) := rfl

-- %1 = stablehlo.iota dim = 0 : tensor<4096xi32>
def val_main_v1 : (⟨S4096, .i32⟩ : BufTy).Contents (Elt F) :=
  iotaInDim S4096 32 0
theorem val_main_v1_apply (i : S4096.Idx) :
    val_main_v1 (F := F) i = BitVec.ofNat 32 (i 0).val := rfl

-- %2 = stablehlo.broadcast_in_dim %1, dims = [0] : (tensor<4096xi32>) -> tensor<4096x1xi32>
def val_main_v2 : (⟨S4096x1, .i32⟩ : BufTy).Contents (Elt F) :=
  broadcastInDim S4096x1 ![0] bcast_S4096_S4096x1_0 (val_main_v1 (F := F))
abbrev idx_main_v2 (i : S4096x1.Idx) : S4096.Idx := fun a => match a with
  | ⟨0, _⟩ => ⟨(i 0).val, (i 0).isLt⟩
theorem val_main_v2_apply (i : S4096x1.Idx) :
    val_main_v2 (F := F) i = val_main_v1 (F := F) (idx_main_v2 i) := by
  unfold val_main_v2
  generalize val_main_v1 (F := F) = y
  exact broadcastInDim_apply _ bcast_S4096_S4096x1_0 y i (idx_main_v2 i) (fun a => match a with
    | ⟨0, _⟩ => by show (i 0).val = if (4096 : Nat) = 1 then 0 else (i 0).val; rw [if_neg (by decide)])

-- %3 = stablehlo.broadcast_in_dim %2, dims = [0, 1] : (tensor<4096x1xi32>) -> tensor<4096x50xi32>
def val_main_v3 : (⟨S4096x50, .i32⟩ : BufTy).Contents (Elt F) :=
  broadcastInDim S4096x50 ![0, 1] bcast_S4096x1_S4096x50_0_1 (val_main_v2 (F := F))
abbrev idx_main_v3 (i : S4096x50.Idx) : S4096x1.Idx := fun a => match a with
  | ⟨0, _⟩ => ⟨(i 0).val, (i 0).isLt⟩
  | ⟨1, _⟩ => ⟨0, Nat.one_pos⟩
theorem val_main_v3_apply (i : S4096x50.Idx) :
    val_main_v3 (F := F) i = val_main_v2 (F := F) (idx_main_v3 i) := by
  unfold val_main_v3
  generalize val_main_v2 (F := F) = y
  exact broadcastInDim_apply _ bcast_S4096x1_S4096x50_0_1 y i (idx_main_v3 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %4 = stablehlo.broadcast_in_dim %cst, dims = [] : (tensor<f32>) -> tensor<4096x32000xf32>
def val_main_v4 : (⟨S4096x32000, .f32⟩ : BufTy).Contents (Elt F) :=
  broadcastInDim S4096x32000 ![] bcast_S_S4096x32000 (val_main_cst (F := F))
abbrev idx_main_v4 (i : S4096x32000.Idx) : S_.Idx := fun a => a.elim0
theorem val_main_v4_apply (i : S4096x32000.Idx) :
    val_main_v4 (F := F) i = val_main_cst (F := F) (idx_main_v4 i) := by
  unfold val_main_v4
  generalize val_main_cst (F := F) = y
  exact broadcastInDim_apply _ bcast_S_S4096x32000 y i (idx_main_v4 i) (fun a => a.elim0)

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %5 = stablehlo.broadcast_in_dim %c, dims = [] : (tensor<i32>) -> tensor<4096x50xi32>
def val_main_v5 : (⟨S4096x50, .i32⟩ : BufTy).Contents (Elt F) :=
  broadcastInDim S4096x50 ![] bcast_S_S4096x50 (val_main_c (F := F))
abbrev idx_main_v5 (i : S4096x50.Idx) : S_.Idx := fun a => a.elim0
theorem val_main_v5_apply (i : S4096x50.Idx) :
    val_main_v5 (F := F) i = val_main_c (F := F) (idx_main_v5 i) := by
  unfold val_main_v5
  generalize val_main_c (F := F) = y
  exact broadcastInDim_apply _ bcast_S_S4096x50 y i (idx_main_v5 i) (fun a => a.elim0)

-- %6 = stablehlo.compare LT, %3, %5, SIGNED : (tensor<4096x50xi32>, tensor<4096x50xi32>) -> tensor<4096x50xi1>
def val_main_v6 : (⟨S4096x50, .i1⟩ : BufTy).Contents (Elt F) :=
  cmpi .slt (val_main_v3 (F := F)) (val_main_v5 (F := F))
theorem val_main_v6_apply (i : S4096x50.Idx) :
    val_main_v6 (F := F) i = IntOp.cmpi .slt (val_main_v3 (F := F) i) (val_main_v5 (F := F) i) := rfl

-- %c_0 = stablehlo.constant dense<4096> : tensor<i32>
def val_main_c_0 : (⟨S_, .i32⟩ : BufTy).Contents (Elt F) :=
  constantI S_ 32 4096#32
theorem val_main_c_0_apply (i : S_.Idx) :
    val_main_c_0 (F := F) i = 4096#32 := rfl

-- %7 = stablehlo.broadcast_in_dim %c_0, dims = [] : (tensor<i32>) -> tensor<4096x50xi32>
def val_main_v7 : (⟨S4096x50, .i32⟩ : BufTy).Contents (Elt F) :=
  broadcastInDim S4096x50 ![] bcast_S_S4096x50 (val_main_c_0 (F := F))
abbrev idx_main_v7 (i : S4096x50.Idx) : S_.Idx := fun a => a.elim0
theorem val_main_v7_apply (i : S4096x50.Idx) :
    val_main_v7 (F := F) i = val_main_c_0 (F := F) (idx_main_v7 i) := by
  unfold val_main_v7
  generalize val_main_c_0 (F := F) = y
  exact broadcastInDim_apply _ bcast_S_S4096x50 y i (idx_main_v7 i) (fun a => a.elim0)

-- %8 = stablehlo.add %3, %7 : tensor<4096x50xi32>
def val_main_v8 : (⟨S4096x50, .i32⟩ : BufTy).Contents (Elt F) :=
  addi (val_main_v3 (F := F)) (val_main_v7 (F := F))
theorem val_main_v8_apply (i : S4096x50.Idx) :
    val_main_v8 (F := F) i = IntOp.addi (val_main_v3 (F := F) i) (val_main_v7 (F := F) i) := rfl

-- %9 = stablehlo.select %6, %8, %3 : tensor<4096x50xi1>, tensor<4096x50xi32>
def val_main_v9 : (⟨S4096x50, .i32⟩ : BufTy).Contents (Elt F) :=
  select (val_main_v6 (F := F)) (val_main_v8 (F := F)) (val_main_v3 (F := F))
theorem val_main_v9_apply (i : S4096x50.Idx) :
    val_main_v9 (F := F) i = Scalar.select (val_main_v6 (F := F) i) (val_main_v8 (F := F) i) (val_main_v3 (F := F) i) := rfl

-- %c_1 = stablehlo.constant dense<0> : tensor<i32>
def val_main_c_1 : (⟨S_, .i32⟩ : BufTy).Contents (Elt F) :=
  constantI S_ 32 0#32
theorem val_main_c_1_apply (i : S_.Idx) :
    val_main_c_1 (F := F) i = 0#32 := rfl

-- %10 = stablehlo.broadcast_in_dim %c_1, dims = [] : (tensor<i32>) -> tensor<4096x50xi32>
def val_main_v10 : (⟨S4096x50, .i32⟩ : BufTy).Contents (Elt F) :=
  broadcastInDim S4096x50 ![] bcast_S_S4096x50 (val_main_c_1 (F := F))
abbrev idx_main_v10 (i : S4096x50.Idx) : S_.Idx := fun a => a.elim0
theorem val_main_v10_apply (i : S4096x50.Idx) :
    val_main_v10 (F := F) i = val_main_c_1 (F := F) (idx_main_v10 i) := by
  unfold val_main_v10
  generalize val_main_c_1 (F := F) = y
  exact broadcastInDim_apply _ bcast_S_S4096x50 y i (idx_main_v10 i) (fun a => a.elim0)

-- %11 = stablehlo.compare LT, %arg2, %10, SIGNED : (tensor<4096x50xi32>, tensor<4096x50xi32>) -> tensor<4096x50xi1>
def val_main_v11 (x2 : (⟨S4096x50, .i32⟩ : BufTy).Contents (Elt F)) : (⟨S4096x50, .i1⟩ : BufTy).Contents (Elt F) :=
  cmpi .slt (x2) (val_main_v10 (F := F))
theorem val_main_v11_apply (x2 : (⟨S4096x50, .i32⟩ : BufTy).Contents (Elt F)) (i : S4096x50.Idx) :
    val_main_v11 (F := F) x2 i = IntOp.cmpi .slt (x2 i) (val_main_v10 (F := F) i) := rfl

-- %c_2 = stablehlo.constant dense<32000> : tensor<i32>
def val_main_c_2 : (⟨S_, .i32⟩ : BufTy).Contents (Elt F) :=
  constantI S_ 32 32000#32
theorem val_main_c_2_apply (i : S_.Idx) :
    val_main_c_2 (F := F) i = 32000#32 := rfl

-- %12 = stablehlo.broadcast_in_dim %c_2, dims = [] : (tensor<i32>) -> tensor<4096x50xi32>
def val_main_v12 : (⟨S4096x50, .i32⟩ : BufTy).Contents (Elt F) :=
  broadcastInDim S4096x50 ![] bcast_S_S4096x50 (val_main_c_2 (F := F))
abbrev idx_main_v12 (i : S4096x50.Idx) : S_.Idx := fun a => a.elim0
theorem val_main_v12_apply (i : S4096x50.Idx) :
    val_main_v12 (F := F) i = val_main_c_2 (F := F) (idx_main_v12 i) := by
  unfold val_main_v12
  generalize val_main_c_2 (F := F) = y
  exact broadcastInDim_apply _ bcast_S_S4096x50 y i (idx_main_v12 i) (fun a => a.elim0)

-- %13 = stablehlo.add %arg2, %12 : tensor<4096x50xi32>
def val_main_v13 (x2 : (⟨S4096x50, .i32⟩ : BufTy).Contents (Elt F)) : (⟨S4096x50, .i32⟩ : BufTy).Contents (Elt F) :=
  addi (x2) (val_main_v12 (F := F))
theorem val_main_v13_apply (x2 : (⟨S4096x50, .i32⟩ : BufTy).Contents (Elt F)) (i : S4096x50.Idx) :
    val_main_v13 (F := F) x2 i = IntOp.addi (x2 i) (val_main_v12 (F := F) i) := rfl

-- %14 = stablehlo.select %11, %13, %arg2 : tensor<4096x50xi1>, tensor<4096x50xi32>
def val_main_v14 (x2 : (⟨S4096x50, .i32⟩ : BufTy).Contents (Elt F)) : (⟨S4096x50, .i32⟩ : BufTy).Contents (Elt F) :=
  select (val_main_v11 (F := F) x2) (val_main_v13 (F := F) x2) (x2)
theorem val_main_v14_apply (x2 : (⟨S4096x50, .i32⟩ : BufTy).Contents (Elt F)) (i : S4096x50.Idx) :
    val_main_v14 (F := F) x2 i = Scalar.select (val_main_v11 (F := F) x2 i) (val_main_v13 (F := F) x2 i) (x2 i) := rfl

-- %15 = stablehlo.broadcast_in_dim %9, dims = [0, 1] : (tensor<4096x50xi32>) -> tensor<4096x50x1xi32>
def val_main_v15 : (⟨S4096x50x1, .i32⟩ : BufTy).Contents (Elt F) :=
  broadcastInDim S4096x50x1 ![0, 1] bcast_S4096x50_S4096x50x1_0_1 (val_main_v9 (F := F))
abbrev idx_main_v15 (i : S4096x50x1.Idx) : S4096x50.Idx := fun a => match a with
  | ⟨0, _⟩ => ⟨(i 0).val, (i 0).isLt⟩
  | ⟨1, _⟩ => ⟨(i 1).val, (i 1).isLt⟩
theorem val_main_v15_apply (i : S4096x50x1.Idx) :
    val_main_v15 (F := F) i = val_main_v9 (F := F) (idx_main_v15 i) := by
  unfold val_main_v15
  generalize val_main_v9 (F := F) = y
  exact broadcastInDim_apply _ bcast_S4096x50_S4096x50x1_0_1 y i (idx_main_v15 i) (fun a => match a with
    | ⟨0, _⟩ => by show (i 0).val = if (4096 : Nat) = 1 then 0 else (i 0).val; rw [if_neg (by decide)]
    | ⟨1, _⟩ => by show (i 1).val = if (50 : Nat) = 1 then 0 else (i 1).val; rw [if_neg (by decide)])

-- %16 = stablehlo.broadcast_in_dim %14, dims = [0, 1] : (tensor<4096x50xi32>) -> tensor<4096x50x1xi32>
def val_main_v16 (x2 : (⟨S4096x50, .i32⟩ : BufTy).Contents (Elt F)) : (⟨S4096x50x1, .i32⟩ : BufTy).Contents (Elt F) :=
  broadcastInDim S4096x50x1 ![0, 1] bcast_S4096x50_S4096x50x1_0_1 (val_main_v14 (F := F) x2)
abbrev idx_main_v16 (i : S4096x50x1.Idx) : S4096x50.Idx := fun a => match a with
  | ⟨0, _⟩ => ⟨(i 0).val, (i 0).isLt⟩
  | ⟨1, _⟩ => ⟨(i 1).val, (i 1).isLt⟩
theorem val_main_v16_apply (x2 : (⟨S4096x50, .i32⟩ : BufTy).Contents (Elt F)) (i : S4096x50x1.Idx) :
    val_main_v16 (F := F) x2 i = val_main_v14 (F := F) x2 (idx_main_v16 i) := by
  unfold val_main_v16
  generalize val_main_v14 (F := F) x2 = y
  exact broadcastInDim_apply _ bcast_S4096x50_S4096x50x1_0_1 y i (idx_main_v16 i) (fun a => match a with
    | ⟨0, _⟩ => by show (i 0).val = if (4096 : Nat) = 1 then 0 else (i 0).val; rw [if_neg (by decide)]
    | ⟨1, _⟩ => by show (i 1).val = if (50 : Nat) = 1 then 0 else (i 1).val; rw [if_neg (by decide)])

-- %17 = stablehlo.concatenate %15, %16, dim = 2 : (tensor<4096x50x1xi32>, tensor<4096x50x1xi32>) -> tensor<4096x50x2xi32>
def val_main_v17 (x2 : (⟨S4096x50, .i32⟩ : BufTy).Contents (Elt F)) : (⟨S4096x50x2, .i32⟩ : BufTy).Contents (Elt F) :=
  concatenate S4096x50x2 2 [⟨S4096x50x1, (val_main_v15 (F := F))⟩, ⟨S4096x50x1, (val_main_v16 (F := F) x2)⟩] concatenates_S4096x50x1_S4096x50x1_S4096x50x2_d2

-- %cst_3 = stablehlo.constant dense<4.000000e-03> : tensor<f32>
def val_main_cst_3 : (⟨S_, .f32⟩ : BufTy).Contents (Elt F) :=
  constant S_ .f32 0x3B83126F#32
theorem val_main_cst_3_apply (i : S_.Idx) :
    val_main_cst_3 (F := F) i = FloatOps.ofBits .f32 0x3B83126F#32 := rfl

-- %18 = stablehlo.broadcast_in_dim %cst_3, dims = [] : (tensor<f32>) -> tensor<4096x50xf32>
def val_main_v18 : (⟨S4096x50, .f32⟩ : BufTy).Contents (Elt F) :=
  broadcastInDim S4096x50 ![] bcast_S_S4096x50 (val_main_cst_3 (F := F))
abbrev idx_main_v18 (i : S4096x50.Idx) : S_.Idx := fun a => a.elim0
theorem val_main_v18_apply (i : S4096x50.Idx) :
    val_main_v18 (F := F) i = val_main_cst_3 (F := F) (idx_main_v18 i) := by
  unfold val_main_v18
  generalize val_main_cst_3 (F := F) = y
  exact broadcastInDim_apply _ bcast_S_S4096x50 y i (idx_main_v18 i) (fun a => a.elim0)

-- %19 = "stablehlo.scatter"(%4, %17, %18) <{indices_are_sorted = false, scatter_dimension_numbers = #stablehlo.scatter<inserted_window_dims = [0, 1], scatter_dims_to_operand_dims = [0, 1], index_vector_dim = 2>, unique_indices = false}> ( {
def val_main_v19 (x2 : (⟨S4096x50, .i32⟩ : BufTy).Contents (Elt F)) : (⟨S4096x32000, .f32⟩ : BufTy).Contents (Elt F) :=
  Host.scatterAdd scatter_S4096x32000_S4096x50x2_S4096x50_n_01_01_2 (val_main_v4 (F := F)) (val_main_v17 (F := F) x2) (val_main_v18 (F := F))

-- @_one_hot's %0 = stablehlo.broadcast_in_dim %arg0, dims = [0] : (tensor<4096xi32>) -> tensor<4096x1xi32>, in %20 = func.call @_one_hot(…) (record main_call1)
def val_main_call1_v0 (x1 : (⟨S4096, .i32⟩ : BufTy).Contents (Elt F)) : (⟨S4096x1, .i32⟩ : BufTy).Contents (Elt F) :=
  broadcastInDim S4096x1 ![0] bcast_S4096_S4096x1_0 (x1)
abbrev idx_main_call1_v0 (i : S4096x1.Idx) : S4096.Idx := fun a => match a with
  | ⟨0, _⟩ => ⟨(i 0).val, (i 0).isLt⟩
theorem val_main_call1_v0_apply (x1 : (⟨S4096, .i32⟩ : BufTy).Contents (Elt F)) (i : S4096x1.Idx) :
    val_main_call1_v0 (F := F) x1 i = x1 (idx_main_call1_v0 i) := by
  unfold val_main_call1_v0
  exact broadcastInDim_apply _ bcast_S4096_S4096x1_0 x1 i (idx_main_call1_v0 i) (fun a => match a with
    | ⟨0, _⟩ => by show (i 0).val = if (4096 : Nat) = 1 then 0 else (i 0).val; rw [if_neg (by decide)])

-- @_one_hot's %1 = stablehlo.iota dim = 1 : tensor<1x32000xi32>, in %20 = func.call @_one_hot(…) (record main_call1)
def val_main_call1_v1 : (⟨S1x32000, .i32⟩ : BufTy).Contents (Elt F) :=
  iotaInDim S1x32000 32 1
theorem val_main_call1_v1_apply (i : S1x32000.Idx) :
    val_main_call1_v1 (F := F) i = BitVec.ofNat 32 (i 1).val := rfl

-- @_one_hot's %2 = stablehlo.broadcast_in_dim %0, dims = [0, 1] : (tensor<4096x1xi32>) -> tensor<4096x32000xi32>, in %20 = func.call @_one_hot(…) (record main_call1)
def val_main_call1_v2 (x1 : (⟨S4096, .i32⟩ : BufTy).Contents (Elt F)) : (⟨S4096x32000, .i32⟩ : BufTy).Contents (Elt F) :=
  broadcastInDim S4096x32000 ![0, 1] bcast_S4096x1_S4096x32000_0_1 (val_main_call1_v0 (F := F) x1)
abbrev idx_main_call1_v2 (i : S4096x32000.Idx) : S4096x1.Idx := fun a => match a with
  | ⟨0, _⟩ => ⟨(i 0).val, (i 0).isLt⟩
  | ⟨1, _⟩ => ⟨0, Nat.one_pos⟩
theorem val_main_call1_v2_apply (x1 : (⟨S4096, .i32⟩ : BufTy).Contents (Elt F)) (i : S4096x32000.Idx) :
    val_main_call1_v2 (F := F) x1 i = val_main_call1_v0 (F := F) x1 (idx_main_call1_v2 i) := by
  unfold val_main_call1_v2
  generalize val_main_call1_v0 (F := F) x1 = y
  exact broadcastInDim_apply _ bcast_S4096x1_S4096x32000_0_1 y i (idx_main_call1_v2 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- @_one_hot's %3 = stablehlo.broadcast_in_dim %1, dims = [0, 1] : (tensor<1x32000xi32>) -> tensor<4096x32000xi32>, in %20 = func.call @_one_hot(…) (record main_call1)
def val_main_call1_v3 : (⟨S4096x32000, .i32⟩ : BufTy).Contents (Elt F) :=
  broadcastInDim S4096x32000 ![0, 1] bcast_S1x32000_S4096x32000_0_1 (val_main_call1_v1 (F := F))
abbrev idx_main_call1_v3 (i : S4096x32000.Idx) : S1x32000.Idx := fun a => match a with
  | ⟨0, _⟩ => ⟨0, Nat.one_pos⟩
  | ⟨1, _⟩ => ⟨(i 1).val, (i 1).isLt⟩
theorem val_main_call1_v3_apply (i : S4096x32000.Idx) :
    val_main_call1_v3 (F := F) i = val_main_call1_v1 (F := F) (idx_main_call1_v3 i) := by
  unfold val_main_call1_v3
  generalize val_main_call1_v1 (F := F) = y
  exact broadcastInDim_apply _ bcast_S1x32000_S4096x32000_0_1 y i (idx_main_call1_v3 i) (fun a => match a with
    | ⟨0, _⟩ => by show 0 = if (1 : Nat) = 1 then 0 else (i 0).val; rw [if_pos rfl]
    | ⟨1, _⟩ => by show (i 1).val = if (32000 : Nat) = 1 then 0 else (i 1).val; rw [if_neg (by decide)])

-- @_one_hot's %4 = stablehlo.compare EQ, %2, %3, SIGNED : (tensor<4096x32000xi32>, tensor<4096x32000xi32>) -> tensor<4096x32000xi1>, in %20 = func.call @_one_hot(…) (record main_call1)
def val_main_call1_v4 (x1 : (⟨S4096, .i32⟩ : BufTy).Contents (Elt F)) : (⟨S4096x32000, .i1⟩ : BufTy).Contents (Elt F) :=
  cmpi .eq (val_main_call1_v2 (F := F) x1) (val_main_call1_v3 (F := F))
theorem val_main_call1_v4_apply (x1 : (⟨S4096, .i32⟩ : BufTy).Contents (Elt F)) (i : S4096x32000.Idx) :
    val_main_call1_v4 (F := F) x1 i = IntOp.cmpi .eq (val_main_call1_v2 (F := F) x1 i) (val_main_call1_v3 (F := F) i) := rfl

-- %20 = func.call @_one_hot(…) (record main_call1) result 0: @_one_hot's %5 = stablehlo.convert %4 : (tensor<4096x32000xi1>) -> tensor<4096x32000xf32>
def val_main_v20 (x1 : (⟨S4096, .i32⟩ : BufTy).Contents (Elt F)) : (⟨S4096x32000, .f32⟩ : BufTy).Contents (Elt F) :=
  uitofp .f32 (val_main_call1_v4 (F := F) x1)
theorem val_main_v20_apply (x1 : (⟨S4096, .i32⟩ : BufTy).Contents (Elt F)) (i : S4096x32000.Idx) :
    val_main_v20 (F := F) x1 i = FloatOps.uitofp .f32 (val_main_call1_v4 (F := F) x1 i) := rfl

-- %cst_4 = stablehlo.constant dense<8.000000e-01> : tensor<f32>
def val_main_cst_4 : (⟨S_, .f32⟩ : BufTy).Contents (Elt F) :=
  constant S_ .f32 0x3F4CCCCD#32
theorem val_main_cst_4_apply (i : S_.Idx) :
    val_main_cst_4 (F := F) i = FloatOps.ofBits .f32 0x3F4CCCCD#32 := rfl

-- %21 = stablehlo.broadcast_in_dim %cst_4, dims = [] : (tensor<f32>) -> tensor<4096x32000xf32>
def val_main_v21 : (⟨S4096x32000, .f32⟩ : BufTy).Contents (Elt F) :=
  broadcastInDim S4096x32000 ![] bcast_S_S4096x32000 (val_main_cst_4 (F := F))
abbrev idx_main_v21 (i : S4096x32000.Idx) : S_.Idx := fun a => a.elim0
theorem val_main_v21_apply (i : S4096x32000.Idx) :
    val_main_v21 (F := F) i = val_main_cst_4 (F := F) (idx_main_v21 i) := by
  unfold val_main_v21
  generalize val_main_cst_4 (F := F) = y
  exact broadcastInDim_apply _ bcast_S_S4096x32000 y i (idx_main_v21 i) (fun a => a.elim0)

-- %22 = stablehlo.multiply %21, %20 : tensor<4096x32000xf32>
def val_main_v22 (x1 : (⟨S4096, .i32⟩ : BufTy).Contents (Elt F)) : (⟨S4096x32000, .f32⟩ : BufTy).Contents (Elt F) :=
  mulf (val_main_v21 (F := F)) (val_main_v20 (F := F) x1)
theorem val_main_v22_apply (x1 : (⟨S4096, .i32⟩ : BufTy).Contents (Elt F)) (i : S4096x32000.Idx) :
    val_main_v22 (F := F) x1 i = FloatOps.mulf (val_main_v21 (F := F) i) (val_main_v20 (F := F) x1 i) := rfl

-- %23 = stablehlo.add %22, %19 : tensor<4096x32000xf32>
def val_main_v23 (x1 : (⟨S4096, .i32⟩ : BufTy).Contents (Elt F)) (x2 : (⟨S4096x50, .i32⟩ : BufTy).Contents (Elt F)) : (⟨S4096x32000, .f32⟩ : BufTy).Contents (Elt F) :=
  addf (val_main_v22 (F := F) x1) (val_main_v19 (F := F) x2)
theorem val_main_v23_apply (x1 : (⟨S4096, .i32⟩ : BufTy).Contents (Elt F)) (x2 : (⟨S4096x50, .i32⟩ : BufTy).Contents (Elt F)) (i : S4096x32000.Idx) :
    val_main_v23 (F := F) x1 x2 i = FloatOps.addf (val_main_v22 (F := F) x1 i) (val_main_v19 (F := F) x2 i) := rfl

-- %cst_5 = stablehlo.constant dense<0.899999976> : tensor<f32>
def val_main_cst_5 : (⟨S_, .f32⟩ : BufTy).Contents (Elt F) :=
  constant S_ .f32 0x3F666666#32
theorem val_main_cst_5_apply (i : S_.Idx) :
    val_main_cst_5 (F := F) i = FloatOps.ofBits .f32 0x3F666666#32 := rfl

-- %24 = stablehlo.broadcast_in_dim %cst_5, dims = [] : (tensor<f32>) -> tensor<4096x32000xf32>
def val_main_v24 : (⟨S4096x32000, .f32⟩ : BufTy).Contents (Elt F) :=
  broadcastInDim S4096x32000 ![] bcast_S_S4096x32000 (val_main_cst_5 (F := F))
abbrev idx_main_v24 (i : S4096x32000.Idx) : S_.Idx := fun a => a.elim0
theorem val_main_v24_apply (i : S4096x32000.Idx) :
    val_main_v24 (F := F) i = val_main_cst_5 (F := F) (idx_main_v24 i) := by
  unfold val_main_v24
  generalize val_main_cst_5 (F := F) = y
  exact broadcastInDim_apply _ bcast_S_S4096x32000 y i (idx_main_v24 i) (fun a => a.elim0)

-- %25 = stablehlo.multiply %24, %20 : tensor<4096x32000xf32>
def val_main_v25 (x1 : (⟨S4096, .i32⟩ : BufTy).Contents (Elt F)) : (⟨S4096x32000, .f32⟩ : BufTy).Contents (Elt F) :=
  mulf (val_main_v24 (F := F)) (val_main_v20 (F := F) x1)
theorem val_main_v25_apply (x1 : (⟨S4096, .i32⟩ : BufTy).Contents (Elt F)) (i : S4096x32000.Idx) :
    val_main_v25 (F := F) x1 i = FloatOps.mulf (val_main_v24 (F := F) i) (val_main_v20 (F := F) x1 i) := rfl

-- %cst_6 = stablehlo.constant dense<3.125000e-06> : tensor<f32>
def val_main_cst_6 : (⟨S_, .f32⟩ : BufTy).Contents (Elt F) :=
  constant S_ .f32 0x3651B717#32
theorem val_main_cst_6_apply (i : S_.Idx) :
    val_main_cst_6 (F := F) i = FloatOps.ofBits .f32 0x3651B717#32 := rfl

-- %26 = stablehlo.broadcast_in_dim %cst_6, dims = [] : (tensor<f32>) -> tensor<4096x32000xf32>
def val_main_v26 : (⟨S4096x32000, .f32⟩ : BufTy).Contents (Elt F) :=
  broadcastInDim S4096x32000 ![] bcast_S_S4096x32000 (val_main_cst_6 (F := F))
abbrev idx_main_v26 (i : S4096x32000.Idx) : S_.Idx := fun a => a.elim0
theorem val_main_v26_apply (i : S4096x32000.Idx) :
    val_main_v26 (F := F) i = val_main_cst_6 (F := F) (idx_main_v26 i) := by
  unfold val_main_v26
  generalize val_main_cst_6 (F := F) = y
  exact broadcastInDim_apply _ bcast_S_S4096x32000 y i (idx_main_v26 i) (fun a => a.elim0)

-- %27 = stablehlo.add %25, %26 : tensor<4096x32000xf32>
def val_main_v27 (x1 : (⟨S4096, .i32⟩ : BufTy).Contents (Elt F)) : (⟨S4096x32000, .f32⟩ : BufTy).Contents (Elt F) :=
  addf (val_main_v25 (F := F) x1) (val_main_v26 (F := F))
theorem val_main_v27_apply (x1 : (⟨S4096, .i32⟩ : BufTy).Contents (Elt F)) (i : S4096x32000.Idx) :
    val_main_v27 (F := F) x1 i = FloatOps.addf (val_main_v25 (F := F) x1 i) (val_main_v26 (F := F) i) := rfl

-- %28 = stablehlo.negate %27 : tensor<4096x32000xf32>
def val_main_v28 (x1 : (⟨S4096, .i32⟩ : BufTy).Contents (Elt F)) : (⟨S4096x32000, .f32⟩ : BufTy).Contents (Elt F) :=
  Host.negf (val_main_v27 (F := F) x1)
theorem val_main_v28_apply (x1 : (⟨S4096, .i32⟩ : BufTy).Contents (Elt F)) (i : S4096x32000.Idx) :
    val_main_v28 (F := F) x1 i = FloatOps.hostNegf (val_main_v27 (F := F) x1 i) := rfl

-- %29 = stablehlo.multiply %28, %0 : tensor<4096x32000xf32>
def val_main_v29 (x0 : (⟨S4096x32000, .f32⟩ : BufTy).Contents (Elt F)) (x1 : (⟨S4096, .i32⟩ : BufTy).Contents (Elt F)) : (⟨S4096x32000, .f32⟩ : BufTy).Contents (Elt F) :=
  mulf (val_main_v28 (F := F) x1) (val_main_v0 (F := F) x0)
theorem val_main_v29_apply (x0 : (⟨S4096x32000, .f32⟩ : BufTy).Contents (Elt F)) (x1 : (⟨S4096, .i32⟩ : BufTy).Contents (Elt F)) (i : S4096x32000.Idx) :
    val_main_v29 (F := F) x0 x1 i = FloatOps.mulf (val_main_v28 (F := F) x1 i) (val_main_v0 (F := F) x0 i) := rfl

-- %cst_7 = stablehlo.constant dense<0.000000e+00> : tensor<f32>
def val_main_cst_7 : (⟨S_, .f32⟩ : BufTy).Contents (Elt F) :=
  constant S_ .f32 0x00000000#32
theorem val_main_cst_7_apply (i : S_.Idx) :
    val_main_cst_7 (F := F) i = FloatOps.ofBits .f32 0x00000000#32 := rfl

-- %30 = stablehlo.reduce(%29 init: %cst_7) applies stablehlo.add across dimensions = [0] : (tensor<4096x32000xf32>, tensor<f32>) -> tensor<32000xf32> {
def val_main_v30 (x0 : (⟨S4096x32000, .f32⟩ : BufTy).Contents (Elt F)) (x1 : (⟨S4096, .i32⟩ : BufTy).Contents (Elt F)) : (⟨S32000, .f32⟩ : BufTy).Contents (Elt F) :=
  Host.reduceAdd (val_main_v29 (F := F) x0 x1) (val_main_cst_7 (F := F)) reducesTo_S4096x32000_S32000_d0 h_S_
abbrev idx_main_v30 (i : S32000.Idx) (k : Fin 4096) : S4096x32000.Idx := fun a => match a with
  | ⟨0, _⟩ => ⟨k.val, k.isLt⟩
  | ⟨1, _⟩ => ⟨(i 0).val, (i 0).isLt⟩
/-- Stated at `F := Ideal`, where the host's float sum is this sum; at a bit-exact instance it is an opaque function of its operand. -/
theorem val_main_v30_apply (x0 : (⟨S4096x32000, .f32⟩ : BufTy).Contents (Elt Ideal)) (x1 : (⟨S4096, .i32⟩ : BufTy).Contents (Elt Ideal)) (i : S32000.Idx) :
    val_main_v30 (F := Ideal) x0 x1 i = (val_main_cst_7 (F := Ideal)) (Shape.Idx.first h_S_) + ∑ k : Fin 4096, (val_main_v29 (F := Ideal) x0 x1) (idx_main_v30 i k) := by
  unfold val_main_v30
  generalize val_main_v29 (F := Ideal) x0 x1 = y0
  simp only [Host.reduceAdd, Ideal.hostReduceAdd_def]
  rw [Ideal.hostReduceAdd_single reducesTo_S4096x32000_S32000_d0 (by decide)]
  refine congrArg (_ + ·) (Finset.sum_congr rfl fun k _ => ?_)
  exact congrArg y0 (funext fun a => Fin.ext (by match a with | ⟨0, _⟩ => rfl | ⟨1, _⟩ => rfl))

-- %cst_8 = stablehlo.constant dense<4.096000e+03> : tensor<f32>
def val_main_cst_8 : (⟨S_, .f32⟩ : BufTy).Contents (Elt F) :=
  constant S_ .f32 0x45800000#32
theorem val_main_cst_8_apply (i : S_.Idx) :
    val_main_cst_8 (F := F) i = FloatOps.ofBits .f32 0x45800000#32 := rfl

-- %31 = stablehlo.broadcast_in_dim %cst_8, dims = [] : (tensor<f32>) -> tensor<32000xf32>
def val_main_v31 : (⟨S32000, .f32⟩ : BufTy).Contents (Elt F) :=
  broadcastInDim S32000 ![] bcast_S_S32000 (val_main_cst_8 (F := F))
abbrev idx_main_v31 (i : S32000.Idx) : S_.Idx := fun a => a.elim0
theorem val_main_v31_apply (i : S32000.Idx) :
    val_main_v31 (F := F) i = val_main_cst_8 (F := F) (idx_main_v31 i) := by
  unfold val_main_v31
  generalize val_main_cst_8 (F := F) = y
  exact broadcastInDim_apply _ bcast_S_S32000 y i (idx_main_v31 i) (fun a => a.elim0)

-- %32 = stablehlo.divide %30, %31 : tensor<32000xf32>
def val_main_v32 (x0 : (⟨S4096x32000, .f32⟩ : BufTy).Contents (Elt F)) (x1 : (⟨S4096, .i32⟩ : BufTy).Contents (Elt F)) : (⟨S32000, .f32⟩ : BufTy).Contents (Elt F) :=
  Host.divf (val_main_v30 (F := F) x0 x1) (val_main_v31 (F := F))
theorem val_main_v32_apply (x0 : (⟨S4096x32000, .f32⟩ : BufTy).Contents (Elt F)) (x1 : (⟨S4096, .i32⟩ : BufTy).Contents (Elt F)) (i : S32000.Idx) :
    val_main_v32 (F := F) x0 x1 i = FloatOps.hostDivf (val_main_v30 (F := F) x0 x1 i) (val_main_v31 (F := F) i) := rfl

-- %cst_9 = stablehlo.constant dense<0.000000e+00> : tensor<f32>
def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

-- %33 = stablehlo.reduce(%32 init: %cst_9) applies stablehlo.add across dimensions = [0] : (tensor<32000xf32>, tensor<f32>) -> tensor<f32> {
def val_main_v33 (x0 : (⟨S4096x32000, .f32⟩ : BufTy).Contents (Elt F)) (x1 : (⟨S4096, .i32⟩ : BufTy).Contents (Elt F)) : (⟨S_, .f32⟩ : BufTy).Contents (Elt F) :=
  Host.reduceAdd (val_main_v32 (F := F) x0 x1) (val_main_cst_9 (F := F)) reducesTo_S32000_S_d0 h_S_
/-- Stated at `F := Ideal`, where the host's float sum is this sum; at a bit-exact instance it is an opaque function of its operand. -/
theorem val_main_v33_apply (x0 : (⟨S4096x32000, .f32⟩ : BufTy).Contents (Elt Ideal)) (x1 : (⟨S4096, .i32⟩ : BufTy).Contents (Elt Ideal)) (i : S_.Idx) :
    val_main_v33 (F := Ideal) x0 x1 i = (val_main_cst_9 (F := Ideal)) (Shape.Idx.first h_S_) + ∑ j : S32000.Idx, (val_main_v32 (F := Ideal) x0 x1) j := by
  unfold val_main_v33
  generalize val_main_v32 (F := Ideal) x0 x1 = y0
  simp only [Host.reduceAdd, Ideal.hostReduceAdd_def]
  exact Ideal.hostReduceAdd_total reducesTo_S32000_S_d0 (fun b => b.elim0) y0 _ i

-- %34 = stablehlo.negate %23 : tensor<4096x32000xf32>
def val_main_v34 (x1 : (⟨S4096, .i32⟩ : BufTy).Contents (Elt F)) (x2 : (⟨S4096x50, .i32⟩ : BufTy).Contents (Elt F)) : (⟨S4096x32000, .f32⟩ : BufTy).Contents (Elt F) :=
  Host.negf (val_main_v23 (F := F) x1 x2)
theorem val_main_v34_apply (x1 : (⟨S4096, .i32⟩ : BufTy).Contents (Elt F)) (x2 : (⟨S4096x50, .i32⟩ : BufTy).Contents (Elt F)) (i : S4096x32000.Idx) :
    val_main_v34 (F := F) x1 x2 i = FloatOps.hostNegf (val_main_v23 (F := F) x1 x2 i) := rfl

-- %35 = stablehlo.multiply %34, %0 : tensor<4096x32000xf32>
def val_main_v35 (x0 : (⟨S4096x32000, .f32⟩ : BufTy).Contents (Elt F)) (x1 : (⟨S4096, .i32⟩ : BufTy).Contents (Elt F)) (x2 : (⟨S4096x50, .i32⟩ : BufTy).Contents (Elt F)) : (⟨S4096x32000, .f32⟩ : BufTy).Contents (Elt F) :=
  mulf (val_main_v34 (F := F) x1 x2) (val_main_v0 (F := F) x0)
theorem val_main_v35_apply (x0 : (⟨S4096x32000, .f32⟩ : BufTy).Contents (Elt F)) (x1 : (⟨S4096, .i32⟩ : BufTy).Contents (Elt F)) (x2 : (⟨S4096x50, .i32⟩ : BufTy).Contents (Elt F)) (i : S4096x32000.Idx) :
    val_main_v35 (F := F) x0 x1 x2 i = FloatOps.mulf (val_main_v34 (F := F) x1 x2 i) (val_main_v0 (F := F) x0 i) := rfl

-- %cst_10 = stablehlo.constant dense<0.000000e+00> : tensor<f32>
def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl

-- %36 = stablehlo.reduce(%35 init: %cst_10) applies stablehlo.add across dimensions = [0] : (tensor<4096x32000xf32>, tensor<f32>) -> tensor<32000xf32> {
def val_main_v36 (x0 : (⟨S4096x32000, .f32⟩ : BufTy).Contents (Elt F)) (x1 : (⟨S4096, .i32⟩ : BufTy).Contents (Elt F)) (x2 : (⟨S4096x50, .i32⟩ : BufTy).Contents (Elt F)) : (⟨S32000, .f32⟩ : BufTy).Contents (Elt F) :=
  Host.reduceAdd (val_main_v35 (F := F) x0 x1 x2) (val_main_cst_10 (F := F)) reducesTo_S4096x32000_S32000_d0 h_S_
abbrev idx_main_v36 (i : S32000.Idx) (k : Fin 4096) : S4096x32000.Idx := fun a => match a with
  | ⟨0, _⟩ => ⟨k.val, k.isLt⟩
  | ⟨1, _⟩ => ⟨(i 0).val, (i 0).isLt⟩
/-- Stated at `F := Ideal`, where the host's float sum is this sum; at a bit-exact instance it is an opaque function of its operand. -/
theorem val_main_v36_apply (x0 : (⟨S4096x32000, .f32⟩ : BufTy).Contents (Elt Ideal)) (x1 : (⟨S4096, .i32⟩ : BufTy).Contents (Elt Ideal)) (x2 : (⟨S4096x50, .i32⟩ : BufTy).Contents (Elt Ideal)) (i : S32000.Idx) :
    val_main_v36 (F := Ideal) x0 x1 x2 i = (val_main_cst_10 (F := Ideal)) (Shape.Idx.first h_S_) + ∑ k : Fin 4096, (val_main_v35 (F := Ideal) x0 x1 x2) (idx_main_v36 i k) := by
  unfold val_main_v36
  generalize val_main_v35 (F := Ideal) x0 x1 x2 = y0
  simp only [Host.reduceAdd, Ideal.hostReduceAdd_def]
  rw [Ideal.hostReduceAdd_single reducesTo_S4096x32000_S32000_d0 (by decide)]
  refine congrArg (_ + ·) (Finset.sum_congr rfl fun k _ => ?_)
  exact congrArg y0 (funext fun a => Fin.ext (by match a with | ⟨0, _⟩ => rfl | ⟨1, _⟩ => rfl))

-- %cst_11 = stablehlo.constant dense<4.096000e+03> : tensor<f32>
def val_main_cst_11 : (⟨S_, .f32⟩ : BufTy).Contents (Elt F) :=
  constant S_ .f32 0x45800000#32
theorem val_main_cst_11_apply (i : S_.Idx) :
    val_main_cst_11 (F := F) i = FloatOps.ofBits .f32 0x45800000#32 := rfl

-- %37 = stablehlo.broadcast_in_dim %cst_11, dims = [] : (tensor<f32>) -> tensor<32000xf32>
def val_main_v37 : (⟨S32000, .f32⟩ : BufTy).Contents (Elt F) :=
  broadcastInDim S32000 ![] bcast_S_S32000 (val_main_cst_11 (F := F))
abbrev idx_main_v37 (i : S32000.Idx) : S_.Idx := fun a => a.elim0
theorem val_main_v37_apply (i : S32000.Idx) :
    val_main_v37 (F := F) i = val_main_cst_11 (F := F) (idx_main_v37 i) := by
  unfold val_main_v37
  generalize val_main_cst_11 (F := F) = y
  exact broadcastInDim_apply _ bcast_S_S32000 y i (idx_main_v37 i) (fun a => a.elim0)

-- %38 = stablehlo.divide %36, %37 : tensor<32000xf32>
def val_main_v38 (x0 : (⟨S4096x32000, .f32⟩ : BufTy).Contents (Elt F)) (x1 : (⟨S4096, .i32⟩ : BufTy).Contents (Elt F)) (x2 : (⟨S4096x50, .i32⟩ : BufTy).Contents (Elt F)) : (⟨S32000, .f32⟩ : BufTy).Contents (Elt F) :=
  Host.divf (val_main_v36 (F := F) x0 x1 x2) (val_main_v37 (F := F))
theorem val_main_v38_apply (x0 : (⟨S4096x32000, .f32⟩ : BufTy).Contents (Elt F)) (x1 : (⟨S4096, .i32⟩ : BufTy).Contents (Elt F)) (x2 : (⟨S4096x50, .i32⟩ : BufTy).Contents (Elt F)) (i : S32000.Idx) :
    val_main_v38 (F := F) x0 x1 x2 i = FloatOps.hostDivf (val_main_v36 (F := F) x0 x1 x2 i) (val_main_v37 (F := F) i) := rfl

-- %cst_12 = stablehlo.constant dense<0.000000e+00> : tensor<f32>
def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl

-- %39 = stablehlo.reduce(%38 init: %cst_12) applies stablehlo.add across dimensions = [0] : (tensor<32000xf32>, tensor<f32>) -> tensor<f32> {
def val_main_v39 (x0 : (⟨S4096x32000, .f32⟩ : BufTy).Contents (Elt F)) (x1 : (⟨S4096, .i32⟩ : BufTy).Contents (Elt F)) (x2 : (⟨S4096x50, .i32⟩ : BufTy).Contents (Elt F)) : (⟨S_, .f32⟩ : BufTy).Contents (Elt F) :=
  Host.reduceAdd (val_main_v38 (F := F) x0 x1 x2) (val_main_cst_12 (F := F)) reducesTo_S32000_S_d0 h_S_
/-- Stated at `F := Ideal`, where the host's float sum is this sum; at a bit-exact instance it is an opaque function of its operand. -/
theorem val_main_v39_apply (x0 : (⟨S4096x32000, .f32⟩ : BufTy).Contents (Elt Ideal)) (x1 : (⟨S4096, .i32⟩ : BufTy).Contents (Elt Ideal)) (x2 : (⟨S4096x50, .i32⟩ : BufTy).Contents (Elt Ideal)) (i : S_.Idx) :
    val_main_v39 (F := Ideal) x0 x1 x2 i = (val_main_cst_12 (F := Ideal)) (Shape.Idx.first h_S_) + ∑ j : S32000.Idx, (val_main_v38 (F := Ideal) x0 x1 x2) j := by
  unfold val_main_v39
  generalize val_main_v38 (F := Ideal) x0 x1 x2 = y0
  simp only [Host.reduceAdd, Ideal.hostReduceAdd_def]
  exact Ideal.hostReduceAdd_total reducesTo_S32000_S_d0 (fun b => b.elim0) y0 _ i

-- %cst_13 = stablehlo.constant dense<0.899999976> : tensor<f32>
def val_main_cst_13 : (⟨S_, .f32⟩ : BufTy).Contents (Elt F) :=
  constant S_ .f32 0x3F666666#32
theorem val_main_cst_13_apply (i : S_.Idx) :
    val_main_cst_13 (F := F) i = FloatOps.ofBits .f32 0x3F666666#32 := rfl

-- %40 = stablehlo.multiply %33, %cst_13 : tensor<f32>
def val_main_v40 (x0 : (⟨S4096x32000, .f32⟩ : BufTy).Contents (Elt F)) (x1 : (⟨S4096, .i32⟩ : BufTy).Contents (Elt F)) : (⟨S_, .f32⟩ : BufTy).Contents (Elt F) :=
  mulf (val_main_v33 (F := F) x0 x1) (val_main_cst_13 (F := F))
theorem val_main_v40_apply (x0 : (⟨S4096x32000, .f32⟩ : BufTy).Contents (Elt F)) (x1 : (⟨S4096, .i32⟩ : BufTy).Contents (Elt F)) (i : S_.Idx) :
    val_main_v40 (F := F) x0 x1 i = FloatOps.mulf (val_main_v33 (F := F) x0 x1 i) (val_main_cst_13 (F := F) i) := rfl

-- %cst_14 = stablehlo.constant dense<1.000000e-01> : tensor<f32>
def val_main_cst_14 : (⟨S_, .f32⟩ : BufTy).Contents (Elt F) :=
  constant S_ .f32 0x3DCCCCCD#32
theorem val_main_cst_14_apply (i : S_.Idx) :
    val_main_cst_14 (F := F) i = FloatOps.ofBits .f32 0x3DCCCCCD#32 := rfl

-- %41 = stablehlo.multiply %39, %cst_14 : tensor<f32>
def val_main_v41 (x0 : (⟨S4096x32000, .f32⟩ : BufTy).Contents (Elt F)) (x1 : (⟨S4096, .i32⟩ : BufTy).Contents (Elt F)) (x2 : (⟨S4096x50, .i32⟩ : BufTy).Contents (Elt F)) : (⟨S_, .f32⟩ : BufTy).Contents (Elt F) :=
  mulf (val_main_v39 (F := F) x0 x1 x2) (val_main_cst_14 (F := F))
theorem val_main_v41_apply (x0 : (⟨S4096x32000, .f32⟩ : BufTy).Contents (Elt F)) (x1 : (⟨S4096, .i32⟩ : BufTy).Contents (Elt F)) (x2 : (⟨S4096x50, .i32⟩ : BufTy).Contents (Elt F)) (i : S_.Idx) :
    val_main_v41 (F := F) x0 x1 x2 i = FloatOps.mulf (val_main_v39 (F := F) x0 x1 x2 i) (val_main_cst_14 (F := F) i) := rfl

-- %42 = stablehlo.add %40, %41 : tensor<f32>
def val_main_v42 (x0 : (⟨S4096x32000, .f32⟩ : BufTy).Contents (Elt F)) (x1 : (⟨S4096, .i32⟩ : BufTy).Contents (Elt F)) (x2 : (⟨S4096x50, .i32⟩ : BufTy).Contents (Elt F)) : (⟨S_, .f32⟩ : BufTy).Contents (Elt F) :=
  addf (val_main_v40 (F := F) x0 x1) (val_main_v41 (F := F) x0 x1 x2)
theorem val_main_v42_apply (x0 : (⟨S4096x32000, .f32⟩ : BufTy).Contents (Elt F)) (x1 : (⟨S4096, .i32⟩ : BufTy).Contents (Elt F)) (x2 : (⟨S4096x50, .i32⟩ : BufTy).Contents (Elt F)) (i : S_.Idx) :
    val_main_v42 (F := F) x0 x1 x2 i = FloatOps.addf (val_main_v40 (F := F) x0 x1 i) (val_main_v41 (F := F) x0 x1 x2 i) := rfl

end Cert.ReferenceIdeal.RefRead

end
-- ==== Proof.RefRunValue.lean ====
/-
  The reference program's run read back as a value, for any float instance: the line of its 79 operations is cut
  into four stretches — the log-softmax, the stretch up to and including the accumulating scatter, the one-hot, and
  the remaining operations —; each stretch, run from an ARBITRARY valuation, leaves at its result buffer the stage
  function of what the valuation holds at the buffers the stretch reads, and leaves every buffer it does not write
  as it was. Chained, the result buffer ends at the composed stage function of the three arguments, and the
  arguments end unchanged.
-/
import proofs.«116322_j81320910782918_1_alg».proof.Proof.RefRun
import proofs.«116322_j81320910782918_1_alg».proof.Proof.RefRead

noncomputable section

namespace Cert.ReferenceIdeal.RefRunValue

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The log-softmax: the 15 operations ending in `main_v0`, each spelt over its buffers' own types. -/
abbrev opsA : List (HloOp τ sig (Elt F)) :=
  [ nullary main_call0_cst ((constant S_ .f32 0xFF800000#32) : (⟨S_, .f32⟩ : BufTy).Contents (Elt F)),
    binary main_arg0 main_call0_cst main_call0_v0 ((fun x v => Host.reduce FloatOps.maximumf x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    nullary main_call0_cst_0 ((constant S_ .f32 0xFF800000#32) : (⟨S_, .f32⟩ : BufTy).Contents (Elt F)),
    unary main_call0_cst_0 main_call0_v1 ((broadcastInDim S4096 ![] bcast_S_S4096) : (⟨S_, .f32⟩ : BufTy).Contents (Elt F) → (⟨S4096, .f32⟩ : BufTy).Contents (Elt F)),
    binary main_call0_v1 main_call0_v0 main_call0_v2 (maximumf : (⟨S4096, .f32⟩ : BufTy).Contents (Elt F) → (⟨S4096, .f32⟩ : BufTy).Contents (Elt F) → (⟨S4096, .f32⟩ : BufTy).Contents (Elt F)),
    unary main_call0_v2 main_call0_v3 ((broadcastInDim S4096x1 ![0] bcast_S4096_S4096x1_0) : (⟨S4096, .f32⟩ : BufTy).Contents (Elt F) → (⟨S4096x1, .f32⟩ : BufTy).Contents (Elt F)),
    unary main_call0_v3 main_call0_v4 ((broadcastInDim S4096x32000 ![0, 1] bcast_S4096x1_S4096x32000_0_1) : (⟨S4096x1, .f32⟩ : BufTy).Contents (Elt F) → (⟨S4096x32000, .f32⟩ : BufTy).Contents (Elt F)),
    binary main_arg0 main_call0_v4 main_call0_v5 (subf : (⟨S4096x32000, .f32⟩ : BufTy).Contents (Elt F) → (⟨S4096x32000, .f32⟩ : BufTy).Contents (Elt F) → (⟨S4096x32000, .f32⟩ : BufTy).Contents (Elt F)),
    unary main_call0_v5 main_call0_v6 (Host.exp : (⟨S4096x32000, .f32⟩ : BufTy).Contents (Elt F) → (⟨S4096x32000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    unary main_call0_v7 main_call0_v8 ((broadcastInDim S4096x1 ![0] bcast_S4096_S4096x1_0) : (⟨S4096, .f32⟩ : BufTy).Contents (Elt F) → (⟨S4096x1, .f32⟩ : BufTy).Contents (Elt F)),
    unary main_call0_v8 main_call0_v9 (Host.log : (⟨S4096x1, .f32⟩ : BufTy).Contents (Elt F) → (⟨S4096x1, .f32⟩ : BufTy).Contents (Elt F)),
    unary main_call0_v9 main_call0_v10 ((broadcastInDim S4096x32000 ![0, 1] bcast_S4096x1_S4096x32000_0_1) : (⟨S4096x1, .f32⟩ : BufTy).Contents (Elt F) → (⟨S4096x32000, .f32⟩ : BufTy).Contents (Elt F)),
    binary main_call0_v5 main_call0_v10 main_v0 (subf : (⟨S4096x32000, .f32⟩ : BufTy).Contents (Elt F) → (⟨S4096x32000, .f32⟩ : BufTy).Contents (Elt F) → (⟨S4096x32000, .f32⟩ : BufTy).Contents (Elt F)) ]

/-- The 25 operations from the row iota up to and including the accumulating scatter `main_v19`. -/
abbrev opsB : List (HloOp τ sig (Elt F)) :=
  [ nullary main_v1 (iotaInDim S4096 32 0),
    unary main_v1 main_v2 (broadcastInDim S4096x1 ![0] bcast_S4096_S4096x1_0 : (⟨S4096, .i32⟩ : BufTy).Contents (Elt F) → (⟨S4096x1, .i32⟩ : BufTy).Contents (Elt F)),
    unary main_v2 main_v3 (broadcastInDim S4096x50 ![0, 1] bcast_S4096x1_S4096x50_0_1 : (⟨S4096x1, .i32⟩ : BufTy).Contents (Elt F) → (⟨S4096x50, .i32⟩ : BufTy).Contents (Elt F)),
    nullary main_cst (constant S_ .f32 0x00000000#32),
    unary main_cst main_v4 (broadcastInDim S4096x32000 ![] bcast_S_S4096x32000 : (⟨S_, .f32⟩ : BufTy).Contents (Elt F) → (⟨S4096x32000, .f32⟩ : BufTy).Contents (Elt F)),
    nullary main_c (constantI S_ 32 0#32),
    unary main_c main_v5 (broadcastInDim S4096x50 ![] bcast_S_S4096x50 : (⟨S_, .i32⟩ : BufTy).Contents (Elt F) → (⟨S4096x50, .i32⟩ : BufTy).Contents (Elt F)),
    binary main_v3 main_v5 main_v6 (cmpi .slt : (⟨S4096x50, .i32⟩ : BufTy).Contents (Elt F) → (⟨S4096x50, .i32⟩ : BufTy).Contents (Elt F) → (⟨S4096x50, .i1⟩ : BufTy).Contents (Elt F)),
    nullary main_c_0 (constantI S_ 32 4096#32),
    unary main_c_0 main_v7 (broadcastInDim S4096x50 ![] bcast_S_S4096x50 : (⟨S_, .i32⟩ : BufTy).Contents (Elt F) → (⟨S4096x50, .i32⟩ : BufTy).Contents (Elt F)),
    binary main_v3 main_v7 main_v8 (addi : (⟨S4096x50, .i32⟩ : BufTy).Contents (Elt F) → (⟨S4096x50, .i32⟩ : BufTy).Contents (Elt F) → (⟨S4096x50, .i32⟩ : BufTy).Contents (Elt F)),
    ternary main_v6 main_v8 main_v3 main_v9 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    nullary main_c_1 (constantI S_ 32 0#32),
    unary main_c_1 main_v10 (broadcastInDim S4096x50 ![] bcast_S_S4096x50 : (⟨S_, .i32⟩ : BufTy).Contents (Elt F) → (⟨S4096x50, .i32⟩ : BufTy).Contents (Elt F)),
    binary main_arg2 main_v10 main_v11 (cmpi .slt : (⟨S4096x50, .i32⟩ : BufTy).Contents (Elt F) → (⟨S4096x50, .i32⟩ : BufTy).Contents (Elt F) → (⟨S4096x50, .i1⟩ : BufTy).Contents (Elt F)),
    nullary main_c_2 (constantI S_ 32 32000#32),
    unary main_c_2 main_v12 (broadcastInDim S4096x50 ![] bcast_S_S4096x50 : (⟨S_, .i32⟩ : BufTy).Contents (Elt F) → (⟨S4096x50, .i32⟩ : BufTy).Contents (Elt F)),
    binary main_arg2 main_v12 main_v13 (addi : (⟨S4096x50, .i32⟩ : BufTy).Contents (Elt F) → (⟨S4096x50, .i32⟩ : BufTy).Contents (Elt F) → (⟨S4096x50, .i32⟩ : BufTy).Contents (Elt F)),
    ternary main_v11 main_v13 main_arg2 main_v14 (select : (⟨S4096x50, .i1⟩ : BufTy).Contents (Elt F) → (⟨S4096x50, .i32⟩ : BufTy).Contents (Elt F) → (⟨S4096x50, .i32⟩ : BufTy).Contents (Elt F) → (⟨S4096x50, .i32⟩ : BufTy).Contents (Elt F)),
    unary main_v9 main_v15 (broadcastInDim S4096x50x1 ![0, 1] bcast_S4096x50_S4096x50x1_0_1 : (⟨S4096x50, .i32⟩ : BufTy).Contents (Elt F) → (⟨S4096x50x1, .i32⟩ : BufTy).Contents (Elt F)),
    unary main_v14 main_v16 (broadcastInDim S4096x50x1 ![0, 1] bcast_S4096x50_S4096x50x1_0_1 : (⟨S4096x50, .i32⟩ : BufTy).Contents (Elt F) → (⟨S4096x50x1, .i32⟩ : BufTy).Contents (Elt F)),
    binary main_v15 main_v16 main_v17 ((fun a b => concatenate S4096x50x2 2 [⟨S4096x50x1, a⟩, ⟨S4096x50x1, b⟩] concatenates_S4096x50x1_S4096x50x1_S4096x50x2_d2) : (⟨S4096x50x1, .i32⟩ : BufTy).Contents (Elt F) → (⟨S4096x50x1, .i32⟩ : BufTy).Contents (Elt F) → (⟨S4096x50x2, .i32⟩ : BufTy).Contents (Elt F)),
    nullary main_cst_3 (constant S_ .f32 0x3B83126F#32),
    unary main_cst_3 main_v18 (broadcastInDim S4096x50 ![] bcast_S_S4096x50 : (⟨S_, .f32⟩ : BufTy).Contents (Elt F) → (⟨S4096x50, .f32⟩ : BufTy).Contents (Elt F)),
    ternary main_v4 main_v17 main_v18 main_v19 ((fun x i u => Host.scatterAdd scatter_S4096x32000_S4096x50x2_S4096x50_n_01_01_2 x i u) : (⟨S4096x32000, .f32⟩ : BufTy).Contents (Elt F) → (⟨S4096x50x2, .i32⟩ : BufTy).Contents (Elt F) → (⟨S4096x50, .f32⟩ : BufTy).Contents (Elt F) → (⟨S4096x32000, .f32⟩ : BufTy).Contents (Elt F)) ]

/-- The one-hot: the 6 operations ending in `main_v20`, each spelt over its buffers' own types. -/
abbrev opsC : List (HloOp τ sig (Elt F)) :=
  [ unary main_arg1 main_call1_v0 ((broadcastInDim S4096x1 ![0] bcast_S4096_S4096x1_0) : (⟨S4096, .i32⟩ : BufTy).Contents (Elt F) → (⟨S4096x1, .i32⟩ : BufTy).Contents (Elt F)),
    nullary main_call1_v1 ((iotaInDim S1x32000 32 1) : (⟨S1x32000, .i32⟩ : BufTy).Contents (Elt F)),
    unary main_call1_v0 main_call1_v2 ((broadcastInDim S4096x32000 ![0, 1] bcast_S4096x1_S4096x32000_0_1) : (⟨S4096x1, .i32⟩ : BufTy).Contents (Elt F) → (⟨S4096x32000, .i32⟩ : BufTy).Contents (Elt F)),
    unary main_call1_v1 main_call1_v3 ((broadcastInDim S4096x32000 ![0, 1] bcast_S1x32000_S4096x32000_0_1) : (⟨S1x32000, .i32⟩ : BufTy).Contents (Elt F) → (⟨S4096x32000, .i32⟩ : BufTy).Contents (Elt F)),
    binary main_call1_v2 main_call1_v3 main_call1_v4 ((cmpi .eq) : (⟨S4096x32000, .i32⟩ : BufTy).Contents (Elt F) → (⟨S4096x32000, .i32⟩ : BufTy).Contents (Elt F) → (⟨S4096x32000, .i1⟩ : BufTy).Contents (Elt F)),
    unary main_call1_v4 main_v20 ((uitofp .f32) : (⟨S4096x32000, .i1⟩ : BufTy).Contents (Elt F) → (⟨S4096x32000, .f32⟩ : BufTy).Contents (Elt F)) ]

/-- The remaining 33 operations, ending in `main_v42`. -/
abbrev opsD : List (HloOp τ sig (Elt F)) :=
  [ nullary main_cst_4 (constant S_ .f32 0x3F4CCCCD#32),
    unary main_cst_4 main_v21 (broadcastInDim S4096x32000 ![] bcast_S_S4096x32000 : (⟨S_, .f32⟩ : BufTy).Contents (Elt F) → (⟨S4096x32000, .f32⟩ : BufTy).Contents (Elt F)),
    binary main_v21 main_v20 main_v22 (mulf : (⟨S4096x32000, .f32⟩ : BufTy).Contents (Elt F) → (⟨S4096x32000, .f32⟩ : BufTy).Contents (Elt F) → (⟨S4096x32000, .f32⟩ : BufTy).Contents (Elt F)),
    binary main_v22 main_v19 main_v23 (addf : (⟨S4096x32000, .f32⟩ : BufTy).Contents (Elt F) → (⟨S4096x32000, .f32⟩ : BufTy).Contents (Elt F) → (⟨S4096x32000, .f32⟩ : BufTy).Contents (Elt F)),
    nullary main_cst_5 (constant S_ .f32 0x3F666666#32),
    unary main_cst_5 main_v24 (broadcastInDim S4096x32000 ![] bcast_S_S4096x32000 : (⟨S_, .f32⟩ : BufTy).Contents (Elt F) → (⟨S4096x32000, .f32⟩ : BufTy).Contents (Elt F)),
    binary main_v24 main_v20 main_v25 (mulf : (⟨S4096x32000, .f32⟩ : BufTy).Contents (Elt F) → (⟨S4096x32000, .f32⟩ : BufTy).Contents (Elt F) → (⟨S4096x32000, .f32⟩ : BufTy).Contents (Elt F)),
    nullary main_cst_6 (constant S_ .f32 0x3651B717#32),
    unary main_cst_6 main_v26 (broadcastInDim S4096x32000 ![] bcast_S_S4096x32000 : (⟨S_, .f32⟩ : BufTy).Contents (Elt F) → (⟨S4096x32000, .f32⟩ : BufTy).Contents (Elt F)),
    binary main_v25 main_v26 main_v27 (addf : (⟨S4096x32000, .f32⟩ : BufTy).Contents (Elt F) → (⟨S4096x32000, .f32⟩ : BufTy).Contents (Elt F) → (⟨S4096x32000, .f32⟩ : BufTy).Contents (Elt F)),
    unary main_v27 main_v28 (Host.negf : (⟨S4096x32000, .f32⟩ : BufTy).Contents (Elt F) → (⟨S4096x32000, .f32⟩ : BufTy).Contents (Elt F)),
    binary main_v28 main_v0 main_v29 (mulf : (⟨S4096x32000, .f32⟩ : BufTy).Contents (Elt F) → (⟨S4096x32000, .f32⟩ : BufTy).Contents (Elt F) → (⟨S4096x32000, .f32⟩ : BufTy).Contents (Elt F)),
    nullary main_cst_7 (constant S_ .f32 0x00000000#32),
    binary main_v29 main_cst_7 main_v30 ((fun x v => Host.reduceAdd x v reducesTo_S4096x32000_S32000_d0 h_S_) : (⟨S4096x32000, .f32⟩ : BufTy).Contents (Elt F) → (⟨S_, .f32⟩ : BufTy).Contents (Elt F) → (⟨S32000, .f32⟩ : BufTy).Contents (Elt F)),
    nullary main_cst_8 (constant S_ .f32 0x45800000#32),
    unary main_cst_8 main_v31 (broadcastInDim S32000 ![] bcast_S_S32000 : (⟨S_, .f32⟩ : BufTy).Contents (Elt F) → (⟨S32000, .f32⟩ : BufTy).Contents (Elt F)),
    binary main_v30 main_v31 main_v32 (Host.divf : (⟨S32000, .f32⟩ : BufTy).Contents (Elt F) → (⟨S32000, .f32⟩ : BufTy).Contents (Elt F) → (⟨S32000, .f32⟩ : BufTy).Contents (Elt F)),
    nullary main_cst_9 (constant S_ .f32 0x00000000#32),
    binary main_v32 main_cst_9 main_v33 ((fun x v => Host.reduceAdd x v reducesTo_S32000_S_d0 h_S_) : (⟨S32000, .f32⟩ : BufTy).Contents (Elt F) → (⟨S_, .f32⟩ : BufTy).Contents (Elt F) → (⟨S_, .f32⟩ : BufTy).Contents (Elt F)),
    unary main_v23 main_v34 (Host.negf : (⟨S4096x32000, .f32⟩ : BufTy).Contents (Elt F) → (⟨S4096x32000, .f32⟩ : BufTy).Contents (Elt F)),
    binary main_v34 main_v0 main_v35 (mulf : (⟨S4096x32000, .f32⟩ : BufTy).Contents (Elt F) → (⟨S4096x32000, .f32⟩ : BufTy).Contents (Elt F) → (⟨S4096x32000, .f32⟩ : BufTy).Contents (Elt F)),
    nullary main_cst_10 (constant S_ .f32 0x00000000#32),
    binary main_v35 main_cst_10 main_v36 ((fun x v => Host.reduceAdd x v reducesTo_S4096x32000_S32000_d0 h_S_) : (⟨S4096x32000, .f32⟩ : BufTy).Contents (Elt F) → (⟨S_, .f32⟩ : BufTy).Contents (Elt F) → (⟨S32000, .f32⟩ : BufTy).Contents (Elt F)),
    nullary main_cst_11 (constant S_ .f32 0x45800000#32),
    unary main_cst_11 main_v37 (broadcastInDim S32000 ![] bcast_S_S32000 : (⟨S_, .f32⟩ : BufTy).Contents (Elt F) → (⟨S32000, .f32⟩ : BufTy).Contents (Elt F)),
    binary main_v36 main_v37 main_v38 (Host.divf : (⟨S32000, .f32⟩ : BufTy).Contents (Elt F) → (⟨S32000, .f32⟩ : BufTy).Contents (Elt F) → (⟨S32000, .f32⟩ : BufTy).Contents (Elt F)),
    nullary main_cst_12 (constant S_ .f32 0x00000000#32),
    binary main_v38 main_cst_12 main_v39 ((fun x v => Host.reduceAdd x v reducesTo_S32000_S_d0 h_S_) : (⟨S32000, .f32⟩ : BufTy).Contents (Elt F) → (⟨S_, .f32⟩ : BufTy).Contents (Elt F) → (⟨S_, .f32⟩ : BufTy).Contents (Elt F)),
    nullary main_cst_13 (constant S_ .f32 0x3F666666#32),
    binary main_v33 main_cst_13 main_v40 (mulf : (⟨S_, .f32⟩ : BufTy).Contents (Elt F) → (⟨S_, .f32⟩ : BufTy).Contents (Elt F) → (⟨S_, .f32⟩ : BufTy).Contents (Elt F)),
    nullary main_cst_14 (constant S_ .f32 0x3DCCCCCD#32),
    binary main_v39 main_cst_14 main_v41 (mulf : (⟨S_, .f32⟩ : BufTy).Contents (Elt F) → (⟨S_, .f32⟩ : BufTy).Contents (Elt F) → (⟨S_, .f32⟩ : BufTy).Contents (Elt F)),
    binary main_v40 main_v41 main_v42 (addf : (⟨S_, .f32⟩ : BufTy).Contents (Elt F) → (⟨S_, .f32⟩ : BufTy).Contents (Elt F) → (⟨S_, .f32⟩ : BufTy).Contents (Elt F)) ]

/-- The row-maximum operation of the log-softmax, spelt over typed references, is the plain operation over the same
    buffers, for ANY function in its place: the transport along a literal reference's type equation is the identity. -/
theorem rowMax_op (f : (⟨S4096x32000, .f32⟩ : BufTy).Contents (Elt F) → (⟨S_, .f32⟩ : BufTy).Contents (Elt F) → (⟨S4096, .f32⟩ : BufTy).Contents (Elt F)) :
    (TRef.binary (TRef.of (T := ⟨S4096x32000, .f32⟩) main_arg0) (TRef.of (T := ⟨S_, .f32⟩) main_call0_cst) (TRef.of (T := ⟨S4096, .f32⟩) main_call0_v0) f : HloOp τ sig (Elt F))
      = binary main_arg0 main_call0_cst main_call0_v0 f := rfl

set_option maxRecDepth 8192 in
/-- The line is its four stretches in order: an operation of a called function, spelt over typed references, is the
    plain operation over the same buffers (the row maximum by `rowMax_op`, every other one by unfolding). -/
theorem ops_eq : (ops : List (HloOp τ sig (Elt F))) = opsA ++ (opsB ++ (opsC ++ opsD)) :=
  congrArg₂ List.cons rfl (congrArg₂ List.cons (rowMax_op _) rfl)

variable (W : Valuation τ sig (Elt F))

/-! ## What each stretch computes -/

/-- The log-softmax stretch leaves at `main_v0` the log-softmax stage of what was at `main_arg0`. -/
theorem valA : after opsA W (Proc.devRef .tc main_v0) = RefRead.val_main_v0 (F := F) (W (Proc.devRef .tc main_arg0)) := by
  after_results_simp <;> rfl

/-- The second stretch leaves at `main_v19` the scatter stage of what was at `main_arg2`. -/
theorem valB : after opsB W (Proc.devRef .tc main_v19) = RefRead.val_main_v19 (F := F) (W (Proc.devRef .tc main_arg2)) := by
  after_results_simp <;> rfl

/-- The one-hot stretch leaves at `main_v20` the one-hot stage of what was at `main_arg1`. -/
theorem valC : after opsC W (Proc.devRef .tc main_v20) = RefRead.val_main_v20 (F := F) (W (Proc.devRef .tc main_arg1)) := by
  after_results_simp <;> rfl

/-- The last stretch, run from contents holding the three earlier stages at `main_v0`, `main_v19`, `main_v20`,
    leaves at `main_v42` the last stage. -/
theorem valD (x0 : (⟨S4096x32000, .f32⟩ : BufTy).Contents (Elt F)) (x1 : (⟨S4096, .i32⟩ : BufTy).Contents (Elt F))
    (x2 : (⟨S4096x50, .i32⟩ : BufTy).Contents (Elt F))
    (h0 : W (Proc.devRef .tc main_v0) = RefRead.val_main_v0 (F := F) x0)
    (h19 : W (Proc.devRef .tc main_v19) = RefRead.val_main_v19 (F := F) x2)
    (h20 : W (Proc.devRef .tc main_v20) = RefRead.val_main_v20 (F := F) x1) :
    after opsD W (Proc.devRef .tc main_v42) = RefRead.val_main_v42 (F := F) x0 x1 x2 := by
  after_results_simp
  rw [h0, h19, h20]
  rfl

/-! ## What each stretch leaves alone -/

theorem keepA_arg1 : after opsA W (Proc.devRef .tc main_arg1) = W (Proc.devRef .tc main_arg1) := by after_results_simp <;> rfl
theorem keepA_arg2 : after opsA W (Proc.devRef .tc main_arg2) = W (Proc.devRef .tc main_arg2) := by after_results_simp <;> rfl
theorem keepB_v0 : after opsB W (Proc.devRef .tc main_v0) = W (Proc.devRef .tc main_v0) := by after_results_simp <;> rfl
theorem keepB_arg1 : after opsB W (Proc.devRef .tc main_arg1) = W (Proc.devRef .tc main_arg1) := by after_results_simp <;> rfl
theorem keepC_v0 : after opsC W (Proc.devRef .tc main_v0) = W (Proc.devRef .tc main_v0) := by after_results_simp <;> rfl
theorem keepC_v19 : after opsC W (Proc.devRef .tc main_v19) = W (Proc.devRef .tc main_v19) := by after_results_simp <;> rfl

/-- No operation of the line writes an argument. -/
theorem keep_arg0 : after ops W (Proc.devRef .tc main_arg0) = W (Proc.devRef .tc main_arg0) := by after_results_simp <;> rfl
theorem keep_arg1 : after ops W (Proc.devRef .tc main_arg1) = W (Proc.devRef .tc main_arg1) := by after_results_simp <;> rfl
theorem keep_arg2 : after ops W (Proc.devRef .tc main_arg2) = W (Proc.devRef .tc main_arg2) := by after_results_simp <;> rfl

/-! ## The line's value -/

/-- From any contents, the line leaves at `main_v42` the composed stage function of what was at the three arguments. -/
theorem value : after ops W (Proc.devRef .tc main_v42)
    = RefRead.val_main_v42 (F := F) (W (Proc.devRef .tc main_arg0)) (W (Proc.devRef .tc main_arg1)) (W (Proc.devRef .tc main_arg2)) := by
  rw [ops_eq, after_append, after_append, after_append]
  refine valD _ _ _ _ ?_ ?_ ?_
  · rw [keepC_v0, keepB_v0, valA]
  · rw [keepC_v19, valB, keepA_arg2]
  · rw [valC, keepB_arg1, keepA_arg1]

/-- On every device, for any float values, from any memory with zero counters: every weakly fair execution of the
    reference terminates with the result buffer at the composed stage function of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = RefRead.val_main_v42 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v42).trans (value (launchContents m c)),
      (h c main_arg0).trans (keep_arg0 (launchContents m c)),
      (h c main_arg1).trans (keep_arg1 (launchContents m c)),
      (h c main_arg2).trans (keep_arg2 (launchContents m c))⟩)
    (run_raw m ρ)

end Cert.ReferenceIdeal.RefRunValue

end
-- ==== Proof.RefValue.lean ====
/-
  The reference program's result at the extended reals, read stage by stage: every intermediate array of the
  reference is identified, at an index, with the corresponding part of the dense arrangement of the loss
  (row maximum, log-probability, one-hot row, histogram of the soft indices, the two weight arrays, the column
  means and their sums), ending with the scalar result being `denseE`.
-/
import proofs.«116322_j81320910782918_1_alg».proof.Proof.RefRead
import proofs.«116322_j81320910782918_1_alg».proof.Proof.LossSpec
import Idealize.ShloMosaic.PureOps.Reduce
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRead Cert.LossSpec
open Idealize.ShloMosaic Idealize.ShloMosaic.ValueIdx Idealize.ShloMosaic.TcCoe Idealize.SL.Sem Idealize.ShloMosaic.StableHlo

/-! ## The row maximum -/

theorem reduces_row : S4096x32000.Reduces [1] S4096 := by decide

/-- Row index `i` with column `k` put back is (i, k). -/
theorem lift_row (h : S4096x32000.Reduces [1] S4096) (i : Fin 4096) (k : Fin (S4096x32000.size 1)) :
    h.lift (ix1 i) k = ix2 i (⟨k.val, k.isLt⟩ : Fin 32000) := by
  funext c; apply Fin.ext
  fin_cases c <;> rfl

/-- The reduce with a maximum body over the columns, from −∞, is the row's maximum folded from −∞. -/
theorem v0max_apply (x : Logits) (i : Fin 4096) :
    val_main_call0_v0 (F := Ideal) x (ix1 i) = rowMaxE x i := by
  unfold val_main_call0_v0
  refine (Host.reduce_eq_fold_single (α := Ideal .f32) (FloatOps.maximumf (F := Ideal) (φ := .f32)) x _
    reducesTo_S4096x32000_S4096_d1 reduces_row h_S_ (ix1 i)).trans ?_
  unfold rowMaxE
  have hf : (x ∘ reduces_row.lift (ix1 i)) = fun c : Fin 32000 => x (ix2 i c) :=
    funext fun k => congrArg x (lift_row _ i k)
  exact congrArg (fun f => Finset.fold max cNegInf f (Finset.univ : Finset (Fin 32000))) hf

/-- The maximum once more against −∞. -/
theorem v2max_apply (x : Logits) (i : Fin 4096) :
    val_main_call0_v2 (F := Ideal) x (ix1 i) = rowMaxE' x i := by
  rw [val_main_call0_v2_apply, val_main_call0_v1_apply, val_main_call0_cst_0_apply, v0max_apply]
  rfl

/-- The row maximum broadcast along the columns. -/
theorem v4max_apply (x : Logits) (i : Fin 4096) (c : Fin 32000) :
    val_main_call0_v4 (F := Ideal) x (ix2 i c) = rowMaxE' x i := by
  rw [val_main_call0_v4_apply, val_main_call0_v3_apply]
  have e : idx_main_call0_v3 (idx_main_call0_v4 (ix2 i c)) = ix1 i :=
    funext fun a => Fin.ext (by match a with | ⟨0, _⟩ => rfl)
  rw [e, v2max_apply]

/-! ## The log-probabilities -/

/-- The shifted logit. -/
theorem v5_apply (x : Logits) (i : Fin 4096) (c : Fin 32000) :
    val_main_call0_v5 (F := Ideal) x (ix2 i c) = x (ix2 i c) - rowMaxE' x i := by
  rw [val_main_call0_v5_apply, v4max_apply]
  rfl

/-- The row's sum of exponentials. -/
theorem v7_apply (x : Logits) (i : Fin 4096) :
    val_main_call0_v7 (F := Ideal) x (ix1 i) = ∑ c : Fin 32000, Ideal.exp (x (ix2 i c) - rowMaxE' x i) := by
  rw [val_main_call0_v7_apply, val_main_call0_cst_1_apply, Ideal.ofBits_def, Ideal.ofBits_zero_f32, zero_add]
  refine Finset.sum_congr rfl fun k _ => ?_
  have e : idx_main_call0_v7 (ix1 i) k = ix2 i k :=
    funext fun a => Fin.ext (by match a with | ⟨0, _⟩ => rfl | ⟨1, _⟩ => rfl)
  rw [e, val_main_call0_v6_apply, v5_apply]
  rfl

/-- The logarithm of the row's sum of exponentials, broadcast along the columns. -/
theorem v10_apply (x : Logits) (i : Fin 4096) (c : Fin 32000) :
    val_main_call0_v10 (F := Ideal) x (ix2 i c) = rowLseE x (rowMaxE' x i) i := by
  rw [val_main_call0_v10_apply, val_main_call0_v9_apply, val_main_call0_v8_apply]
  have e : idx_main_call0_v8 (idx_main_call0_v10 (ix2 i c)) = ix1 i :=
    funext fun a => Fin.ext (by match a with | ⟨0, _⟩ => rfl)
  unfold rowLseE
  rw [e, v7_apply, Ideal.hostUnary_log_def]

/-- The log-softmax at (i, c) is the log-probability of class `c` in row `i`. -/
theorem v0_apply (x : Logits) (i : Fin 4096) (c : Fin 32000) :
    val_main_v0 (F := Ideal) x (ix2 i c) = logProbE x i c := by
  rw [val_main_v0_apply, v5_apply, v10_apply]
  rfl

/-! ## Words of in-range numbers -/

/-- Two class numbers' 32-bit words are equal exactly when the classes are. -/
theorem ofNat_inj32 (a b : Fin 32000) : (BitVec.ofNat 32 a.val = BitVec.ofNat 32 b.val) ↔ a = b := by
  constructor
  · intro h
    have := congrArg BitVec.toNat h
    simp only [BitVec.toNat_ofNat] at this
    have ha := a.isLt; have hb := b.isLt
    apply Fin.ext; omega
  · intro h; rw [h]

/-- The equality bit of two class words, read unsigned, is 1 when the classes agree and 0 otherwise. -/
theorem uitofp_cmpi_eq (a b : Fin 32000) :
    FloatOps.uitofp (F := Ideal) .f32 (IntOp.cmpi .eq (BitVec.ofNat 32 a.val) (BitVec.ofNat 32 b.val))
      = (((if a = b then 1 else 0 : ℝ)) : EReal) := by
  show (((IntOp.cmpi .eq (BitVec.ofNat 32 a.val) (BitVec.ofNat 32 b.val)).toNat : ℝ) : EReal) = _
  by_cases h : a = b
  · subst h; simp [IntOp.cmpi]
  · have hne : ¬ (BitVec.ofNat 32 a.val = BitVec.ofNat 32 b.val) := fun e => h ((ofNat_inj32 a b).1 e)
    simp [IntOp.cmpi, h, hne]

/-- A number below 2³¹ is the signed reading of its 32-bit word. -/
theorem toInt_ofNat32 (n : Nat) (h : n < 2147483648) : (BitVec.ofNat 32 n).toInt = (n : Int) := by
  rw [BitVec.toInt_eq_toNat_cond]
  simp only [BitVec.toNat_ofNat]
  have : n % 2 ^ 32 = n := Nat.mod_eq_of_lt (by omega)
  rw [this]
  split <;> omega

/-- The word of a number below 2³¹ is not negative. -/
theorem slt_zero_ofNat (n : Nat) (h : n < 2147483648) : IntOp.cmpi .slt (BitVec.ofNat 32 n) 0#32 = 0#1 := by
  unfold IntOp.cmpi
  have : (BitVec.ofNat 32 n).slt 0#32 = false := by
    simp only [BitVec.slt, toInt_ofNat32 n h]
    simp
  simp only [this]
  rfl

/-! ## The one-hot row -/

/-- The one-hot array at (i, c) is 1 exactly when `c` is row `i`'s target. -/
theorem v20_apply (tg : IVec S4096 32) (t : Fin 4096 → Fin 32000)
    (ht : ∀ i, tg (ix1 i) = BitVec.ofNat 32 (t i).val) (i : Fin 4096) (c : Fin 32000) :
    val_main_v20 (F := Ideal) tg (ix2 i c) = oneHotE t i c := by
  rw [val_main_v20_apply, val_main_call1_v4_apply, val_main_call1_v2_apply, val_main_call1_v0_apply,
    val_main_call1_v3_apply, val_main_call1_v1_apply]
  have e : idx_main_call1_v0 (idx_main_call1_v2 (ix2 i c)) = ix1 i :=
    funext fun a => Fin.ext (by match a with | ⟨0, _⟩ => rfl)
  have hv : ((idx_main_call1_v3 (ix2 i c)) 1).val = c.val := rfl
  rw [e, ht, hv]
  exact uitofp_cmpi_eq (t i) c

/-! ## The histogram of the soft indices -/

/-- The scatter's dimension numbers: both operand axes are indexed, no window axes. -/
abbrev sd := scatter_S4096x32000_S4096x50x2_S4096x50_n_01_01_2

/-- An update whose start plus window coordinate is, on every axis, the coordinate of `r` lands at `r`. -/
theorem resultIdx_of_eq {s si u : Shape} (d : ScatterDims s si u) {w : Nat} (j : u.Idx) (idx : IVec si w) (r : s.Idx)
    (h : ∀ a, d.start j idx a + d.window j a = ((r a).val : Int)) : d.resultIdx? j idx = some r := by
  unfold ScatterDims.resultIdx?
  have hh : ∀ a, 0 ≤ d.start j idx a + d.window j a ∧ d.start j idx a + d.window j a < s.size a := fun a => by
    rw [h a]; exact ⟨Int.natCast_nonneg _, by exact_mod_cast (r a).isLt⟩
  rw [dif_pos hh]
  congr 1
  funext a
  apply Fin.ext
  show (d.start j idx a + d.window j a).toNat = (r a).val
  rw [h a]; exact Int.toNat_natCast _

/-- Every operand axis is an inserted one: there is no window. -/
theorem sd_sKept : sd.sKept = [] := by decide

/-- No window coordinate on either axis. -/
theorem sd_window (j : S4096x50.Idx) (a : Fin 2) : sd.window j a = 0 := by
  unfold ScatterDims.window
  rw [dif_neg (by rw [sd_sKept]; simp)]

/-- Update (a, b) reads component `c` of its start index at (a, b, c). -/
theorem sd_siIdx (j : S4096x50.Idx) (c : Fin sd.scatterDimsToOperandDims.length) :
    sd.siIdx j c = ix3 (j 0) (j 1) (⟨c.val, c.isLt⟩ : Fin 2) := by
  funext b; apply Fin.ext
  match b with
  | ⟨0, _⟩ => rfl
  | ⟨1, _⟩ => rfl
  | ⟨2, _⟩ => rfl

/-- The joined index words: component 0 is the row-index word. -/
theorem v17_row (pv : IVec S4096x50 32) (i : Fin 4096) (p : Fin 50) :
    val_main_v17 (F := Ideal) pv (ix3 i p (0 : Fin 2)) = val_main_v15 (F := Ideal) (ix3 i p (0 : Fin 1)) := by
  unfold val_main_v17
  exact concatenate_pair_apply_left (s₁ := S4096x50x1) (s₂ := S4096x50x1) (2 : Fin 3) _ _ concatenates_S4096x50x1_S4096x50x1_S4096x50x2_d2 (ix3 i p (0 : Fin 2)) rfl
    (ix3 i p (0 : Fin 1)) (fun b => match b with | ⟨0, _⟩ => rfl | ⟨1, _⟩ => rfl | ⟨2, _⟩ => rfl)

/-- The joined index words: component 1 is the column-index word. -/
theorem v17_col (pv : IVec S4096x50 32) (i : Fin 4096) (p : Fin 50) :
    val_main_v17 (F := Ideal) pv (ix3 i p (1 : Fin 2)) = val_main_v16 (F := Ideal) pv (ix3 i p (0 : Fin 1)) := by
  unfold val_main_v17
  exact concatenate_pair_apply_right (s₁ := S4096x50x1) (s₂ := S4096x50x1) (2 : Fin 3) _ _ concatenates_S4096x50x1_S4096x50x1_S4096x50x2_d2 (ix3 i p (1 : Fin 2)) rfl rfl
    (ix3 i p (0 : Fin 1)) (fun b hb => match b, hb with
      | ⟨0, _⟩, _ => rfl | ⟨1, _⟩, _ => rfl | ⟨2, _⟩, hb => absurd rfl hb) rfl

/-- The normalised row-index word of row `i` is the word of `i`. -/
theorem v15_apply (i : Fin 4096) (p : Fin 50) :
    val_main_v15 (F := Ideal) (ix3 i p (0 : Fin 1)) = BitVec.ofNat 32 i.val := by
  rw [val_main_v15_apply]
  have e : idx_main_v15 (ix3 i p (0 : Fin 1)) = ix2 i p :=
    funext fun a => Fin.ext (by match a with | ⟨0, _⟩ => rfl | ⟨1, _⟩ => rfl)
  rw [e, val_main_v9_apply, val_main_v6_apply, val_main_v3_apply, val_main_v2_apply, val_main_v1_apply,
    val_main_v5_apply, val_main_c_apply]
  have hv : ((idx_main_v2 (idx_main_v3 (ix2 i p))) 0).val = i.val := rfl
  rw [hv, slt_zero_ofNat _ (by have := i.isLt; omega), select_zero]

/-- The normalised soft-index word at (i, p) is the word of `pos i p`. -/
theorem v16_apply (pv : IVec S4096x50 32) (pos : Fin 4096 → Fin 50 → Fin 32000)
    (hp : ∀ i p, pv (ix2 i p) = BitVec.ofNat 32 (pos i p).val) (i : Fin 4096) (p : Fin 50) :
    val_main_v16 (F := Ideal) pv (ix3 i p (0 : Fin 1)) = BitVec.ofNat 32 (pos i p).val := by
  rw [val_main_v16_apply]
  have e : idx_main_v16 (ix3 i p (0 : Fin 1)) = ix2 i p :=
    funext fun a => Fin.ext (by match a with | ⟨0, _⟩ => rfl | ⟨1, _⟩ => rfl)
  rw [e, val_main_v14_apply, val_main_v11_apply, val_main_v10_apply, val_main_c_1_apply, hp,
    slt_zero_ofNat _ (by have := (pos i p).isLt; omega), select_zero]

theorem sd_start0 {w : Nat} (a : Fin 4096) (b : Fin 50) (idx : IVec S4096x50x2 w) :
    sd.start (ix2 a b) idx 0 = (idx (ix3 a b (0 : Fin 2))).toInt := by
  unfold ScatterDims.start
  rw [dif_pos (show (0 : Fin 2) ∈ sd.scatterDimsToOperandDims by decide), sd_siIdx]
  rfl

theorem sd_start1 {w : Nat} (a : Fin 4096) (b : Fin 50) (idx : IVec S4096x50x2 w) :
    sd.start (ix2 a b) idx 1 = (idx (ix3 a b (1 : Fin 2))).toInt := by
  unfold ScatterDims.start
  rw [dif_pos (show (1 : Fin 2) ∈ sd.scatterDimsToOperandDims by decide), sd_siIdx]
  rfl

/-- Update (a, b) lands at element (a, pos a b). -/
theorem sd_result (pv : IVec S4096x50 32) (pos : Fin 4096 → Fin 50 → Fin 32000)
    (hp : ∀ i p, pv (ix2 i p) = BitVec.ofNat 32 (pos i p).val) (a : Fin 4096) (b : Fin 50) :
    sd.resultIdx? (ix2 a b) (val_main_v17 (F := Ideal) pv) = some (ix2 a (pos a b)) := by
  refine resultIdx_of_eq sd (ix2 a b) _ _ fun k => ?_
  rw [sd_window]
  match k with
  | ⟨0, _⟩ =>
    show sd.start (ix2 a b) _ 0 + ((0 : Nat) : Int) = (a.val : Int)
    rw [sd_start0, v17_row, v15_apply, toInt_ofNat32 _ (by have := a.isLt; omega)]; simp
  | ⟨1, _⟩ =>
    show sd.start (ix2 a b) _ 1 + ((0 : Nat) : Int) = ((pos a b).val : Int)
    rw [sd_start1, v17_col, v16_apply pv pos hp, toInt_ofNat32 _ (by have := (pos a b).isLt; omega)]; simp

/-- A rank-2 index is determined by its two coordinates. -/
theorem ix2_inj {n0 n1 : Nat} (a i : Fin n0) (b c : Fin n1) : (ix2 a b = ix2 i c) ↔ (a = i ∧ b = c) :=
  ⟨fun h => ⟨congrFun h (0 : Fin 2), congrFun h (1 : Fin 2)⟩, fun h => by rw [h.1, h.2]⟩

/-- The scattered array at (i, c) is the histogram of row `i`'s soft indices at `c`. -/
theorem v19_apply (pv : IVec S4096x50 32) (pos : Fin 4096 → Fin 50 → Fin 32000)
    (hp : ∀ i p, pv (ix2 i p) = BitVec.ofNat 32 (pos i p).val) (i : Fin 4096) (c : Fin 32000) :
    val_main_v19 (F := Ideal) pv (ix2 i c) = softHistE pos i c := by
  unfold val_main_v19 Host.scatterAdd
  rw [Ideal.hostScatterAdd_def]
  unfold Ideal.hostScatterAdd
  rw [val_main_v4_apply, val_main_cst_apply, Ideal.ofBits_def, Ideal.ofBits_zero_f32, zero_add,
    Finset.sum_filter, sum_idx2]
  unfold softHistE
  rw [Finset.sum_eq_single i]
  · refine Finset.sum_congr rfl fun b _ => ?_
    rw [sd_result pv pos hp, val_main_v18_apply, val_main_cst_3_apply, Ideal.ofBits_def]
    by_cases h : pos i b = c
    · rw [if_pos h, if_pos (by rw [h])]
    · rw [if_neg h, if_neg (fun e => h ((ix2_inj _ _ _ _).1 (Option.some.inj e)).2)]
  · intro a _ ha
    refine Finset.sum_eq_zero fun b _ => ?_
    rw [sd_result pv pos hp, if_neg (fun e => ha ((ix2_inj _ _ _ _).1 (Option.some.inj e)).1)]
  · intro h; exact absurd (Finset.mem_univ i) h

/-! ## The weights and the products -/

/-- The soft weights: 0.8 of the one-hot row plus the histogram. -/
theorem v23_apply (tg : IVec S4096 32) (pv : IVec S4096x50 32) (t : Fin 4096 → Fin 32000)
    (pos : Fin 4096 → Fin 50 → Fin 32000) (ht : ∀ i, tg (ix1 i) = BitVec.ofNat 32 (t i).val)
    (hp : ∀ i p, pv (ix2 i p) = BitVec.ofNat 32 (pos i p).val) (i : Fin 4096) (c : Fin 32000) :
    val_main_v23 (F := Ideal) tg pv (ix2 i c) = cC8 * oneHotE t i c + softHistE pos i c := by
  rw [val_main_v23_apply, val_main_v22_apply, val_main_v21_apply, val_main_cst_4_apply, v20_apply tg t ht,
    v19_apply pv pos hp]
  rfl

/-- The smoothed weights: 0.9 of the one-hot row plus 0.1/32000. -/
theorem v27_apply (tg : IVec S4096 32) (t : Fin 4096 → Fin 32000)
    (ht : ∀ i, tg (ix1 i) = BitVec.ofNat 32 (t i).val) (i : Fin 4096) (c : Fin 32000) :
    val_main_v27 (F := Ideal) tg (ix2 i c) = cA * oneHotE t i c + cB := by
  rw [val_main_v27_apply, val_main_v25_apply, val_main_v24_apply, val_main_cst_5_apply, val_main_v26_apply,
    val_main_cst_6_apply, v20_apply tg t ht]
  rfl

/-- The negated smoothed weights against the log-probabilities. -/
theorem v29_apply (x : Logits) (tg : IVec S4096 32) (t : Fin 4096 → Fin 32000)
    (ht : ∀ i, tg (ix1 i) = BitVec.ofNat 32 (t i).val) (i : Fin 4096) (c : Fin 32000) :
    val_main_v29 (F := Ideal) x tg (ix2 i c) = -(cA * oneHotE t i c + cB) * logProbE x i c := by
  rw [val_main_v29_apply, val_main_v28_apply, v27_apply tg t ht, v0_apply]
  rfl

/-- The negated soft weights against the log-probabilities. -/
theorem v35_apply (x : Logits) (tg : IVec S4096 32) (pv : IVec S4096x50 32) (t : Fin 4096 → Fin 32000)
    (pos : Fin 4096 → Fin 50 → Fin 32000) (ht : ∀ i, tg (ix1 i) = BitVec.ofNat 32 (t i).val)
    (hp : ∀ i p, pv (ix2 i p) = BitVec.ofNat 32 (pos i p).val) (i : Fin 4096) (c : Fin 32000) :
    val_main_v35 (F := Ideal) x tg pv (ix2 i c) = -(cC8 * oneHotE t i c + softHistE pos i c) * logProbE x i c := by
  rw [val_main_v35_apply, val_main_v34_apply, v23_apply tg pv t pos ht hp, v0_apply]
  rfl

/-! ## The column means and their sums -/

/-- Column `c`'s mean over the rows, smoothed term. -/
theorem v32_apply (x : Logits) (tg : IVec S4096 32) (t : Fin 4096 → Fin 32000)
    (ht : ∀ i, tg (ix1 i) = BitVec.ofNat 32 (t i).val) (c : Fin 32000) :
    val_main_v32 (F := Ideal) x tg (ix1 c)
      = Ideal.div (∑ i : Fin 4096, -(cA * oneHotE t i c + cB) * logProbE x i c) c4096 := by
  rw [val_main_v32_apply, val_main_v30_apply, val_main_v31_apply, val_main_cst_8_apply, val_main_cst_7_apply]
  show Ideal.div (Ideal.ofBits .f32 0x00000000#32
    + ∑ k : Fin 4096, val_main_v29 (F := Ideal) x tg (idx_main_v30 (ix1 c) k)) c4096 = _
  rw [Ideal.ofBits_zero_f32, zero_add]
  refine congrArg (fun s => Ideal.div s c4096) (Finset.sum_congr rfl fun k _ => ?_)
  have e : idx_main_v30 (ix1 c) k = ix2 k c :=
    funext fun a => Fin.ext (by match a with | ⟨0, _⟩ => rfl | ⟨1, _⟩ => rfl)
  rw [e, v29_apply x tg t ht]

/-- Column `c`'s mean over the rows, soft term. -/
theorem v38_apply (x : Logits) (tg : IVec S4096 32) (pv : IVec S4096x50 32) (t : Fin 4096 → Fin 32000)
    (pos : Fin 4096 → Fin 50 → Fin 32000) (ht : ∀ i, tg (ix1 i) = BitVec.ofNat 32 (t i).val)
    (hp : ∀ i p, pv (ix2 i p) = BitVec.ofNat 32 (pos i p).val) (c : Fin 32000) :
    val_main_v38 (F := Ideal) x tg pv (ix1 c)
      = Ideal.div (∑ i : Fin 4096, -(cC8 * oneHotE t i c + softHistE pos i c) * logProbE x i c) c4096 := by
  rw [val_main_v38_apply, val_main_v36_apply, val_main_v37_apply, val_main_cst_11_apply, val_main_cst_10_apply]
  show Ideal.div (Ideal.ofBits .f32 0x00000000#32
    + ∑ k : Fin 4096, val_main_v35 (F := Ideal) x tg pv (idx_main_v36 (ix1 c) k)) c4096 = _
  rw [Ideal.ofBits_zero_f32, zero_add]
  refine congrArg (fun s => Ideal.div s c4096) (Finset.sum_congr rfl fun k _ => ?_)
  have e : idx_main_v36 (ix1 c) k = ix2 k c :=
    funext fun a => Fin.ext (by match a with | ⟨0, _⟩ => rfl | ⟨1, _⟩ => rfl)
  rw [e, v35_apply x tg pv t pos ht hp]

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum of the column means, smoothed term. -/
theorem v33_apply (x : Logits) (tg : IVec S4096 32) (t : Fin 4096 → Fin 32000)
    (ht : ∀ i, tg (ix1 i) = BitVec.ofNat 32 (t i).val) (j : S_.Idx) :
    val_main_v33 (F := Ideal) x tg j
      = ∑ c : Fin 32000, Ideal.div (∑ i : Fin 4096, -(cA * oneHotE t i c + cB) * logProbE x i c) c4096 := by
  rw [val_main_v33_apply, val_main_cst_9_apply]
  show Ideal.ofBits .f32 0x00000000#32 + ∑ k : S32000.Idx, val_main_v32 (F := Ideal) x tg k = _
  rw [Ideal.ofBits_zero_f32, zero_add, sum_idx1]
  exact Finset.sum_congr rfl fun c _ => v32_apply x tg t ht c

/-- The sum of the column means, soft term. -/
theorem v39_apply (x : Logits) (tg : IVec S4096 32) (pv : IVec S4096x50 32) (t : Fin 4096 → Fin 32000)
    (pos : Fin 4096 → Fin 50 → Fin 32000) (ht : ∀ i, tg (ix1 i) = BitVec.ofNat 32 (t i).val)
    (hp : ∀ i p, pv (ix2 i p) = BitVec.ofNat 32 (pos i p).val) (j : S_.Idx) :
    val_main_v39 (F := Ideal) x tg pv j
      = ∑ c : Fin 32000, Ideal.div (∑ i : Fin 4096, -(cC8 * oneHotE t i c + softHistE pos i c) * logProbE x i c) c4096 := by
  rw [val_main_v39_apply, val_main_cst_12_apply]
  show Ideal.ofBits .f32 0x00000000#32 + ∑ k : S32000.Idx, val_main_v38 (F := Ideal) x tg pv k = _
  rw [Ideal.ofBits_zero_f32, zero_add, sum_idx1]
  exact Finset.sum_congr rfl fun c _ => v38_apply x tg pv t pos ht hp c

/-! ## The result -/

/-- With every target and every soft index in range, the reference's result at the extended reals is the dense
    arrangement of the loss. -/
theorem ref_value (x : Logits) (tg : IVec S4096 32) (pv : IVec S4096x50 32)
    (t : Fin 4096 → Fin 32000) (pos : Fin 4096 → Fin 50 → Fin 32000)
    (ht : ∀ i, tg (ix1 i) = BitVec.ofNat 32 (t i).val)
    (hp : ∀ i p, pv (ix2 i p) = BitVec.ofNat 32 (pos i p).val) :
    val_main_v42 (F := Ideal) x tg pv = fun _ => denseE x t pos := by
  funext j
  rw [val_main_v42_apply, val_main_v40_apply, val_main_v41_apply, v33_apply x tg t ht, v39_apply x tg pv t pos ht hp,
    val_main_cst_13_apply, val_main_cst_14_apply]
  unfold denseE
  rfl

end Cert.ReferenceIdeal.RefValue

end
-- ==== Proof.LossConsts.lean ====
/-
  The single-precision constants of the loss, as the extended reals their words denote: each finite pattern
  is the dyadic rational (2^23 + T) · 2^(E − 150) with the sign of its top bit, and the all-ones exponent with
  a zero significand and a set sign is −∞. This module alone unfolds the reading of a pattern.
-/
import proofs.«116322_j81320910782918_1_alg».proof.Proof.LossSpec

noncomputable section

namespace Cert.LossSpec

open Idealize.ShloMosaic

/-- 0xFF800000 is −∞. -/
theorem cNegInf_eq : cNegInf = ⊥ := by
  simp [Ideal.ofBits, Ideal.ieee]

/-- 0x45800000 is 4096. -/
theorem c4096_eq : c4096 = ((4096 : ℝ) : EReal) := by
  simp [Ideal.ofBits, Ideal.ieee, -EReal.coe_mul]; norm_num

/-- 0x46FA0000 is 32000. -/
theorem c32000_eq : c32000 = ((32000 : ℝ) : EReal) := by
  simp [Ideal.ofBits, Ideal.ieee, -EReal.coe_mul]; norm_num

/-- 0x42480000 is 50. -/
theorem c50_eq : c50 = ((50 : ℝ) : EReal) := by
  simp [Ideal.ofBits, Ideal.ieee, -EReal.coe_mul]; norm_num

/-- 0x3F666666 is 15099494 / 2^24. -/
theorem cA_eq : cA = ((15099494 / 16777216 : ℝ) : EReal) := by
  simp [Ideal.ofBits, Ideal.ieee, -EReal.coe_mul]; norm_num

/-- 0xBF666666 is −15099494 / 2^24. -/
theorem cNA_eq : cNA = ((-(15099494 / 16777216) : ℝ) : EReal) := by
  simp [Ideal.ofBits, Ideal.ieee, -EReal.coe_mul]; norm_num

/-- 0x3F4CCCCD is 13421773 / 2^24. -/
theorem cC8_eq : cC8 = ((13421773 / 16777216 : ℝ) : EReal) := by
  simp [Ideal.ofBits, Ideal.ieee, -EReal.coe_mul]; norm_num

/-- 0xBF4CCCCD is −13421773 / 2^24. -/
theorem cNC8_eq : cNC8 = ((-(13421773 / 16777216) : ℝ) : EReal) := by
  simp [Ideal.ofBits, Ideal.ieee, -EReal.coe_mul]; norm_num

/-- 0x3DCCCCCD is 13421773 / 2^27. -/
theorem cW_eq : cW = ((13421773 / 134217728 : ℝ) : EReal) := by
  simp [Ideal.ofBits, Ideal.ieee, -EReal.coe_mul]; norm_num

/-- 0x3B83126F is 8589935 / 2^31. -/
theorem cD_eq : cD = ((8589935 / 2147483648 : ℝ) : EReal) := by
  simp [Ideal.ofBits, Ideal.ieee, -EReal.coe_mul]; norm_num

/-- 0x3651B717 is 13743895 / 2^42. -/
theorem cB_eq : cB = ((13743895 / 4398046511104 : ℝ) : EReal) := by
  simp [Ideal.ofBits, Ideal.ieee, -EReal.coe_mul]; norm_num

/-! The real values of the seven weights, named, and the constants as their coercions. -/

/-- 0.9 in single precision. -/
def rA : ℝ := 15099494 / 16777216
/-- 0.1 / 32000 in single precision. -/
def rB : ℝ := 13743895 / 4398046511104
/-- 0.8 in single precision. -/
def rC8 : ℝ := 13421773 / 16777216
/-- 0.2 / 50 in single precision. -/
def rD : ℝ := 8589935 / 2147483648
/-- 0.1 in single precision. -/
def rW : ℝ := 13421773 / 134217728

theorem cA_coe : cA = ((rA : ℝ) : EReal) := cA_eq
theorem cNA_coe : cNA = ((-rA : ℝ) : EReal) := cNA_eq
theorem cB_coe : cB = ((rB : ℝ) : EReal) := cB_eq
theorem cC8_coe : cC8 = ((rC8 : ℝ) : EReal) := cC8_eq
theorem cNC8_coe : cNC8 = ((-rC8 : ℝ) : EReal) := cNC8_eq
theorem cD_coe : cD = ((rD : ℝ) : EReal) := cD_eq
theorem cW_coe : cW = ((rW : ℝ) : EReal) := cW_eq

end Cert.LossSpec

end
-- ==== Proof.LossAlgebra.lean ====
import Idealize.ShloMosaic.PureOps.Ideal

/-!
# Real algebra of a label-smoothed cross entropy with a soft-target term

Two arrangements of the same loss over a batch of `B` rows, `C` classes and `P` marked
positions per row are shown equal: one computed row by row from row statistics, the other as
dense `[B, C]` weights against the log-probabilities.  No hypothesis on the divisor `k` is
needed: division in `ℝ` is multiplication by the inverse, and every step is linear.
-/

noncomputable section

namespace Cert.LossSpec

variable {B C P : ℕ}

/-- label-smoothed cross entropy with a soft-target term, arranged row by row from row statistics -/
def kernelSide (a na b nc8 d w k kC kP : ℝ) (X : Fin B → Fin C → ℝ) (t : Fin B → Fin C) (pos : Fin B → Fin P → Fin C) (Z : Fin B → ℝ) : ℝ :=
  (∑ i, (a * (na * (X i (t i) - Z i) - b * ((∑ c, X i c) - kC * Z i))
        + w * (nc8 * (X i (t i) - Z i) - d * ((∑ p, X i (pos i p)) - kP * Z i)))) / k

/-- the same loss arranged as dense [B, C] weights against the log-probabilities, column means summed -/
def refSide (a b c8 d w k : ℝ) (X : Fin B → Fin C → ℝ) (t : Fin B → Fin C) (pos : Fin B → Fin P → Fin C) (M L : Fin B → ℝ) : ℝ :=
  (∑ c, (∑ i, -(a * (if t i = c then 1 else 0) + b) * ((X i c - M i) - L i)) / k) * a
  + (∑ c, (∑ i, -(c8 * (if t i = c then 1 else 0) + ∑ p, (if pos i p = c then d else 0)) * ((X i c - M i) - L i)) / k) * w

/-- One-hot selection: `∑_c [t = c] · f c = f t`. -/
theorem sum_onehot_mul {n : ℕ} (t : Fin n) (f : Fin n → ℝ) :
    ∑ c, (if t = c then (1 : ℝ) else 0) * f c = f t := by
  simp [Finset.sum_ite_eq]

/-- Multi-hot selection: `∑_c (∑_p [pos p = c] · d) · f c = d · ∑_p f (pos p)`. -/
theorem sum_multihot_mul {n m : ℕ} (d : ℝ) (pos : Fin m → Fin n) (f : Fin n → ℝ) :
    ∑ c, (∑ p, (if pos p = c then d else 0)) * f c = d * ∑ p, f (pos p) := by
  simp_rw [Finset.sum_mul]
  rw [Finset.sum_comm, Finset.mul_sum]
  refine Finset.sum_congr rfl (fun p _ => ?_)
  simp [Finset.sum_ite_eq]

/-- Subtracting a constant under a sum over `n` indices: `∑_c (x c − z) = (∑_c x c) − n · z`. -/
theorem sum_sub_const {n : ℕ} (x : Fin n → ℝ) (z : ℝ) :
    ∑ c, (x c - z) = (∑ c, x c) - (n : ℝ) * z := by
  rw [Finset.sum_sub_distrib, Finset.sum_const, Finset.card_univ, Fintype.card_fin, nsmul_eq_mul]

/-- Row identity for the hard-label part:
`∑_c −(a·[t = c] + b) · (x c − m − l) = −a · (x t − (m + l)) − b · ((∑_c x c) − n · (m + l))`. -/
theorem row_hard {n : ℕ} (a b m l : ℝ) (x : Fin n → ℝ) (t : Fin n) :
    ∑ c, -(a * (if t = c then (1 : ℝ) else 0) + b) * ((x c - m) - l)
      = (-a) * (x t - (m + l)) - b * ((∑ c, x c) - (n : ℝ) * (m + l)) := by
  have h1 : ∑ c, (if t = c then (1 : ℝ) else 0) * (x c - (m + l)) = x t - (m + l) :=
    sum_onehot_mul t (fun c => x c - (m + l))
  have h2 : ∑ c, (x c - (m + l)) = (∑ c, x c) - (n : ℝ) * (m + l) := sum_sub_const x (m + l)
  have h3 : ∀ c, -(a * (if t = c then (1 : ℝ) else 0) + b) * ((x c - m) - l)
      = (-a) * ((if t = c then (1 : ℝ) else 0) * (x c - (m + l))) - b * (x c - (m + l)) := by
    intro c; ring
  simp_rw [h3]
  rw [Finset.sum_sub_distrib, ← Finset.mul_sum, ← Finset.mul_sum, h1, h2]

/-- Row identity for the soft-target part:
`∑_c −(c8·[t = c] + ∑_p [pos p = c]·d) · (x c − m − l)
  = −c8 · (x t − (m + l)) − d · ((∑_p x (pos p)) − P · (m + l))`. -/
theorem row_soft {n m' : ℕ} (c8 d m l : ℝ) (x : Fin n → ℝ) (t : Fin n) (pos : Fin m' → Fin n) :
    ∑ c, -(c8 * (if t = c then (1 : ℝ) else 0) + ∑ p, (if pos p = c then d else 0)) * ((x c - m) - l)
      = (-c8) * (x t - (m + l)) - d * ((∑ p, x (pos p)) - (m' : ℝ) * (m + l)) := by
  have h1 : ∑ c, (if t = c then (1 : ℝ) else 0) * (x c - (m + l)) = x t - (m + l) :=
    sum_onehot_mul t (fun c => x c - (m + l))
  have h2 : ∑ c, (∑ p, (if pos p = c then d else 0)) * (x c - (m + l))
      = d * ∑ p, (x (pos p) - (m + l)) :=
    sum_multihot_mul d pos (fun c => x c - (m + l))
  have h4 : ∑ p, (x (pos p) - (m + l)) = (∑ p, x (pos p)) - (m' : ℝ) * (m + l) :=
    sum_sub_const (fun p => x (pos p)) (m + l)
  have h3 : ∀ c, -(c8 * (if t = c then (1 : ℝ) else 0) + ∑ p, (if pos p = c then d else 0)) * ((x c - m) - l)
      = (-c8) * ((if t = c then (1 : ℝ) else 0) * (x c - (m + l)))
        - (∑ p, (if pos p = c then d else 0)) * (x c - (m + l)) := by
    intro c; ring
  simp_rw [h3]
  rw [Finset.sum_sub_distrib, ← Finset.mul_sum, h1, h2, h4]

/-- The row-statistics arrangement equals the dense-weights arrangement, with the row statistic
`Z i = M i + L i`, the negated weights `−a`, `−c8`, and the counts `C`, `P` as reals. -/
theorem kernelSide_eq_refSide (a b c8 d w k : ℝ) (X : Fin B → Fin C → ℝ) (t : Fin B → Fin C) (pos : Fin B → Fin P → Fin C) (M L : Fin B → ℝ) :
    kernelSide a (-a) b (-c8) d w k (C : ℝ) (P : ℝ) X t pos (fun i => M i + L i) = refSide a b c8 d w k X t pos M L := by
  have hA : ∑ c, (∑ i, -(a * (if t i = c then (1 : ℝ) else 0) + b) * ((X i c - M i) - L i)) / k
      = (∑ i, ((-a) * (X i (t i) - (M i + L i)) - b * ((∑ c, X i c) - (C : ℝ) * (M i + L i)))) / k := by
    rw [← Finset.sum_div, Finset.sum_comm]
    congr 1
    exact Finset.sum_congr rfl (fun i _ => row_hard a b (M i) (L i) (X i) (t i))
  have hB : ∑ c, (∑ i, -(c8 * (if t i = c then (1 : ℝ) else 0) + ∑ p, (if pos i p = c then d else 0)) * ((X i c - M i) - L i)) / k
      = (∑ i, ((-c8) * (X i (t i) - (M i + L i)) - d * ((∑ p, X i (pos i p)) - (P : ℝ) * (M i + L i)))) / k := by
    rw [← Finset.sum_div, Finset.sum_comm]
    congr 1
    exact Finset.sum_congr rfl (fun i _ => row_soft c8 d (M i) (L i) (X i) (t i) (pos i))
  simp only [kernelSide, refSide]
  rw [hA, hB, Finset.sum_add_distrib, ← Finset.mul_sum, ← Finset.mul_sum]
  ring

end Cert.LossSpec
-- ==== Proof.LossBridge.lean ====
/-
  On finite logits the two arrangements of the loss over the extended reals are the coercions of the two real
  arrangements, which are equal. Every intermediate quantity is a real: the row maximum is a maximum of
  finitely many reals over a nonempty index set, the sum of exponentials is a positive real so its logarithm is
  a real, the constants are reals, and the divisor 4096 is a nonzero real, so division is multiplication by
  its reciprocal.
-/
import proofs.«116322_j81320910782918_1_alg».proof.Proof.LossConsts
import proofs.«116322_j81320910782918_1_alg».proof.Proof.LossAlgebra

noncomputable section

namespace Cert.LossSpec

open Idealize.ShloMosaic Idealize.ShloMosaic.ValueIdx

/-! ### Sums and maxima of coerced reals -/

/-- A finite sum of coerced reals is the coerced sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coerced maximum. -/
theorem coe_max (a b : ℝ) : max (a : EReal) (b : EReal) = ((max a b : ℝ) : EReal) :=
  (EReal.coe_strictMono.monotone.map_max).symm

/-- Folding the maximum from −∞ over a nonempty finite set of coerced reals gives a coerced real. -/
theorem fold_max_coe {ι : Type} (f : ι → ℝ) (s : Finset ι) :
    s.Nonempty → ∃ m : ℝ, s.fold max (⊥ : EReal) (fun c => ((f c : ℝ) : EReal)) = (m : EReal) := by
  classical
  induction s using Finset.induction_on with
  | empty => intro h; exact absurd h (by simp)
  | insert a s ha ih =>
    intro _
    rw [Finset.fold_insert ha]
    rcases s.eq_empty_or_nonempty with rfl | hne
    · exact ⟨f a, by simp⟩
    · obtain ⟨m, hm⟩ := ih hne
      exact ⟨max (f a) m, by rw [hm, coe_max]⟩

/-! ### The real quantities -/

/-- The logits as reals. -/
def Xr (x : Logits) (i : Fin 4096) (c : Fin 32000) : ℝ := (x (ix2 i c)).toReal

/-- The row maximum as a real. -/
def Mr (x : Logits) (i : Fin 4096) : ℝ := (rowMaxE x i).toReal

/-- The logarithm of the sum of the shifted exponentials as a real. -/
def Lr (x : Logits) (i : Fin 4096) : ℝ := Real.log (∑ c : Fin 32000, Real.exp (Xr x i c - Mr x i))

section
variable (x : Logits) (hx : ∀ i c, ∃ r : ℝ, x (ix2 i c) = (r : EReal))
include hx

/-- A finite logit is the coercion of its real value. -/
theorem x_coe (i : Fin 4096) (c : Fin 32000) : x (ix2 i c) = ((Xr x i c : ℝ) : EReal) := by
  obtain ⟨r, hr⟩ := hx i c
  rw [Xr, hr, EReal.toReal_coe]

/-- The row maximum is a real. -/
theorem rowMaxE_coe (i : Fin 4096) : rowMaxE x i = ((Mr x i : ℝ) : EReal) := by
  have h : rowMaxE x i
      = (Finset.univ : Finset (Fin 32000)).fold max (⊥ : EReal) (fun c => ((Xr x i c : ℝ) : EReal)) := by
    rw [rowMaxE, cNegInf_eq]
    exact Finset.fold_congr (fun c _ => x_coe x hx i c)
  obtain ⟨m, hm⟩ := fold_max_coe (Xr x i) Finset.univ Finset.univ_nonempty
  rw [Mr, h, hm, EReal.toReal_coe]

/-- Taking the maximum against −∞ once more changes nothing. -/
theorem rowMaxE'_eq (i : Fin 4096) : rowMaxE' x i = ((Mr x i : ℝ) : EReal) := by
  rw [rowMaxE', cNegInf_eq, max_eq_right bot_le, rowMaxE_coe x hx i]

/-- The logarithm of the sum of the exponentials shifted by a real is a real: the sum is positive. -/
theorem rowLseE_coe (m : ℝ) (i : Fin 4096) :
    rowLseE x (m : EReal) i = ((Real.log (∑ c : Fin 32000, Real.exp (Xr x i c - m)) : ℝ) : EReal) := by
  have hpos : 0 < ∑ c : Fin 32000, Real.exp (Xr x i c - m) :=
    Finset.sum_pos (fun c _ => Real.exp_pos _) Finset.univ_nonempty
  have hterm : ∀ c : Fin 32000, Ideal.exp (x (ix2 i c) - (m : EReal)) = ((Real.exp (Xr x i c - m) : ℝ) : EReal) := by
    intro c
    rw [x_coe x hx i c, ← EReal.coe_sub, Ideal.exp_coe]
  rw [rowLseE, Finset.sum_congr rfl (fun c _ => hterm c), coe_sum, Ideal.log_coe, if_neg (not_le.mpr hpos)]

/-- The row sum is a real. -/
theorem rowSumE_coe (i : Fin 4096) : rowSumE x i = ((∑ c : Fin 32000, Xr x i c : ℝ) : EReal) := by
  rw [rowSumE, Finset.sum_congr rfl (fun c _ => x_coe x hx i c), coe_sum]

/-- The row's log-partition is the real M i + L i. -/
theorem rowZE_coe (i : Fin 4096) : rowZE x i = ((Mr x i + Lr x i : ℝ) : EReal) := by
  rw [rowZE, rowMaxE_coe x hx i, rowLseE_coe x hx (Mr x i) i, ← EReal.coe_add, Lr]

/-- The log-probability, as the dense arrangement spells it, is the real (X i c − M i) − L i. -/
theorem logProbE_coe (i : Fin 4096) (c : Fin 32000) :
    logProbE x i c = (((Xr x i c - Mr x i) - Lr x i : ℝ) : EReal) := by
  rw [logProbE, rowMaxE'_eq x hx i, rowLseE_coe x hx (Mr x i) i, x_coe x hx i c, ← EReal.coe_sub, ← EReal.coe_sub, Lr]

end

/-- The histogram of the soft indices is a real. -/
theorem softHistE_coe (pos : Fin 4096 → Fin 50 → Fin 32000) (i : Fin 4096) (c : Fin 32000) :
    softHistE pos i c = ((∑ p : Fin 50, (if pos i p = c then rD else 0) : ℝ) : EReal) := by
  have hterm : ∀ p : Fin 50, (if pos i p = c then cD else (0 : EReal))
      = (((if pos i p = c then rD else 0) : ℝ) : EReal) := by
    intro p
    split_ifs
    · exact cD_coe
    · exact EReal.coe_zero.symm
  rw [softHistE, Finset.sum_congr rfl (fun p _ => hterm p), coe_sum]

/-! ### One row of each arrangement -/

/-- One row's summand of the row-by-row arrangement, on real arguments. -/
theorem rows_term_coe (xt z s sp : ℝ) :
    (cA * (cNA * ((xt : EReal) - (z : EReal)) - cB * ((s : EReal) - c32000 * (z : EReal)))
        + cW * (cNC8 * ((xt : EReal) - (z : EReal)) - cD * ((sp : EReal) - c50 * (z : EReal))))
      = ((rA * (-rA * (xt - z) - rB * (s - 32000 * z))
          + rW * (-rC8 * (xt - z) - rD * (sp - 50 * z)) : ℝ) : EReal) := by
  rw [cA_coe, cNA_coe, cB_coe, cW_coe, cNC8_coe, cD_coe, c32000_eq, c50_eq]
  simp only [← EReal.coe_mul, ← EReal.coe_sub, ← EReal.coe_add]

/-- One entry's summand of the hard-label part of the dense arrangement, on real arguments. -/
theorem dense_hard_term_coe (h lp : ℝ) :
    -(cA * (h : EReal) + cB) * (lp : EReal) = ((-(rA * h + rB) * lp : ℝ) : EReal) := by
  rw [cA_coe, cB_coe]
  simp only [← EReal.coe_mul, ← EReal.coe_add, ← EReal.coe_neg]

/-- One entry's summand of the soft-target part of the dense arrangement, on real arguments. -/
theorem dense_soft_term_coe (h sh lp : ℝ) :
    -(cC8 * (h : EReal) + (sh : EReal)) * (lp : EReal) = ((-(rC8 * h + sh) * lp : ℝ) : EReal) := by
  rw [cC8_coe]
  simp only [← EReal.coe_mul, ← EReal.coe_add, ← EReal.coe_neg]

/-- Division of a coerced real by 4096. -/
theorem div_c4096_coe (s : ℝ) : Ideal.div (s : EReal) c4096 = ((s / 4096 : ℝ) : EReal) := by
  rw [c4096_eq, Ideal.div_coe (by norm_num : (4096 : ℝ) ≠ 0), ← EReal.coe_mul, mul_one_div]

/-! ### The two arrangements as coerced reals -/

section
variable (x : Logits) (hx : ∀ i c, ∃ r : ℝ, x (ix2 i c) = (r : EReal))
  (t : Fin 4096 → Fin 32000) (pos : Fin 4096 → Fin 50 → Fin 32000)
include hx

/-- The row-by-row arrangement is the coercion of the real row-by-row arrangement. -/
theorem rowsE_coe :
    rowsE x t pos
      = ((kernelSide rA (-rA) rB (-rC8) rD rW 4096 32000 50 (Xr x) t pos (fun i => Mr x i + Lr x i) : ℝ) : EReal) := by
  have hrow : ∀ i : Fin 4096,
      (cA * (cNA * (x (ix2 i (t i)) - rowZE x i) - cB * (rowSumE x i - c32000 * rowZE x i))
        + cW * (cNC8 * (x (ix2 i (t i)) - rowZE x i)
                - cD * ((∑ p : Fin 50, x (ix2 i (pos i p))) - c50 * rowZE x i)))
      = ((rA * (-rA * (Xr x i (t i) - (Mr x i + Lr x i)) - rB * ((∑ c, Xr x i c) - 32000 * (Mr x i + Lr x i)))
          + rW * (-rC8 * (Xr x i (t i) - (Mr x i + Lr x i))
                  - rD * ((∑ p, Xr x i (pos i p)) - 50 * (Mr x i + Lr x i))) : ℝ) : EReal) := by
    intro i
    rw [x_coe x hx i (t i), rowZE_coe x hx i, rowSumE_coe x hx i,
      Finset.sum_congr rfl (fun p _ => x_coe x hx i (pos i p)), coe_sum]
    exact rows_term_coe _ _ _ _
  rw [rowsE, Finset.sum_congr rfl (fun i _ => hrow i), coe_sum, div_c4096_coe, kernelSide]

/-- The dense arrangement is the coercion of the real dense arrangement. -/
theorem denseE_coe :
    denseE x t pos = ((refSide rA rB rC8 rD rW 4096 (Xr x) t pos (Mr x) (Lr x) : ℝ) : EReal) := by
  have hhard : ∀ (c : Fin 32000) (i : Fin 4096),
      -(cA * oneHotE t i c + cB) * logProbE x i c
        = ((-(rA * (if t i = c then 1 else 0) + rB) * ((Xr x i c - Mr x i) - Lr x i) : ℝ) : EReal) := by
    intro c i
    rw [logProbE_coe x hx i c, oneHotE]
    exact dense_hard_term_coe _ _
  have hsoft : ∀ (c : Fin 32000) (i : Fin 4096),
      -(cC8 * oneHotE t i c + softHistE pos i c) * logProbE x i c
        = ((-(rC8 * (if t i = c then 1 else 0) + ∑ p, (if pos i p = c then rD else 0))
            * ((Xr x i c - Mr x i) - Lr x i) : ℝ) : EReal) := by
    intro c i
    rw [logProbE_coe x hx i c, softHistE_coe pos i c, oneHotE]
    exact dense_soft_term_coe _ _ _
  have hcolA : ∀ c : Fin 32000,
      Ideal.div (∑ i : Fin 4096, -(cA * oneHotE t i c + cB) * logProbE x i c) c4096
        = (((∑ i : Fin 4096, -(rA * (if t i = c then 1 else 0) + rB) * ((Xr x i c - Mr x i) - Lr x i)) / 4096 : ℝ) : EReal) := by
    intro c
    rw [Finset.sum_congr rfl (fun i _ => hhard c i), coe_sum, div_c4096_coe]
  have hcolW : ∀ c : Fin 32000,
      Ideal.div (∑ i : Fin 4096, -(cC8 * oneHotE t i c + softHistE pos i c) * logProbE x i c) c4096
        = (((∑ i : Fin 4096, -(rC8 * (if t i = c then 1 else 0) + ∑ p, (if pos i p = c then rD else 0))
            * ((Xr x i c - Mr x i) - Lr x i)) / 4096 : ℝ) : EReal) := by
    intro c
    rw [Finset.sum_congr rfl (fun i _ => hsoft c i), coe_sum, div_c4096_coe]
  rw [denseE, Finset.sum_congr rfl (fun c _ => hcolA c), Finset.sum_congr rfl (fun c _ => hcolW c),
    coe_sum, coe_sum, cA_coe, cW_coe, ← EReal.coe_mul, ← EReal.coe_mul, ← EReal.coe_add, refSide]

/-- On finite logits the two arrangements agree. -/
theorem rowsE_eq_denseE : rowsE x t pos = denseE x t pos := by
  have h := kernelSide_eq_refSide (B := 4096) (C := 32000) (P := 50) rA rB rC8 rD rW 4096 (Xr x) t pos (Mr x) (Lr x)
  simp only [Nat.cast_ofNat] at h
  rw [rowsE_coe x hx t pos, denseE_coe x hx t pos, h]

end

end Cert.LossSpec

end
-- ==== Proof.PreFacts.lean ====
/-
  The precondition `finite_inputs` read back as facts about the elements of its three arguments.

  The printed predicate is the conjunction of three `all`s:
    all (|x| < +∞), all (0 ≤ tg ∧ tg < 32000), all (0 ≤ pv ∧ pv < 32000),
  the two integer comparisons signed. An `all` is a reduction by `and` from 1 into the one-index shape, so its
  being 1 says that every element of the reduced array is 1. From there:
    • |a| = max a (-a) < ⊤ in the extended reals excludes a = ⊤ and a = ⊥, so a is a real;
    • a 32-bit word w with 0 ≤ w.toInt < 32000 has w.toNat < 32000, and w is the word of the natural w.toNat.
-/
import proofs.«116322_j81320910782918_1_alg».proof.Pre_finite_inputs
import proofs.«116322_j81320910782918_1_alg».proof.Proof.Gen.Pre_finite_inputs
import Idealize.ShloMosaic.Lib.ReduceAll
import Idealize.ShloMosaic.Lib.ValueIdx

noncomputable section

namespace Cert.PreFacts

open Idealize.ShloMosaic Idealize.ShloMosaic.ValueIdx
open Cert.Pre_finite_inputs

/-- The rank-0 shape has one index. -/
instance : Subsingleton S_.Idx := ⟨fun a b => funext fun d => d.elim0⟩

/-! ## (a) The three conjuncts, elementwise -/

/-- The predicate being 1 says: at every index |x| compares below the constant 0x7F800000, and every word of
    `tg` and of `pv` compares (signed) at least 0 and below 32000. -/
theorem conjuncts (x : FVec Ideal S4096x32000 .f32) (tg : IVec S4096 32) (pv : IVec S4096x50 32)
    (h : fn (F := Ideal) x tg pv = fun _ => 1#1) :
    (∀ j, Ideal.cmp .olt (max (x j) (-(x j))) (Ideal.ofBits .f32 0x7F800000#32) = 1#1)
    ∧ (∀ j, IntOp.cmpi .sge (tg j) 0#32 = 1#1 ∧ IntOp.cmpi .slt (tg j) 32000#32 = 1#1)
    ∧ (∀ j, IntOp.cmpi .sge (pv j) 0#32 = 1#1 ∧ IntOp.cmpi .slt (pv j) 32000#32 = 1#1) := by
  have e := congrFun h ix0
  dsimp only [fn, fn_part1] at e
  obtain ⟨e12, e3⟩ := IntOp.andi_eq_one.1 e
  obtain ⟨e1, e2⟩ := IntOp.andi_eq_one.1 e12
  have a1 := fun i => Host.reduce_andi_all _ _ _ _ _ e1 i
  have a2 := fun i => Host.reduce_andi_all _ _ _ _ _ e2 i
  have a3 := fun i => Host.reduce_andi_all _ _ _ _ _ e3 i
  exact ⟨fun j => a1 j, fun j => IntOp.andi_eq_one.1 (a2 j), fun j => IntOp.andi_eq_one.1 (a3 j)⟩

/-! ## (b) Finiteness of an element -/

theorem ofBool_eq_one (b : Bool) : BitVec.ofBool b = 1#1 ↔ b = true := by cases b <;> decide

/-- The word 0x7F800000 denotes +∞: exponent field all ones, fraction zero, sign clear. -/
theorem inf_eq_top : Ideal.ofBits .f32 0x7F800000#32 = (⊤ : EReal) := by
  simp [Ideal.ofBits, Ideal.ieee]

/-- An extended real whose absolute value max a (-a) is below ⊤ is a real: at ⊤ the maximum is ⊤, at ⊥ it is -⊥ = ⊤. -/
theorem real_of_abs_lt_top (a : EReal) (h : max a (-a) < ⊤) : ∃ r : ℝ, a = (r : EReal) := by
  induction a using EReal.rec with
  | bot => simp at h
  | coe r => exact ⟨r, rfl⟩
  | top => simp at h

theorem real_of_cmp (a : EReal) (h : Ideal.cmp .olt (max a (-a)) (Ideal.ofBits .f32 0x7F800000#32) = 1#1) :
    ∃ r : ℝ, a = (r : EReal) := by
  rw [inf_eq_top] at h
  simp only [Ideal.cmp, ofBool_eq_one, decide_eq_true_eq] at h
  exact real_of_abs_lt_top a h

/-! ## (c)–(e) A word in [0, 32000) signed -/

/-- A 32-bit word that reads, signed, at least 0 and below 32000 reads the same unsigned, so it is below 32000
    unsigned and is the word of that natural. -/
theorem word_range (w : BitVec 32) (h0 : IntOp.cmpi .sge w 0#32 = 1#1) (h1 : IntOp.cmpi .slt w 32000#32 = 1#1) :
    w.toNat < 32000 ∧ w = BitVec.ofNat 32 w.toNat := by
  rw [IntOp.cmpi_sge, show (0#32 : BitVec 32).toInt = 0 from by decide] at h0
  rw [IntOp.cmpi_slt, show (32000#32 : BitVec 32).toInt = 32000 from by decide] at h1
  have hlt := w.isLt
  rw [BitVec.toInt_eq_toNat_cond] at h0 h1
  refine ⟨?_, by simp⟩
  split at h0 <;> omega

/-! ## (f) The precondition decoded -/

/-- Under the precondition every entry of `x` is a real, and the words of `tg` and `pv` are the words of
    naturals below 32000. -/
theorem of_pre (x : FVec Ideal Cert.Pre_finite_inputs.S4096x32000 .f32) (tg : IVec Cert.Pre_finite_inputs.S4096 32)
    (pv : IVec Cert.Pre_finite_inputs.S4096x50 32)
    (h : Cert.Pre_finite_inputs.fn (F := Ideal) x tg pv = fun _ => 1#1) :
    (∀ i c, ∃ r : ℝ, x (ValueIdx.ix2 i c) = (r : EReal))
    ∧ ∃ (t : Fin 4096 → Fin 32000) (pos : Fin 4096 → Fin 50 → Fin 32000),
        (∀ i, tg (ValueIdx.ix1 i) = BitVec.ofNat 32 (t i).val)
        ∧ (∀ i p, pv (ValueIdx.ix2 i p) = BitVec.ofNat 32 (pos i p).val) := by
  obtain ⟨a1, a2, a3⟩ := conjuncts x tg pv h
  have ht : ∀ i : Fin 4096, (tg (ix1 i)).toNat < 32000 ∧ tg (ix1 i) = BitVec.ofNat 32 (tg (ix1 i)).toNat :=
    fun i => word_range _ (a2 (ix1 i)).1 (a2 (ix1 i)).2
  have hp : ∀ (i : Fin 4096) (p : Fin 50),
      (pv (ix2 i p)).toNat < 32000 ∧ pv (ix2 i p) = BitVec.ofNat 32 (pv (ix2 i p)).toNat :=
    fun i p => word_range _ (a3 (ix2 i p)).1 (a3 (ix2 i p)).2
  exact ⟨fun i c => real_of_cmp _ (a1 (ix2 i c)),
    fun i => ⟨(tg (ix1 i)).toNat, (ht i).1⟩, fun i p => ⟨(pv (ix2 i p)).toNat, (hp i p).1⟩,
    fun i => (ht i).2, fun i p => (hp i p).2⟩

end Cert.PreFacts

end
-- ==== Proof.lean ====
/-
  A label-smoothed cross entropy with a soft-target term over 4096 rows of 32000 logits. The kernel program computes,
  in one pipelined region of 64 grid points, each row's log-partition Z (maximum plus the logarithm of the sum of the
  shifted exponentials) and sum, then on the host gathers the logits at the target and at the 50 soft indices of each
  row and combines them row by row; the reference forms dense one-hot and histogram weights, multiplies them with the
  log-probabilities and averages. Over the extended reals, for finite logits and index words in range, the two are one
  number: log-probabilities are x − Z, a one-hot row picks the target's, the histogram picks the soft indices', and the
  sum of a row's log-probabilities is the row sum minus 32000 Z.

  The three frames: each program terminates on every weakly fair execution, faults nowhere and leaves its arguments
  as they were — the kernel programs by their region's run followed by the host lines, the reference as a straight line
  of host operations. The idealization rewrote nothing, so the kernel's two readings are one text.
-/
import proofs.«116322_j81320910782918_1_alg».proof.Defs
import proofs.«116322_j81320910782918_1_alg».proof.Proof.Gen.Kernel
import proofs.«116322_j81320910782918_1_alg».proof.Proof.Gen.KernelIdeal
import proofs.«116322_j81320910782918_1_alg».proof.Proof.Gen.ReferenceIdeal
import proofs.«116322_j81320910782918_1_alg».proof.Proof.Gen.Pre_finite_inputs
import proofs.«116322_j81320910782918_1_alg».proof.Proof.KernelFrame
import proofs.«116322_j81320910782918_1_alg».proof.Proof.KernelIdealFrame
import proofs.«116322_j81320910782918_1_alg».proof.Proof.KernelIdealValue
import proofs.«116322_j81320910782918_1_alg».proof.Proof.RefRunValue
import proofs.«116322_j81320910782918_1_alg».proof.Proof.RefValue
import proofs.«116322_j81320910782918_1_alg».proof.Proof.LossBridge
import proofs.«116322_j81320910782918_1_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefRunValue.run (F := Ideal) m ρ)

/-- From memories agreeing on the arguments, finite logits and index words in range: the kernel's loss buffer ends at
    the row-by-row arrangement, the reference's at the dense arrangement, and the two arrangements agree. -/
theorem algebraic : Cert.algebraic_KernelIdeal_ReferenceIdeal := by
  intro m ρ m' ρ' hpre hagree
  refine ⟨fun c => Pipeline.afterTail₀ Cert.KernelIdeal.cfgs (Cert.KernelIdeal.Hand.dats m) 0 (Cert.KernelIdeal.Hand.V0 m) Cert.KernelIdeal.Hand.tailOps c Cert.KernelIdeal.main_v33,
    Cert.KernelIdeal.Hand.run_named m ρ, ?_⟩
  refine (θ_run Cert.ReferenceIdeal.defs _ _).mono (fun _ h c => ⟨(h c).1.trans ?_, (h c).2⟩)
    (Cert.ReferenceIdeal.RefRunValue.run (F := Ideal) m' ρ')
  obtain ⟨hx, t, pos, ht, hp⟩ := Cert.PreFacts.of_pre _ _ _ (hpre c)
  rw [(hagree c).1, (hagree c).2.1, (hagree c).2.2]
  rw [Cert.ReferenceIdeal.RefValue.ref_value _ _ _ t pos ht hp, ← Cert.LossSpec.rowsE_eq_denseE _ hx t pos]
  exact (Cert.KernelIdeal.Value.kernel_value m c t pos ht hp).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
